-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v150)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S131072 : Shape := ⟨1, ![131072]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S1024x256 .f32) (main_arg12 : FVec F S256 .f32) (main_arg13 : FVec F S256 .f32) (main_arg14 : FVec F S256 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x256 .f32 := Host.absf main_arg11
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x1024 .f32) (main_arg10 : FVec F S1024 .f32) (main_arg11 : FVec F S1024x256 .f32) (main_arg12 : FVec F S256 .f32) (main_arg13 : FVec F S256 .f32) (main_arg14 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1024 .f32 := Host.absf main_arg9
  let main_cst_16 : FVec F S_ .f32 := constant S_ .f32 0x7F800000#32
  let main_v45 : FVec F S256x1024 .f32 := broadcastInDim S256x1024 ![] bcast_S_S256x1024 main_cst_16
  let main_v46 : IVec S256x1024 1 := cmpf .olt main_v44 main_v45
  let main_c_17 : IVec S_ 1 := constantI S_ 1 1#1
  let main_v47 : IVec S_ 1 := (fun x v => Host.reduce IntOp.andi x v reducesTo_S256x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x1024 .f32) (main_arg10 : FVec F S1024 .f32) (main_arg11 : FVec F S1024x256 .f32) (main_arg12 : FVec F S256 .f32) (main_arg13 : FVec F S256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x1024 .f32) (main_arg10 : FVec F S1024 .f32) (main_arg11 : FVec F S1024x256 .f32) (main_arg12 : FVec F S256 .f32) (main_arg13 : FVec F S256 .f32) (main_arg14 : FVec F S256 .f32) (main_arg15 : IVec S131072 32) (main_arg16 : IVec S131072 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x256 : Shape := ⟨2, ![8192, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S131072 : Shape := ⟨1, ![131072]⟩
abbrev S_ : Shape := ⟨0, ![]⟩
abbrev S8192 : Shape := ⟨1, ![8192]⟩
abbrev S131072x1 : Shape := ⟨2, ![131072, 1]⟩
abbrev S8192x1 : Shape := ⟨2, ![8192, 1]⟩
abbrev S131072x256 : Shape := ⟨2, ![131072, 256]⟩
abbrev S256x768 : Shape := ⟨2, ![256, 768]⟩
abbrev S768 : Shape := ⟨1, ![768]⟩
abbrev S8192x768 : Shape := ⟨2, ![8192, 768]⟩
abbrev S1x768 : Shape := ⟨2, ![1, 768]⟩
abbrev S8192x8192 : Shape := ⟨2, ![8192, 8192]⟩
abbrev S128x256 : Shape := ⟨2, ![128, 256]⟩
abbrev S128x8192 : Shape := ⟨2, ![128, 8192]⟩
abbrev S128 : Shape := ⟨1, ![128]⟩
abbrev S128x1 : Shape := ⟨2, ![128, 1]⟩
abbrev S1x256 : Shape := ⟨2, ![1, 256]⟩
abbrev S8192x1024 : Shape := ⟨2, ![8192, 1024]⟩
abbrev S1x1024 : Shape := ⟨2, ![1, 1024]⟩

abbrev nBuf : Space → Nat
  | .hbm => 200
  | .vmem => 8
  | .smem => 0
  | _ => 0

abbrev hbmTy0_0 (i : Nat) : BufTy := match i % 128 with
  | 0 => ⟨S8192x256, .f32⟩
  | 1 => ⟨S256x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x1024, .f32⟩
  | 10 => ⟨S1024, .f32⟩
  | 11 => ⟨S1024x256, .f32⟩
  | 12 => ⟨S256, .f32⟩
  | 13 => ⟨S256, .f32⟩
  | 14 => ⟨S256, .f32⟩
  | 15 => ⟨S131072, .i32⟩
  | 16 => ⟨S131072, .i32⟩
  | 17 => ⟨S_, .f32⟩
  | 18 => ⟨S131072, .f32⟩
  | 19 => ⟨S_, .f32⟩
  | 20 => ⟨S8192, .f32⟩
  | 21 => ⟨S131072x1, .i32⟩
  | 22 => ⟨S8192, .f32⟩
  | 23 => ⟨S_, .f32⟩
  | 24 => ⟨S8192, .f32⟩
  | 25 => ⟨S8192, .f32⟩
  | 26 => ⟨S_, .f32⟩
  | 27 => ⟨S8192, .f32⟩
  | 28 => ⟨S8192, .f32⟩
  | 29 => ⟨S_, .f32⟩
  | 30 => ⟨S8192, .f32⟩
  | 31 => ⟨S131072x1, .i32⟩
  | 32 => ⟨S8192, .f32⟩
  | 33 => ⟨S_, .f32⟩
  | 34 => ⟨S8192, .f32⟩
  | 35 => ⟨S8192, .f32⟩
  | 36 => ⟨S_, .f32⟩
  | 37 => ⟨S8192, .f32⟩
  | 38 => ⟨S8192, .f32⟩
  | 39 => ⟨S8192x1, .f32⟩
  | 40 => ⟨S8192x256, .f32⟩
  | 41 => ⟨S8192x256, .f32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x256, .f32⟩
  | 51 => ⟨S_, .f32⟩
  | 52 => ⟨S8192x256, .f32⟩
  | 53 => ⟨S131072x1, .i32⟩
  | 54 => ⟨S8192x256, .f32⟩
  | 55 => ⟨S8192x1, .f32⟩
  | 56 => ⟨S8192x256, .f32⟩
  | 57 => ⟨S8192x256, .f32⟩
  | 58 => ⟨S256x768, .f32⟩
  | 59 => ⟨S768, .f32⟩
  | 60 => ⟨S8192x768, .f32⟩
  | 61 => ⟨S1x768, .f32⟩
  | 62 => ⟨S8192x768, .f32⟩
  | 63 => ⟨S8192x768, .f32⟩
  | 64 => ⟨S8192x256, .f32⟩
  | 65 => ⟨S8192x256, .f32⟩
  | 66 => ⟨S8192x256, .f32⟩
  | 67 => ⟨S8192x8192, .f32⟩
  | 68 => ⟨S8192x256, .f32⟩
  | 69 => ⟨S8192x1, .f32⟩
  | 70 => ⟨S8192x256, .f32⟩
  | 71 => ⟨S8192x256, .f32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072x256, .f32⟩
  | 81 => ⟨S_, .f32⟩
  | 82 => ⟨S8192x256, .f32⟩
  | 83 => ⟨S131072x1, .i32⟩
  | 84 => ⟨S8192x256, .f32⟩
  | 85 => ⟨S8192x1, .f32⟩
  | 86 => ⟨S8192x256, .f32⟩
  | 87 => ⟨S8192x256, .f32⟩
  | 88 => ⟨S8192x256, .f32⟩
  | 89 => ⟨S1x256, .f32⟩
  | 90 => ⟨S8192x256, .f32⟩
  | 91 => ⟨S8192x256, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S8192x256, .f32⟩
  | 100 => ⟨S8192x256, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x256, .f32⟩
  | 108 => ⟨S8192x256, .f32⟩
  | 109 => ⟨S_, .f32⟩
  | 110 => ⟨S8192x1, .f32⟩
  | 111 => ⟨S8192x1, .f32⟩
  | 112 => ⟨S8192x1, .f32⟩
  | 113 => ⟨S8192x256, .f32⟩
  | 114 => ⟨S8192x256, .f32⟩
  | 115 => ⟨S1x256, .f32⟩
  | 116 => ⟨S8192x256, .f32⟩
  | 117 => ⟨S8192x256, .f32⟩
  | 118 => ⟨S1x256, .f32⟩
  | 119 => ⟨S8192x256, .f32⟩
  | 120 => ⟨S8192x256, .f32⟩
  | 121 => ⟨S8192x256, .f32⟩
  | 122 => ⟨S8192x1, .f32⟩
  | 123 => ⟨S8192x256, .f32⟩
  | 124 => ⟨S8192x256, .f32⟩
  | 125 => ⟨S_, .i32⟩
  | 126 => ⟨S131072, .i32⟩
  | 127 => ⟨S131072, .i1⟩
  | _ => ⟨S8192x256, .f32⟩

abbrev hbmTy0_1 (i : Nat) : BufTy := match i % 128 with
  | 0 => ⟨S_, .i32⟩
  | 1 => ⟨S131072, .i32⟩
  | 2 => ⟨S131072, .i32⟩
  | 3 => ⟨S131072, .i32⟩
  | 4 => ⟨S131072x1, .i32⟩
  | 5 => ⟨S131072x256, .f32⟩
  | 6 => ⟨S_, .f32⟩
  | 7 => ⟨S8192x256, .f32⟩
  | 8 => ⟨S131072x1, .i32⟩
  | 9 => ⟨S8192x256, .f32⟩
  | 10 => ⟨S8192x1, .f32⟩
  | 11 => ⟨S8192x256, .f32⟩
  | 12 => ⟨S8192x256, .f32⟩
  | 13 => ⟨S8192x1024, .f32⟩
  | 14 => ⟨S1x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x256, .f32⟩
  | 21 => ⟨S8192x1, .f32⟩
  | 22 => ⟨S8192x256, .f32⟩
  | 23 => ⟨S8192x256, .f32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S131072x256, .f32⟩
  | 33 => ⟨S_, .f32⟩
  | 34 => ⟨S8192x256, .f32⟩
  | 35 => ⟨S131072x1, .i32⟩
  | 36 => ⟨S8192x256, .f32⟩
  | 37 => ⟨S8192x1, .f32⟩
  | 38 => ⟨S8192x256, .f32⟩
  | 39 => ⟨S8192x256, .f32⟩
  | 40 => ⟨S1x256, .f32⟩
  | 41 => ⟨S8192x256, .f32⟩
  | 42 => ⟨S8192x256, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x256, .f32⟩
  | 50 => ⟨S8192x256, .f32⟩
  | 51 => ⟨S8192x256, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x256, .f32⟩
  | 59 => ⟨S8192x256, .f32⟩
  | 60 => ⟨S_, .f32⟩
  | 61 => ⟨S8192x1, .f32⟩
  | 62 => ⟨S8192x1, .f32⟩
  | 63 => ⟨S8192x1, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S1x256, .f32⟩
  | 70 => ⟨S8192x256, .f32⟩
  | 71 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S8192x256, .f32⟩
  | .local _ .vmem, ⟨3, _⟩ => ⟨S8192x256, .f32⟩
  | .local _ .vmem, ⟨4, _⟩ => ⟨S128x8192, .f32⟩
  | .local _ .vmem, ⟨5, _⟩ => ⟨S128x8192, .f32⟩
  | .local _ .vmem, ⟨6, _⟩ => ⟨S128x256, .f32⟩
  | .local _ .vmem, ⟨7, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_4 : Ref sig .tc := ⟨.hbm, 33, rfl⟩
abbrev main_v11 : Ref sig .tc := ⟨.hbm, 34, rfl⟩
abbrev main_v12 : Ref sig .tc := ⟨.hbm, 35, rfl⟩
abbrev main_cst_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40_0 : Ref sig .tc := ⟨.hbm, 67, rfl⟩
abbrev main_v40_1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_16 : Ref sig .tc := ⟨.hbm, 125, rfl⟩
abbrev main_v89 : Ref sig .tc := ⟨.hbm, 126, rfl⟩
abbrev main_v90 : Ref sig .tc := ⟨.hbm, 127, rfl⟩
abbrev main_c_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call0_cst : Ref sig .tc := ⟨.hbm, 145, rfl⟩
abbrev main_call0_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_19 : Ref sig .tc := ⟨.hbm, 152, rfl⟩
abbrev main_v111 : Ref sig .tc := ⟨.hbm, 153, rfl⟩
abbrev main_v112 : Ref sig .tc := ⟨.hbm, 154, rfl⟩
abbrev main_c_20 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_21 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_22 : Ref sig .tc := ⟨.hbm, 171, rfl⟩
abbrev main_v127 : Ref sig .tc := ⟨.hbm, 172, rfl⟩
abbrev main_v128 : Ref sig .tc := ⟨.hbm, 173, rfl⟩
abbrev main_cst_23 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_24 : Ref sig .tc := ⟨.hbm, 180, rfl⟩
abbrev main_v134 : Ref sig .tc := ⟨.hbm, 181, rfl⟩
abbrev main_v135 : Ref sig .tc := ⟨.hbm, 182, rfl⟩
abbrev main_cst_25 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_26 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  concatenates_S256x256_S256x256_S256x256_S256x768_d1 : Shape.Concatenates [S256x256, S256x256, S256x256] S256x768 1
  concatenates_S256_S256_S256_S768_d0 : Shape.Concatenates [S256, S256, S256] S768 0
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S128x8192_S128 : S128x8192.Reduces [1] S128
  shapeCasts_S128_S128x1 : S128.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  scatter_S8192_S131072x1_S131072_n_0_0_1_wf : ScatterDims.WF S8192 S131072x1 S131072 [] [0] [0] 1
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x768_S8192x768_1_0_0_1_n_n_wf : DotDims.WF S8192x256 S256x768 S8192x768 [1] [0] [0] [1] [] []
  dot_S128x256_S8192x256_S128x8192_1_1_0_0_n_n_wf : DotDims.WF S128x256 S8192x256 S128x8192 [1] [1] [0] [0] [] []
  dot_S128x8192_S8192x256_S128x256_1_0_0_1_n_n_wf : DotDims.WF S128x8192 S8192x256 S128x256 [1] [0] [0] [1] [] []
  dot_S8192x256_S256x256_S8192x256_1_0_0_1_n_n_wf : DotDims.WF S8192x256 S256x256 S8192x256 [1] [0] [0] [1] [] []
  dot_S8192x256_S256x1024_S8192x1024_1_0_0_1_n_n_wf : DotDims.WF S8192x256 S256x1024 S8192x1024 [1] [0] [0] [1] [] []
  dot_S8192x1024_S1024x256_S8192x256_1_0_0_1_n_n_wf : DotDims.WF S8192x1024 S1024x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .f32 = 32 ∨ (Rect.block (s := S8192x256) S8192x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S8192x256.size a
  hwx0_4 : ∀ i : grid0.Coords, EltTy.bits .f32 = 32 ∨ (Rect.block (s := S8192x256) S128x256.size (cc0_transform_4 i) (hinb0_4 i)).WholeWords (EltTy.packing .f32)

variable [Facts₀]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf

abbrev win0_0 : Pipeline.Window sig grid0 :=
  Pipeline.Window.ofSpec (Memref.whole main_v37) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S128x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S131072 : Shape := ⟨1, ![131072]⟩
abbrev S_ : Shape := ⟨0, ![]⟩
abbrev S8192 : Shape := ⟨1, ![8192]⟩
abbrev S131072x1 : Shape := ⟨2, ![131072, 1]⟩
abbrev S8192x1 : Shape := ⟨2, ![8192, 1]⟩
abbrev S131072x256 : Shape := ⟨2, ![131072, 256]⟩
abbrev S1x256 : Shape := ⟨2, ![1, 256]⟩
abbrev S256x8192 : Shape := ⟨2, ![256, 8192]⟩
abbrev S8192x8192 : Shape := ⟨2, ![8192, 8192]⟩
abbrev S8192x1024 : Shape := ⟨2, ![8192, 1024]⟩
abbrev S1x1024 : Shape := ⟨2, ![1, 1024]⟩
abbrev S131072x1024 : Shape := ⟨2, ![131072, 1024]⟩

abbrev nBuf : Space → Nat
  | .hbm => 260
  | .vmem => 0
  | .smem => 0
  | _ => 0

abbrev hbmTy0_0 (i : Nat) : BufTy := match i % 128 with
  | 0 => ⟨S8192x256, .f32⟩
  | 1 => ⟨S256x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x1024, .f32⟩
  | 10 => ⟨S1024, .f32⟩
  | 11 => ⟨S1024x256, .f32⟩
  | 12 => ⟨S256, .f32⟩
  | 13 => ⟨S256, .f32⟩
  | 14 => ⟨S256, .f32⟩
  | 15 => ⟨S131072, .i32⟩
  | 16 => ⟨S131072, .i32⟩
  | 17 => ⟨S_, .f32⟩
  | 18 => ⟨S131072, .f32⟩
  | 19 => ⟨S_, .f32⟩
  | 20 => ⟨S8192, .f32⟩
  | 21 => ⟨S131072x1, .i32⟩
  | 22 => ⟨S8192, .f32⟩
  | 23 => ⟨S_, .f32⟩
  | 24 => ⟨S8192, .f32⟩
  | 25 => ⟨S8192, .f32⟩
  | 26 => ⟨S_, .f32⟩
  | 27 => ⟨S8192, .f32⟩
  | 28 => ⟨S8192, .f32⟩
  | 29 => ⟨S_, .f32⟩
  | 30 => ⟨S8192, .f32⟩
  | 31 => ⟨S131072x1, .i32⟩
  | 32 => ⟨S8192, .f32⟩
  | 33 => ⟨S_, .f32⟩
  | 34 => ⟨S8192, .f32⟩
  | 35 => ⟨S8192, .f32⟩
  | 36 => ⟨S_, .f32⟩
  | 37 => ⟨S8192, .f32⟩
  | 38 => ⟨S8192, .f32⟩
  | 39 => ⟨S8192x1, .f32⟩
  | 40 => ⟨S8192x256, .f32⟩
  | 41 => ⟨S8192x256, .f32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x256, .f32⟩
  | 51 => ⟨S_, .f32⟩
  | 52 => ⟨S8192x256, .f32⟩
  | 53 => ⟨S131072x1, .i32⟩
  | 54 => ⟨S8192x256, .f32⟩
  | 55 => ⟨S8192x1, .f32⟩
  | 56 => ⟨S8192x256, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S8192x1, .f32⟩
  | 63 => ⟨S8192x256, .f32⟩
  | 64 => ⟨S8192x256, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x256, .f32⟩
  | 74 => ⟨S_, .f32⟩
  | 75 => ⟨S8192x256, .f32⟩
  | 76 => ⟨S131072x1, .i32⟩
  | 77 => ⟨S8192x256, .f32⟩
  | 78 => ⟨S8192x1, .f32⟩
  | 79 => ⟨S8192x256, .f32⟩
  | 80 => ⟨S8192x256, .f32⟩
  | 81 => ⟨S8192x256, .f32⟩
  | 82 => ⟨S1x256, .f32⟩
  | 83 => ⟨S8192x256, .f32⟩
  | 84 => ⟨S8192x256, .f32⟩
  | 85 => ⟨S8192x1, .f32⟩
  | 86 => ⟨S8192x256, .f32⟩
  | 87 => ⟨S8192x256, .f32⟩
  | 88 => ⟨S_, .i32⟩
  | 89 => ⟨S131072, .i32⟩
  | 90 => ⟨S131072, .i1⟩
  | 91 => ⟨S_, .i32⟩
  | 92 => ⟨S131072, .i32⟩
  | 93 => ⟨S131072, .i32⟩
  | 94 => ⟨S131072, .i32⟩
  | 95 => ⟨S131072x1, .i32⟩
  | 96 => ⟨S131072x256, .f32⟩
  | 97 => ⟨S_, .f32⟩
  | 98 => ⟨S8192x256, .f32⟩
  | 99 => ⟨S131072x1, .i32⟩
  | 100 => ⟨S8192x256, .f32⟩
  | 101 => ⟨S8192x1, .f32⟩
  | 102 => ⟨S8192x256, .f32⟩
  | 103 => ⟨S8192x256, .f32⟩
  | 104 => ⟨S8192x256, .f32⟩
  | 105 => ⟨S1x256, .f32⟩
  | 106 => ⟨S8192x256, .f32⟩
  | 107 => ⟨S8192x256, .f32⟩
  | 108 => ⟨S256x8192, .f32⟩
  | 109 => ⟨S8192x8192, .f32⟩
  | 110 => ⟨S_, .f32⟩
  | 111 => ⟨S_, .f32⟩
  | 112 => ⟨S8192x8192, .f32⟩
  | 113 => ⟨S8192x8192, .f32⟩
  | 114 => ⟨S_, .f32⟩
  | 115 => ⟨S8192, .f32⟩
  | 116 => ⟨S_, .f32⟩
  | 117 => ⟨S8192, .f32⟩
  | 118 => ⟨S8192, .f32⟩
  | 119 => ⟨S8192x1, .f32⟩
  | 120 => ⟨S8192x8192, .f32⟩
  | 121 => ⟨S8192x8192, .f32⟩
  | 122 => ⟨S8192x8192, .f32⟩
  | 123 => ⟨S_, .f32⟩
  | 124 => ⟨S8192, .f32⟩
  | 125 => ⟨S8192x1, .f32⟩
  | 126 => ⟨S8192x8192, .f32⟩
  | 127 => ⟨S8192x8192, .f32⟩
  | _ => ⟨S8192x256, .f32⟩

abbrev hbmTy0_1 (i : Nat) : BufTy := match i % 128 with
  | 0 => ⟨S8192x256, .f32⟩
  | 1 => ⟨S8192x1, .f32⟩
  | 2 => ⟨S8192x256, .f32⟩
  | 3 => ⟨S8192x256, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x256, .f32⟩
  | 13 => ⟨S_, .f32⟩
  | 14 => ⟨S8192x256, .f32⟩
  | 15 => ⟨S131072x1, .i32⟩
  | 16 => ⟨S8192x256, .f32⟩
  | 17 => ⟨S8192x1, .f32⟩
  | 18 => ⟨S8192x256, .f32⟩
  | 19 => ⟨S8192x256, .f32⟩
  | 20 => ⟨S8192x256, .f32⟩
  | 21 => ⟨S1x256, .f32⟩
  | 22 => ⟨S8192x256, .f32⟩
  | 23 => ⟨S8192x256, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x256, .f32⟩
  | 31 => ⟨S8192x256, .f32⟩
  | 32 => ⟨S8192x256, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x256, .f32⟩
  | 40 => ⟨S8192x256, .f32⟩
  | 41 => ⟨S_, .f32⟩
  | 42 => ⟨S8192x1, .f32⟩
  | 43 => ⟨S8192x1, .f32⟩
  | 44 => ⟨S8192x1, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S1x256, .f32⟩
  | 51 => ⟨S8192x256, .f32⟩
  | 52 => ⟨S8192x256, .f32⟩
  | 53 => ⟨S8192x256, .f32⟩
  | 54 => ⟨S8192x1, .f32⟩
  | 55 => ⟨S8192x256, .f32⟩
  | 56 => ⟨S8192x256, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x256, .f32⟩
  | 66 => ⟨S_, .f32⟩
  | 67 => ⟨S8192x256, .f32⟩
  | 68 => ⟨S131072x1, .i32⟩
  | 69 => ⟨S8192x256, .f32⟩
  | 70 => ⟨S8192x1, .f32⟩
  | 71 => ⟨S8192x256, .f32⟩
  | 72 => ⟨S8192x256, .f32⟩
  | 73 => ⟨S8192x1024, .f32⟩
  | 74 => ⟨S1x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1, .f32⟩
  | 81 => ⟨S8192x1024, .f32⟩
  | 82 => ⟨S8192x1024, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x1024, .f32⟩
  | 92 => ⟨S_, .f32⟩
  | 93 => ⟨S8192x1024, .f32⟩
  | 94 => ⟨S131072x1, .i32⟩
  | 95 => ⟨S8192x1024, .f32⟩
  | 96 => ⟨S8192x1, .f32⟩
  | 97 => ⟨S8192x1024, .f32⟩
  | 98 => ⟨S8192x1024, .f32⟩
  | 99 => ⟨S8192x256, .f32⟩
  | 100 => ⟨S1x256, .f32⟩
  | 101 => ⟨S8192x256, .f32⟩
  | 102 => ⟨S8192x256, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x256, .f32⟩
  | 110 => ⟨S8192x256, .f32⟩
  | 111 => ⟨S8192x256, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x256, .f32⟩
  | 119 => ⟨S8192x256, .f32⟩
  | 120 => ⟨S_, .f32⟩
  | 121 => ⟨S8192x1, .f32⟩
  | 122 => ⟨S8192x1, .f32⟩
  | 123 => ⟨S8192x1, .f32⟩
  | 124 => ⟨S8192x256, .f32⟩
  | 125 => ⟨S8192x256, .f32⟩
  | 126 => ⟨S1x256, .f32⟩
  | 127 => ⟨S8192x256, .f32⟩
  | _ => ⟨S8192x256, .f32⟩

abbrev hbmTy0_2 (i : Nat) : BufTy := match i % 128 with
  | 0 => ⟨S8192x256, .f32⟩
  | 1 => ⟨S1x256, .f32⟩
  | 2 => ⟨S8192x256, .f32⟩
  | 3 => ⟨S8192x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_4 : Ref sig .tc := ⟨.hbm, 33, rfl⟩
abbrev main_v11 : Ref sig .tc := ⟨.hbm, 34, rfl⟩
abbrev main_v12 : Ref sig .tc := ⟨.hbm, 35, rfl⟩
abbrev main_cst_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_18 : Ref sig .tc := ⟨.hbm, 132, rfl⟩
abbrev main_v95 : Ref sig .tc := ⟨.hbm, 133, rfl⟩
abbrev main_v96 : Ref sig .tc := ⟨.hbm, 134, rfl⟩
abbrev main_c_19 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_20 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_v113 : Ref sig .tc := ⟨.hbm, 154, rfl⟩
abbrev main_cst_22 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_23 : Ref sig .tc := ⟨.hbm, 161, rfl⟩
abbrev main_v119 : Ref sig .tc := ⟨.hbm, 162, rfl⟩
abbrev main_v120 : Ref sig .tc := ⟨.hbm, 163, rfl⟩
abbrev main_cst_24 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_25 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_26 : Ref sig .tc := ⟨.hbm, 185, rfl⟩
abbrev main_v140 : Ref sig .tc := ⟨.hbm, 186, rfl⟩
abbrev main_v141 : Ref sig .tc := ⟨.hbm, 187, rfl⟩
abbrev main_c_27 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_28 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_call0_cst : Ref sig .tc := ⟨.hbm, 205, rfl⟩
abbrev main_call0_v0 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_29 : Ref sig .tc := ⟨.hbm, 211, rfl⟩
abbrev main_v161 : Ref sig .tc := ⟨.hbm, 212, rfl⟩
abbrev main_v162 : Ref sig .tc := ⟨.hbm, 213, rfl⟩
abbrev main_c_30 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_31 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_32 : Ref sig .tc := ⟨.hbm, 231, rfl⟩
abbrev main_v178 : Ref sig .tc := ⟨.hbm, 232, rfl⟩
abbrev main_v179 : Ref sig .tc := ⟨.hbm, 233, rfl⟩
abbrev main_cst_33 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_34 : Ref sig .tc := ⟨.hbm, 240, rfl⟩
abbrev main_v185 : Ref sig .tc := ⟨.hbm, 241, rfl⟩
abbrev main_v186 : Ref sig .tc := ⟨.hbm, 242, rfl⟩
abbrev main_cst_35 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_36 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S8192 : S_.BroadcastsInDim S8192 (![] : Fin 0 → Fin S8192.rank)
  bcast_S131072_S131072x1_0 : S131072.BroadcastsInDim S131072x1 (![0] : Fin 1 → Fin S131072x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  reducesTo_S8192x256_S8192_d1 : S8192x256.ReducesTo [1] S8192
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  scatter_S8192_S131072x1_S131072_n_0_0_1_wf : ScatterDims.WF S8192 S131072x1 S131072 [] [0] [0] 1
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x1024_S8192x1024_1_0_0_1_n_n_wf : DotDims.WF S8192x256 S256x1024 S8192x1024 [1] [0] [0] [1] [] []
  gather_S8192x1024_S131072x1_S131072x1024_1_0_n_n_0_1_11024_wf : GatherDims.WF S8192x1024 S131072x1 S131072x1024 [1] [0] [] [0] [] 1 ![1, 1024]
  scatter_S8192x1024_S131072x1_S131072x1024_1_0_0_1_wf : ScatterDims.WF S8192x1024 S131072x1 S131072x1024 [1] [0] [0] 1
  dot_S8192x1024_S1024x256_S8192x256_1_0_0_1_n_n_wf : DotDims.WF S8192x1024 S1024x256 S8192x256 [1] [0] [0] [1] [] []

variable [Facts₀]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def gather_S8192x1024_S131072x1_S131072x1024_1_0_n_n_0_1_11024 : GatherDims S8192x1024 S131072x1 S131072x1024 where
  offsetDims := [1]
  collapsedSliceDims := [0]
  operandBatchingDims := []
  startIndicesBatchingDims := []
  startIndexMap := [0]
  indexVectorDim := 1
  sliceSizes := ![1, 1024]
  wf := gather_S8192x1024_S131072x1_S131072x1024_1_0_n_n_0_1_11024_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf

class Facts : Prop extends Facts₀ where

variable [Facts]
-- ==== Proof.KernelRegion.lean ====
/-
  The attention region of `Kernel` and the host lines around it: the contents the region finds
  (the host lines before it applied to the launch memory), each window's block at a grid point,
  what the body leaves in the two output windows' staging buffers — the softmax block
  `k0_pay1` of the query block and the keys, and its product `k0_pay2` with the values —
  and the proof data of the one pipeline over them.
-/
import proofs.«122702_j23356032156211_2_alg».proof.Proof.Gen.Kernel.Launch
import proofs.«122702_j23356032156211_2_alg».proof.Proof.Gen.Kernel.Skeleton
import proofs.«122702_j23356032156211_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host lines after the region, stretch by stretch: the lines of @main up to the call of
    the rectifier, the rectifier's own lines, the lines of @main after it. -/
abbrev tailOps : List (List (HloOp τ sig (Elt F))) := [hostOps1, hostOps1_1, hostOps1_2]

/-- Core `c`'s buffer contents when the region is entered: the host lines before it, applied
    to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole query block, the whole key (or value) matrix, the whole score block. -/
abbrev rQ : Rect S128x256 := Rect.unit (s := S128x256) ![0, 0] S128x256.size inb_S128x256_S128x256_0_0
abbrev rK : Rect S8192x256 := Rect.unit (s := S8192x256) ![0, 0] S8192x256.size inb_S8192x256_S8192x256_0_0
abbrev rP : Rect S128x8192 := Rect.unit (s := S128x8192) ![0, 0] S128x8192.size inb_S128x8192_S128x8192_0_0

/-- The attention-weights window's staging buffer after the body: the softmax of the scaled
    scores of the query block against all keys, stored whole. -/
def out0_3 (x0 : Vec F S128x256 .f32) (x1 : Vec F S8192x256 .f32) : Vec F S128x8192 .f32 :=
  View.canon [⟨rP, k0_pay1 (View.ld x0 rQ) (View.ld x1 rK)⟩]

/-- The second output window's staging buffer after the body: those weights times the values. -/
def out0_4 (x0 : Vec F S128x256 .f32) (x1 x2 : Vec F S8192x256 .f32) : Vec F S128x256 .f32 :=
  View.canon [⟨rQ, k0_pay2 (View.ld x0 rQ) (View.ld x1 rK) (View.ld x2 rK)⟩]

/-- The proof data of the pipeline on core `c`: the arrays as the region finds them; after the
    body at point `t` each input's buffer still at its block, each output's at the body's result
    of the input blocks; nothing else is used and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) := by dsimp only [dats]
theorem after0_4 (c : Dev nD) (t : Fin cfg0.N) :
    (dats m 0 c).after 4 t = out0_4 (iblk m c 0 t) (iblk m c 1 t) (iblk m c 2 t) := by dsimp only [dats]

end Cert.Kernel.Hand

end
-- ==== Proof.KernelFrameTail.lean ====
/-
  The host lines around the attention region of `Kernel`. Every line allocates nothing and writes
  exactly one buffer, its result; the results of a stretch are listed once, in order, and a buffer
  outside the list is therefore untouched by the stretch. From this: @main reduces to the region
  continued by the later lines; those lines stay within the unscoped buffers, allocate nothing and
  write no array of the pipeline; and each of the seventeen argument arrays is written by no line
  at all, before the region or after it, so it reads as launched both where the region is entered
  and at the end.
-/
import proofs.«122702_j23356032156211_2_alg».proof.Proof.KernelRegion

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## A line writes its result only -/

/-- An operation whose writes are the one buffer of a reference in the list `W` writes within `W`. -/
theorem writes_sub_of_mem {W : List (Ref sig .tc)} {op : HloOp τ sig (Elt F)} (y : Ref sig .tc)
    (e : op.writes = {Proc.devRef .tc y}) (h : y ∈ W) :
    op.writes ⊆ (W.map (Proc.devRef (τ := τ) .tc)).toFinset := by
  rw [e, Finset.singleton_subset_iff, List.mem_toFinset]
  exact List.mem_map.mpr ⟨y, h, rfl⟩

/-- A reference outside a list that holds everything an operation writes is not written by it:
    distinct references are distinct device buffers. -/
theorem not_mem_writes_of_sub {W : List (Ref sig .tc)} {op : HloOp τ sig (Elt F)} {r : Ref sig .tc}
    (hW : op.writes ⊆ (W.map (Proc.devRef (τ := τ) .tc)).toFinset) (hr : r ∉ W) :
    Proc.devRef .tc r ∉ op.writes := fun hb => by
  obtain ⟨y, hy, he⟩ := List.mem_map.mp (List.mem_toFinset.mp (hW hb))
  exact hr (Proc.devRef_injective _ he ▸ hy)

/-- The result buffers of the lines before the region, in order. -/
abbrev headW : List (Ref sig .tc) := [
    main_cst, main_v0, main_cst_0, main_v1, main_v2, main_v3, main_cst_1, main_v4,
    main_v5, main_cst_2, main_v6, main_v7, main_cst_3, main_v8, main_v9, main_v10,
    main_cst_4, main_v11, main_v12, main_cst_5, main_v13, main_v14, main_v15, main_v16,
    main_v17, main_c, main_v18, main_v19, main_c_6, main_v20, main_v21, main_v22,
    main_v23, main_v24, main_cst_7, main_v25, main_v26, main_v27, main_v28, main_v29,
    main_v30, main_v31, main_v32, main_v33, main_v34, main_v35, main_v36, main_v37,
    main_v38, main_v39 ]

set_option maxHeartbeats 40000000 in
/-- Each of the lines before the region writes its own result buffer only. -/
theorem hostOps0_writes : (hostOps0 : List (HloOp τ sig (Elt F))).Forall fun op =>
    op.writes ⊆ (headW.map (Proc.devRef (τ := τ) .tc)).toFinset :=
  ⟨writes_sub_of_mem main_cst rfl (by decide), writes_sub_of_mem main_v0 rfl (by decide), writes_sub_of_mem main_cst_0 rfl (by decide),
   writes_sub_of_mem main_v1 rfl (by decide), writes_sub_of_mem main_v2 rfl (by decide), writes_sub_of_mem main_v3 rfl (by decide),
   writes_sub_of_mem main_cst_1 rfl (by decide), writes_sub_of_mem main_v4 rfl (by decide), writes_sub_of_mem main_v5 rfl (by decide),
   writes_sub_of_mem main_cst_2 rfl (by decide), writes_sub_of_mem main_v6 rfl (by decide), writes_sub_of_mem main_v7 rfl (by decide),
   writes_sub_of_mem main_cst_3 rfl (by decide), writes_sub_of_mem main_v8 rfl (by decide), writes_sub_of_mem main_v9 rfl (by decide),
   writes_sub_of_mem main_v10 rfl (by decide), writes_sub_of_mem main_cst_4 rfl (by decide), writes_sub_of_mem main_v11 rfl (by decide),
   writes_sub_of_mem main_v12 rfl (by decide), writes_sub_of_mem main_cst_5 rfl (by decide), writes_sub_of_mem main_v13 rfl (by decide),
   writes_sub_of_mem main_v14 rfl (by decide), writes_sub_of_mem main_v15 rfl (by decide), writes_sub_of_mem main_v16 rfl (by decide),
   writes_sub_of_mem main_v17 rfl (by decide), writes_sub_of_mem main_c rfl (by decide), writes_sub_of_mem main_v18 rfl (by decide),
   writes_sub_of_mem main_v19 rfl (by decide), writes_sub_of_mem main_c_6 rfl (by decide), writes_sub_of_mem main_v20 rfl (by decide),
   writes_sub_of_mem main_v21 rfl (by decide), writes_sub_of_mem main_v22 rfl (by decide), writes_sub_of_mem main_v23 rfl (by decide),
   writes_sub_of_mem main_v24 rfl (by decide), writes_sub_of_mem main_cst_7 rfl (by decide), writes_sub_of_mem main_v25 rfl (by decide),
   writes_sub_of_mem main_v26 rfl (by decide), writes_sub_of_mem main_v27 rfl (by decide), writes_sub_of_mem main_v28 rfl (by decide),
   writes_sub_of_mem main_v29 rfl (by decide), writes_sub_of_mem main_v30 rfl (by decide), writes_sub_of_mem main_v31 rfl (by decide),
   writes_sub_of_mem main_v32 rfl (by decide), writes_sub_of_mem main_v33 rfl (by decide), writes_sub_of_mem main_v34 rfl (by decide),
   writes_sub_of_mem main_v35 rfl (by decide), writes_sub_of_mem main_v36 rfl (by decide), writes_sub_of_mem main_v37 rfl (by decide),
   writes_sub_of_mem main_v38 rfl (by decide), writes_sub_of_mem main_v39 rfl (by decide)⟩

set_option maxHeartbeats 40000000 in
/-- None of the lines before the region allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- The result buffers of the lines of @main after the region up to the call of the rectifier, in order. -/
abbrev tailW1 : List (Ref sig .tc) := [
    main_v41, main_v42, main_v43, main_c_8, main_v44, main_v45, main_c_9, main_v46,
    main_v47, main_v48, main_v49, main_v50, main_cst_10, main_v51, main_v52, main_v53,
    main_v54, main_v55, main_v56, main_v57, main_v58, main_v59, main_v60, main_cst_11,
    main_v61, main_v62, main_cst_12, main_v63, main_v64, main_v65, main_v66, main_v67,
    main_cst_13, main_v68, main_v69, main_cst_14, main_v70, main_v71, main_v72, main_v73,
    main_cst_15, main_v74, main_v75, main_v76, main_v77, main_v78, main_v79, main_v80,
    main_v81, main_v82, main_v83, main_v84, main_v85, main_v86, main_v87, main_v88,
    main_c_16, main_v89, main_v90, main_c_17, main_v91, main_v92, main_v93, main_v94,
    main_v95, main_cst_18, main_v96, main_v97, main_v98, main_v99, main_v100, main_v101,
    main_v102, main_v103, main_v104, main_v105 ]

set_option maxHeartbeats 40000000 in
/-- Each of the lines of @main after the region up to the call of the rectifier writes its own result buffer only. -/
theorem hostOps1_writes : (hostOps1 : List (HloOp τ sig (Elt F))).Forall fun op =>
    op.writes ⊆ (tailW1.map (Proc.devRef (τ := τ) .tc)).toFinset :=
  ⟨writes_sub_of_mem main_v41 rfl (by decide), writes_sub_of_mem main_v42 rfl (by decide), writes_sub_of_mem main_v43 rfl (by decide),
   writes_sub_of_mem main_c_8 rfl (by decide), writes_sub_of_mem main_v44 rfl (by decide), writes_sub_of_mem main_v45 rfl (by decide),
   writes_sub_of_mem main_c_9 rfl (by decide), writes_sub_of_mem main_v46 rfl (by decide), writes_sub_of_mem main_v47 rfl (by decide),
   writes_sub_of_mem main_v48 rfl (by decide), writes_sub_of_mem main_v49 rfl (by decide), writes_sub_of_mem main_v50 rfl (by decide),
   writes_sub_of_mem main_cst_10 rfl (by decide), writes_sub_of_mem main_v51 rfl (by decide), writes_sub_of_mem main_v52 rfl (by decide),
   writes_sub_of_mem main_v53 rfl (by decide), writes_sub_of_mem main_v54 rfl (by decide), writes_sub_of_mem main_v55 rfl (by decide),
   writes_sub_of_mem main_v56 rfl (by decide), writes_sub_of_mem main_v57 rfl (by decide), writes_sub_of_mem main_v58 rfl (by decide),
   writes_sub_of_mem main_v59 rfl (by decide), writes_sub_of_mem main_v60 rfl (by decide), writes_sub_of_mem main_cst_11 rfl (by decide),
   writes_sub_of_mem main_v61 rfl (by decide), writes_sub_of_mem main_v62 rfl (by decide), writes_sub_of_mem main_cst_12 rfl (by decide),
   writes_sub_of_mem main_v63 rfl (by decide), writes_sub_of_mem main_v64 rfl (by decide), writes_sub_of_mem main_v65 rfl (by decide),
   writes_sub_of_mem main_v66 rfl (by decide), writes_sub_of_mem main_v67 rfl (by decide), writes_sub_of_mem main_cst_13 rfl (by decide),
   writes_sub_of_mem main_v68 rfl (by decide), writes_sub_of_mem main_v69 rfl (by decide), writes_sub_of_mem main_cst_14 rfl (by decide),
   writes_sub_of_mem main_v70 rfl (by decide), writes_sub_of_mem main_v71 rfl (by decide), writes_sub_of_mem main_v72 rfl (by decide),
   writes_sub_of_mem main_v73 rfl (by decide), writes_sub_of_mem main_cst_15 rfl (by decide), writes_sub_of_mem main_v74 rfl (by decide),
   writes_sub_of_mem main_v75 rfl (by decide), writes_sub_of_mem main_v76 rfl (by decide), writes_sub_of_mem main_v77 rfl (by decide),
   writes_sub_of_mem main_v78 rfl (by decide), writes_sub_of_mem main_v79 rfl (by decide), writes_sub_of_mem main_v80 rfl (by decide),
   writes_sub_of_mem main_v81 rfl (by decide), writes_sub_of_mem main_v82 rfl (by decide), writes_sub_of_mem main_v83 rfl (by decide),
   writes_sub_of_mem main_v84 rfl (by decide), writes_sub_of_mem main_v85 rfl (by decide), writes_sub_of_mem main_v86 rfl (by decide),
   writes_sub_of_mem main_v87 rfl (by decide), writes_sub_of_mem main_v88 rfl (by decide), writes_sub_of_mem main_c_16 rfl (by decide),
   writes_sub_of_mem main_v89 rfl (by decide), writes_sub_of_mem main_v90 rfl (by decide), writes_sub_of_mem main_c_17 rfl (by decide),
   writes_sub_of_mem main_v91 rfl (by decide), writes_sub_of_mem main_v92 rfl (by decide), writes_sub_of_mem main_v93 rfl (by decide),
   writes_sub_of_mem main_v94 rfl (by decide), writes_sub_of_mem main_v95 rfl (by decide), writes_sub_of_mem main_cst_18 rfl (by decide),
   writes_sub_of_mem main_v96 rfl (by decide), writes_sub_of_mem main_v97 rfl (by decide), writes_sub_of_mem main_v98 rfl (by decide),
   writes_sub_of_mem main_v99 rfl (by decide), writes_sub_of_mem main_v100 rfl (by decide), writes_sub_of_mem main_v101 rfl (by decide),
   writes_sub_of_mem main_v102 rfl (by decide), writes_sub_of_mem main_v103 rfl (by decide), writes_sub_of_mem main_v104 rfl (by decide),
   writes_sub_of_mem main_v105 rfl (by decide)⟩

set_option maxHeartbeats 40000000 in
/-- None of the lines of @main after the region up to the call of the rectifier allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- The result buffers of the rectifier's own lines, in order. -/
abbrev tailW1_1 : List (Ref sig .tc) := [
    main_call0_cst, main_call0_v0, main_v106 ]

set_option maxHeartbeats 40000000 in
/-- Each of the rectifier's own lines writes its own result buffer only. -/
theorem hostOps1_1_writes : (hostOps1_1 : List (HloOp τ sig (Elt F))).Forall fun op =>
    op.writes ⊆ (tailW1_1.map (Proc.devRef (τ := τ) .tc)).toFinset :=
  ⟨writes_sub_of_mem main_call0_cst rfl (by decide), writes_sub_of_mem main_call0_v0 rfl (by decide), writes_sub_of_mem main_v106 rfl (by decide)⟩

set_option maxHeartbeats 40000000 in
/-- None of the rectifier's own lines allocates a buffer. -/
theorem hostOps1_1_fresh : (hostOps1_1 : List (HloOp τ sig (Elt F))).Forall fun op => op.fresh = ∅ :=
  ⟨rfl, rfl, rfl⟩

/-- The result buffers of the lines of @main after the rectifier, in order. -/
abbrev tailW1_2 : List (Ref sig .tc) := [
    main_v107, main_v108, main_v109, main_v110, main_c_19, main_v111, main_v112, main_c_20,
    main_v113, main_v114, main_v115, main_v116, main_v117, main_cst_21, main_v118, main_v119,
    main_v120, main_v121, main_v122, main_v123, main_v124, main_v125, main_v126, main_cst_22,
    main_v127, main_v128, main_cst_23, main_v129, main_v130, main_v131, main_v132, main_v133,
    main_cst_24, main_v134, main_v135, main_cst_25, main_v136, main_v137, main_v138, main_v139,
    main_cst_26, main_v140, main_v141, main_v142, main_v143, main_v144, main_v145, main_v146,
    main_v147, main_v148, main_v149, main_v150 ]

set_option maxHeartbeats 40000000 in
/-- Each of the lines of @main after the rectifier writes its own result buffer only. -/
theorem hostOps1_2_writes : (hostOps1_2 : List (HloOp τ sig (Elt F))).Forall fun op =>
    op.writes ⊆ (tailW1_2.map (Proc.devRef (τ := τ) .tc)).toFinset :=
  ⟨writes_sub_of_mem main_v107 rfl (by decide), writes_sub_of_mem main_v108 rfl (by decide), writes_sub_of_mem main_v109 rfl (by decide),
   writes_sub_of_mem main_v110 rfl (by decide), writes_sub_of_mem main_c_19 rfl (by decide), writes_sub_of_mem main_v111 rfl (by decide),
   writes_sub_of_mem main_v112 rfl (by decide), writes_sub_of_mem main_c_20 rfl (by decide), writes_sub_of_mem main_v113 rfl (by decide),
   writes_sub_of_mem main_v114 rfl (by decide), writes_sub_of_mem main_v115 rfl (by decide), writes_sub_of_mem main_v116 rfl (by decide),
   writes_sub_of_mem main_v117 rfl (by decide), writes_sub_of_mem main_cst_21 rfl (by decide), writes_sub_of_mem main_v118 rfl (by decide),
   writes_sub_of_mem main_v119 rfl (by decide), writes_sub_of_mem main_v120 rfl (by decide), writes_sub_of_mem main_v121 rfl (by decide),
   writes_sub_of_mem main_v122 rfl (by decide), writes_sub_of_mem main_v123 rfl (by decide), writes_sub_of_mem main_v124 rfl (by decide),
   writes_sub_of_mem main_v125 rfl (by decide), writes_sub_of_mem main_v126 rfl (by decide), writes_sub_of_mem main_cst_22 rfl (by decide),
   writes_sub_of_mem main_v127 rfl (by decide), writes_sub_of_mem main_v128 rfl (by decide), writes_sub_of_mem main_cst_23 rfl (by decide),
   writes_sub_of_mem main_v129 rfl (by decide), writes_sub_of_mem main_v130 rfl (by decide), writes_sub_of_mem main_v131 rfl (by decide),
   writes_sub_of_mem main_v132 rfl (by decide), writes_sub_of_mem main_v133 rfl (by decide), writes_sub_of_mem main_cst_24 rfl (by decide),
   writes_sub_of_mem main_v134 rfl (by decide), writes_sub_of_mem main_v135 rfl (by decide), writes_sub_of_mem main_cst_25 rfl (by decide),
   writes_sub_of_mem main_v136 rfl (by decide), writes_sub_of_mem main_v137 rfl (by decide), writes_sub_of_mem main_v138 rfl (by decide),
   writes_sub_of_mem main_v139 rfl (by decide), writes_sub_of_mem main_cst_26 rfl (by decide), writes_sub_of_mem main_v140 rfl (by decide),
   writes_sub_of_mem main_v141 rfl (by decide), writes_sub_of_mem main_v142 rfl (by decide), writes_sub_of_mem main_v143 rfl (by decide),
   writes_sub_of_mem main_v144 rfl (by decide), writes_sub_of_mem main_v145 rfl (by decide), writes_sub_of_mem main_v146 rfl (by decide),
   writes_sub_of_mem main_v147 rfl (by decide), writes_sub_of_mem main_v148 rfl (by decide), writes_sub_of_mem main_v149 rfl (by decide),
   writes_sub_of_mem main_v150 rfl (by decide)⟩

set_option maxHeartbeats 40000000 in
/-- None of the lines of @main after the rectifier allocates a buffer. -/
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

/-! ## @main around the region -/

/-- @main is the lines before the region, the region, and the three stretches after it: it reduces
    to the region continued by the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The lines after the region -/

/-- A property of each of the three stretches after the region holds of every stretch of `tailOps`. -/
theorem tail_cases {p : List (HloOp τ sig (Elt F)) → Prop} (h1 : p hostOps1) (h2 : p hostOps1_1) (h3 : p hostOps1_2) :
    ∀ ops ∈ (tailOps : List (List (HloOp τ sig (Elt F)))), p ops := by
  intro ops hops
  rcases List.mem_cons.mp hops with rfl | hops
  · exact h1
  rcases List.mem_cons.mp hops with rfl | hops
  · exact h2
  rcases List.mem_cons.mp hops with rfl | hops
  · exact h3
  · cases hops

/-- A reference that is the result of no line after the region is written by none of them. -/
theorem tail_not_written (r : Ref sig .tc) (h1 : r ∉ tailW1) (h2 : r ∉ tailW1_1) (h3 : r ∉ tailW1_2) :
    ∀ ops ∈ (tailOps : List (List (HloOp τ sig (Elt F)))), ∀ op ∈ ops, Proc.devRef .tc r ∉ op.writes :=
  tail_cases (p := fun ops => ∀ op ∈ ops, Proc.devRef .tc r ∉ op.writes)
    (fun op hop => not_mem_writes_of_sub ((List.forall_iff_forall_mem.mp hostOps1_writes) op hop) h1)
    (fun op hop => not_mem_writes_of_sub ((List.forall_iff_forall_mem.mp hostOps1_1_writes) op hop) h2)
    (fun op hop => not_mem_writes_of_sub ((List.forall_iff_forall_mem.mp hostOps1_2_writes) op hop) h3)

/-- The lines after the region touch the pipeline's arrays and the bypassing buffers only: each
    line's buffers are unscoped TensorCore references, and with nothing prefetched every such
    reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))

/-- They allocate nothing. -/
theorem sfx_fresh : ∀ ops ∈ (tailOps : List (List (HloOp τ sig (Elt F)))), ∀ op ∈ ops, op.fresh = ∅ :=
  tail_cases (p := fun ops => ∀ op ∈ ops, op.fresh = ∅)
    (fun op hop => (List.forall_iff_forall_mem.mp hostOps1_fresh) op hop)
    (fun op hop => (List.forall_iff_forall_mem.mp hostOps1_1_fresh) op hop)
    (fun op hop => (List.forall_iff_forall_mem.mp hostOps1_2_fresh) op hop)

/-- And they write no array of the pipeline: no array is the result of a later line. -/
theorem sfx_keeps : ∀ ops ∈ (tailOps : List (List (HloOp τ sig (Elt F)))), ∀ op ∈ ops,
    ∀ w, Proc.devRef .tc (Pipeline.arrRef spec0 w) ∉ op.writes :=
  fun ops hops op hop w => tail_not_written (Pipeline.arrRef spec0 w)
    ((by decide : ∀ w, Pipeline.arrRef spec0 w ∉ tailW1) w) ((by decide : ∀ w, Pipeline.arrRef spec0 w ∉ tailW1_1) w)
    ((by decide : ∀ w, Pipeline.arrRef spec0 w ∉ tailW1_2) w) ops hops op hop

/-! ## Buffers no line writes -/

/-- A reference that is the result of no line before the region is found by the region as launched. -/
theorem V_of (c : Dev nD) (r : Ref sig .tc) (h0 : r ∉ headW) : V m c r = m ((c : Thread nD τ).loc r) :=
  StableHlo.after_of_forall_not_mem (b := Proc.devRef .tc r) _ _ fun op hop => by
    obtain ⟨ops, hops, hop'⟩ := List.mem_flatten.mp hop
    rcases List.mem_cons.mp hops with rfl | hops
    · exact not_mem_writes_of_sub ((List.forall_iff_forall_mem.mp hostOps0_writes) op hop') h0
    · cases hops

/-- A reference that is no window's array and the result of no line at all ends as launched: the
    later lines leave it as the region left it, the region as it found it, the earlier lines as launched. -/
theorem W_of (dats : (p : Fin _) → (c : Dev nD) → Dat τ (Elt F) Unit ℕ (UR sig nD τ) ℕ (cfgs p) c) (c : Dev nD)
    (r : Ref sig .tc) (h0 : r ∉ headW) (h1 : r ∉ tailW1) (h2 : r ∉ tailW1_1) (h3 : r ∉ tailW1_2)
    (harr : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_not_written r h1 h2 h3 ops hops op hop'),
    Pipeline.withArrays_of_ne _ c (V0 m c) _ r harr]
  exact V_of m c r h0

/-! ## The argument arrays -/

/-- No line before the region writes `main_arg0`: the region finds it as launched. -/
theorem V_main_arg0 (c : Dev nD) : V m c main_arg0 = m ((c : Thread nD τ).loc main_arg0) :=
  V_of m c main_arg0 (by decide)
/-- Nor does a line after it, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of m dats c main_arg0 (by decide) (by decide) (by decide) (by decide) (by decide)
/-- No line before the region writes `main_arg1`: the region finds it as launched. -/
theorem V_main_arg1 (c : Dev nD) : V m c main_arg1 = m ((c : Thread nD τ).loc main_arg1) :=
  V_of m c main_arg1 (by decide)
/-- Nor does a line after it, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of m dats c main_arg1 (by decide) (by decide) (by decide) (by decide) (by decide)
/-- No line before the region writes `main_arg2`: the region finds it as launched. -/
theorem V_main_arg2 (c : Dev nD) : V m c main_arg2 = m ((c : Thread nD τ).loc main_arg2) :=
  V_of m c main_arg2 (by decide)
/-- Nor does a line after it, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of m dats c main_arg2 (by decide) (by decide) (by decide) (by decide) (by decide)
/-- No line before the region writes `main_arg3`: the region finds it as launched. -/
theorem V_main_arg3 (c : Dev nD) : V m c main_arg3 = m ((c : Thread nD τ).loc main_arg3) :=
  V_of m c main_arg3 (by decide)
/-- Nor does a line after it, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of m dats c main_arg3 (by decide) (by decide) (by decide) (by decide) (by decide)
/-- No line before the region writes `main_arg4`: the region finds it as launched. -/
theorem V_main_arg4 (c : Dev nD) : V m c main_arg4 = m ((c : Thread nD τ).loc main_arg4) :=
  V_of m c main_arg4 (by decide)
/-- Nor does a line after it, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of m dats c main_arg4 (by decide) (by decide) (by decide) (by decide) (by decide)
/-- No line before the region writes `main_arg5`: the region finds it as launched. -/
theorem V_main_arg5 (c : Dev nD) : V m c main_arg5 = m ((c : Thread nD τ).loc main_arg5) :=
  V_of m c main_arg5 (by decide)
/-- Nor does a line after it, and it is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of m dats c main_arg5 (by decide) (by decide) (by decide) (by decide) (by decide)
/-- No line before the region writes `main_arg6`: the region finds it as launched. -/
theorem V_main_arg6 (c : Dev nD) : V m c main_arg6 = m ((c : Thread nD τ).loc main_arg6) :=
  V_of m c main_arg6 (by decide)
/-- Nor does a line after it, and it is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of m dats c main_arg6 (by decide) (by decide) (by decide) (by decide) (by decide)
/-- No line before the region writes `main_arg7`: the region finds it as launched. -/
theorem V_main_arg7 (c : Dev nD) : V m c main_arg7 = m ((c : Thread nD τ).loc main_arg7) :=
  V_of m c main_arg7 (by decide)
/-- Nor does a line after it, and it is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of m dats c main_arg7 (by decide) (by decide) (by decide) (by decide) (by decide)
/-- No line before the region writes `main_arg8`: the region finds it as launched. -/
theorem V_main_arg8 (c : Dev nD) : V m c main_arg8 = m ((c : Thread nD τ).loc main_arg8) :=
  V_of m c main_arg8 (by decide)
/-- Nor does a line after it, and it is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of m dats c main_arg8 (by decide) (by decide) (by decide) (by decide) (by decide)
/-- No line before the region writes `main_arg9`: the region finds it as launched. -/
theorem V_main_arg9 (c : Dev nD) : V m c main_arg9 = m ((c : Thread nD τ).loc main_arg9) :=
  V_of m c main_arg9 (by decide)
/-- Nor does a line after it, and it is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  W_of m dats c main_arg9 (by decide) (by decide) (by decide) (by decide) (by decide)
/-- No line before the region writes `main_arg10`: the region finds it as launched. -/
theorem V_main_arg10 (c : Dev nD) : V m c main_arg10 = m ((c : Thread nD τ).loc main_arg10) :=
  V_of m c main_arg10 (by decide)
/-- Nor does a line after it, and it is no window's array: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of m dats c main_arg10 (by decide) (by decide) (by decide) (by decide) (by decide)
/-- No line before the region writes `main_arg11`: the region finds it as launched. -/
theorem V_main_arg11 (c : Dev nD) : V m c main_arg11 = m ((c : Thread nD τ).loc main_arg11) :=
  V_of m c main_arg11 (by decide)
/-- Nor does a line after it, and it is no window's array: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  W_of m dats c main_arg11 (by decide) (by decide) (by decide) (by decide) (by decide)
/-- No line before the region writes `main_arg12`: the region finds it as launched. -/
theorem V_main_arg12 (c : Dev nD) : V m c main_arg12 = m ((c : Thread nD τ).loc main_arg12) :=
  V_of m c main_arg12 (by decide)
/-- Nor does a line after it, and it is no window's array: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of m dats c main_arg12 (by decide) (by decide) (by decide) (by decide) (by decide)
/-- No line before the region writes `main_arg13`: the region finds it as launched. -/
theorem V_main_arg13 (c : Dev nD) : V m c main_arg13 = m ((c : Thread nD τ).loc main_arg13) :=
  V_of m c main_arg13 (by decide)
/-- Nor does a line after it, and it is no window's array: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of m dats c main_arg13 (by decide) (by decide) (by decide) (by decide) (by decide)
/-- No line before the region writes `main_arg14`: the region finds it as launched. -/
theorem V_main_arg14 (c : Dev nD) : V m c main_arg14 = m ((c : Thread nD τ).loc main_arg14) :=
  V_of m c main_arg14 (by decide)
/-- Nor does a line after it, and it is no window's array: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of m dats c main_arg14 (by decide) (by decide) (by decide) (by decide) (by decide)
/-- No line before the region writes `main_arg15`: the region finds it as launched. -/
theorem V_main_arg15 (c : Dev nD) : V m c main_arg15 = m ((c : Thread nD τ).loc main_arg15) :=
  V_of m c main_arg15 (by decide)
/-- Nor does a line after it, and it is no window's array: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  W_of m dats c main_arg15 (by decide) (by decide) (by decide) (by decide) (by decide)
/-- No line before the region writes `main_arg16`: the region finds it as launched. -/
theorem V_main_arg16 (c : Dev nD) : V m c main_arg16 = m ((c : Thread nD τ).loc main_arg16) :=
  V_of m c main_arg16 (by decide)
/-- Nor does a line after it, and it is no window's array: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  W_of m dats c main_arg16 (by decide) (by decide) (by decide) (by decide) (by decide)

end Cert.Kernel.Hand

end
-- ==== Proof.KernelFrameBody.lean ====
/-
  The body of the attention region of `Kernel` at a grid point. Each input window's staging buffer
  holds that window's block of its array whether or not the point fetched it: the query window
  is fetched at every point, the key and value windows once, and an unfetched window's block
  index has not moved. On those blocks the body stores, whole, the softmax block into the
  attention-weights buffer and its product with the values into the second output buffer, so each
  output buffer ends at the one covering store's payload whatever it held. Hence the body's
  triple, and the pipeline's body obligation at every point.
-/
import proofs.«122702_j23356032156211_2_alg».proof.Proof.KernelRegion
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the input windows' buffers -/

/-- The query window's current staging buffer holds its block at every point, fetched there or not,
    for any proof data whose array is the region-entry contents (`hA`) and whose body leaves the
    block in place (`hafter`): the window is an input, uncut and never idle, so an unfetched point
    keeps the block of the point before, whose index is the same. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The key window's current staging buffer holds its block at every point, fetched there or not,
    for any proof data whose array is the region-entry contents (`hA`) and whose body leaves the
    block in place (`hafter`): the window is an input, uncut and never idle, so an unfetched point
    keeps the block of the point before, whose index is the same. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The value window's current staging buffer holds its block at every point, fetched there or not,
    for any proof data whose array is the region-entry contents (`hA`) and whose body leaves the
    block in place (`hafter`): the window is an input, uncut and never idle, so an unfetched point
    keeps the block of the point before, whose index is the same. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same of the region's own proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The stores cover the output buffers -/

/-- The one store into the attention-weights buffer is through the whole buffer, so it covers it. -/
theorem cover0_3 (p0 : Vec F S128x8192 .f32) (y : S128x8192.Idx) :
    ∃ pc ∈ ([⟨rP, p0⟩] : List (View.Piece (Elt F) S128x8192 .f32)), y ∈ pc.1.set :=
  View.cover_of_tiled [⟨rP, p0⟩] S128x8192.size (by rfl) y

/-- Likewise the one store into the second output buffer. -/
theorem cover0_4 (p0 : Vec F S128x256 .f32) (y : S128x256.Idx) :
    ∃ pc ∈ ([⟨rQ, p0⟩] : List (View.Piece (Elt F) S128x256 .f32)), y ∈ pc.1.set :=
  View.cover_of_tiled [⟨rQ, p0⟩] S128x256.size (by rfl) y

/-! ## The body's triple -/

set_option maxHeartbeats 1000000 in
/-- The body on whole staging memrefs, the inputs' at read contents `x0`, `x1`, `x2` and the outputs'
    at anything, runs to the continuation holding the inputs' as they were, the attention-weights
    buffer at `out0_3 x0 x1` and the second output buffer at `out0_4 x0 x1 x2`: the loads read the
    inputs whole, the two loads of the output buffers read values nothing uses, and each store
    overwrites its buffer whole. -/
theorem sound_kernel (c : Dev nD) (E : Set ℕ) (i : grid0.Coords)
    (arg1 : Memref sig .tc .vmem S128x256 .f32) (harg1 : arg1.IsWhole) (arg2 : Memref sig .tc .vmem S8192x256 .f32) (harg2 : arg2.IsWhole)
    (arg3 : Memref sig .tc .vmem S8192x256 .f32) (harg3 : arg3.IsWhole) (arg4 : Memref sig .tc .vmem S128x8192 .f32) (harg4 : arg4.IsWhole)
    (arg5 : Memref sig .tc .vmem S128x256 .f32) (harg5 : arg5.IsWhole)
    (x0 : Vec F S128x256 .f32) (x1 x2 : Vec F S8192x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point `t`: the region invariant, what the core owes, and each
    window's current staging buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelFrame.lean ====
/-
  The run of `Kernel`'s @main and its frame. The lines before the region, the region and the
  lines after it run to the end: every array of the pipeline ends at what the proof data
  computes, every other unscoped buffer at what the later lines leave from the region's exit.
  Read at the seventeen argument arrays — none of them an array of the pipeline, none written by
  any line — this is the frame: each ends as launched.
-/
import proofs.«122702_j23356032156211_2_alg».proof.Proof.KernelFrameTail
import proofs.«122702_j23356032156211_2_alg».proof.Proof.KernelFrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The run -/

set_option backward.isDefEq.respectTransparency.types false in
/-- On the program's mesh, for any values, from any memory with zero counters: every weakly fair
    execution of @main on the TensorCores terminates, and every final state has every array of
    the pipeline at what the proof data computes and every other unscoped buffer as the lines
    after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-! ## The frame -/

/-- The frame of `Kernel` at any `F`: @main runs to the end and every argument array ends as
    launched. Each is unscoped and no window's array, so the run's post gives it at what the later
    lines leave, and no line before or after the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩) (run_main m ρ)

end Cert.Kernel.Hand

end
-- ==== Proof.KernelIdealRegion.lean ====
/-
  The attention region of `KernelIdeal` and the host lines around it: the contents the region finds
  (the host lines before it applied to the launch memory), each window's block at a grid point,
  what the body leaves in the two output windows' staging buffers — the softmax block
  `k0_pay1` of the query block and the keys, and its product `k0_pay2` with the values —
  and the proof data of the one pipeline over them.
-/
import proofs.«122702_j23356032156211_2_alg».proof.Proof.Gen.KernelIdeal.Launch
import proofs.«122702_j23356032156211_2_alg».proof.Proof.Gen.KernelIdeal.Skeleton
import proofs.«122702_j23356032156211_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host lines after the region, stretch by stretch: the lines of @main up to the call of
    the rectifier, the rectifier's own lines, the lines of @main after it. -/
abbrev tailOps : List (List (HloOp τ sig (Elt F))) := [hostOps1, hostOps1_1, hostOps1_2]

/-- Core `c`'s buffer contents when the region is entered: the host lines before it, applied
    to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole query block, the whole key (or value) matrix, the whole score block. -/
abbrev rQ : Rect S128x256 := Rect.unit (s := S128x256) ![0, 0] S128x256.size inb_S128x256_S128x256_0_0
abbrev rK : Rect S8192x256 := Rect.unit (s := S8192x256) ![0, 0] S8192x256.size inb_S8192x256_S8192x256_0_0
abbrev rP : Rect S128x8192 := Rect.unit (s := S128x8192) ![0, 0] S128x8192.size inb_S128x8192_S128x8192_0_0

/-- The attention-weights window's staging buffer after the body: the softmax of the scaled
    scores of the query block against all keys, stored whole. -/
def out0_3 (x0 : Vec F S128x256 .f32) (x1 : Vec F S8192x256 .f32) : Vec F S128x8192 .f32 :=
  View.canon [⟨rP, k0_pay1 (View.ld x0 rQ) (View.ld x1 rK)⟩]

/-- The second output window's staging buffer after the body: those weights times the values. -/
def out0_4 (x0 : Vec F S128x256 .f32) (x1 x2 : Vec F S8192x256 .f32) : Vec F S128x256 .f32 :=
  View.canon [⟨rQ, k0_pay2 (View.ld x0 rQ) (View.ld x1 rK) (View.ld x2 rK)⟩]

/-- The proof data of the pipeline on core `c`: the arrays as the region finds them; after the
    body at point `t` each input's buffer still at its block, each output's at the body's result
    of the input blocks; nothing else is used and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) := by dsimp only [dats]
theorem after0_4 (c : Dev nD) (t : Fin cfg0.N) :
    (dats m 0 c).after 4 t = out0_4 (iblk m c 0 t) (iblk m c 1 t) (iblk m c 2 t) := by dsimp only [dats]

end Cert.KernelIdeal.Hand

end
-- ==== Proof.KernelIdealFrameTail.lean ====
/-
  The host lines around the attention region of `KernelIdeal`. Every line allocates nothing and writes
  exactly one buffer, its result; the results of a stretch are listed once, in order, and a buffer
  outside the list is therefore untouched by the stretch. From this: @main reduces to the region
  continued by the later lines; those lines stay within the unscoped buffers, allocate nothing and
  write no array of the pipeline; and each of the seventeen argument arrays is written by no line
  at all, before the region or after it, so it reads as launched both where the region is entered
  and at the end.
-/
import proofs.«122702_j23356032156211_2_alg».proof.Proof.KernelIdealRegion

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## A line writes its result only -/

/-- An operation whose writes are the one buffer of a reference in the list `W` writes within `W`. -/
theorem writes_sub_of_mem {W : List (Ref sig .tc)} {op : HloOp τ sig (Elt F)} (y : Ref sig .tc)
    (e : op.writes = {Proc.devRef .tc y}) (h : y ∈ W) :
    op.writes ⊆ (W.map (Proc.devRef (τ := τ) .tc)).toFinset := by
  rw [e, Finset.singleton_subset_iff, List.mem_toFinset]
  exact List.mem_map.mpr ⟨y, h, rfl⟩

/-- A reference outside a list that holds everything an operation writes is not written by it:
    distinct references are distinct device buffers. -/
theorem not_mem_writes_of_sub {W : List (Ref sig .tc)} {op : HloOp τ sig (Elt F)} {r : Ref sig .tc}
    (hW : op.writes ⊆ (W.map (Proc.devRef (τ := τ) .tc)).toFinset) (hr : r ∉ W) :
    Proc.devRef .tc r ∉ op.writes := fun hb => by
  obtain ⟨y, hy, he⟩ := List.mem_map.mp (List.mem_toFinset.mp (hW hb))
  exact hr (Proc.devRef_injective _ he ▸ hy)

/-- The result buffers of the lines before the region, in order. -/
abbrev headW : List (Ref sig .tc) := [
    main_cst, main_v0, main_cst_0, main_v1, main_v2, main_v3, main_cst_1, main_v4,
    main_v5, main_cst_2, main_v6, main_v7, main_cst_3, main_v8, main_v9, main_v10,
    main_cst_4, main_v11, main_v12, main_cst_5, main_v13, main_v14, main_v15, main_v16,
    main_v17, main_c, main_v18, main_v19, main_c_6, main_v20, main_v21, main_v22,
    main_v23, main_v24, main_cst_7, main_v25, main_v26, main_v27, main_v28, main_v29,
    main_v30, main_v31, main_v32, main_v33, main_v34, main_v35, main_v36, main_v37,
    main_v38, main_v39 ]

set_option maxHeartbeats 40000000 in
/-- Each of the lines before the region writes its own result buffer only. -/
theorem hostOps0_writes : (hostOps0 : List (HloOp τ sig (Elt F))).Forall fun op =>
    op.writes ⊆ (headW.map (Proc.devRef (τ := τ) .tc)).toFinset :=
  ⟨writes_sub_of_mem main_cst rfl (by decide), writes_sub_of_mem main_v0 rfl (by decide), writes_sub_of_mem main_cst_0 rfl (by decide),
   writes_sub_of_mem main_v1 rfl (by decide), writes_sub_of_mem main_v2 rfl (by decide), writes_sub_of_mem main_v3 rfl (by decide),
   writes_sub_of_mem main_cst_1 rfl (by decide), writes_sub_of_mem main_v4 rfl (by decide), writes_sub_of_mem main_v5 rfl (by decide),
   writes_sub_of_mem main_cst_2 rfl (by decide), writes_sub_of_mem main_v6 rfl (by decide), writes_sub_of_mem main_v7 rfl (by decide),
   writes_sub_of_mem main_cst_3 rfl (by decide), writes_sub_of_mem main_v8 rfl (by decide), writes_sub_of_mem main_v9 rfl (by decide),
   writes_sub_of_mem main_v10 rfl (by decide), writes_sub_of_mem main_cst_4 rfl (by decide), writes_sub_of_mem main_v11 rfl (by decide),
   writes_sub_of_mem main_v12 rfl (by decide), writes_sub_of_mem main_cst_5 rfl (by decide), writes_sub_of_mem main_v13 rfl (by decide),
   writes_sub_of_mem main_v14 rfl (by decide), writes_sub_of_mem main_v15 rfl (by decide), writes_sub_of_mem main_v16 rfl (by decide),
   writes_sub_of_mem main_v17 rfl (by decide), writes_sub_of_mem main_c rfl (by decide), writes_sub_of_mem main_v18 rfl (by decide),
   writes_sub_of_mem main_v19 rfl (by decide), writes_sub_of_mem main_c_6 rfl (by decide), writes_sub_of_mem main_v20 rfl (by decide),
   writes_sub_of_mem main_v21 rfl (by decide), writes_sub_of_mem main_v22 rfl (by decide), writes_sub_of_mem main_v23 rfl (by decide),
   writes_sub_of_mem main_v24 rfl (by decide), writes_sub_of_mem main_cst_7 rfl (by decide), writes_sub_of_mem main_v25 rfl (by decide),
   writes_sub_of_mem main_v26 rfl (by decide), writes_sub_of_mem main_v27 rfl (by decide), writes_sub_of_mem main_v28 rfl (by decide),
   writes_sub_of_mem main_v29 rfl (by decide), writes_sub_of_mem main_v30 rfl (by decide), writes_sub_of_mem main_v31 rfl (by decide),
   writes_sub_of_mem main_v32 rfl (by decide), writes_sub_of_mem main_v33 rfl (by decide), writes_sub_of_mem main_v34 rfl (by decide),
   writes_sub_of_mem main_v35 rfl (by decide), writes_sub_of_mem main_v36 rfl (by decide), writes_sub_of_mem main_v37 rfl (by decide),
   writes_sub_of_mem main_v38 rfl (by decide), writes_sub_of_mem main_v39 rfl (by decide)⟩

set_option maxHeartbeats 40000000 in
/-- None of the lines before the region allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- The result buffers of the lines of @main after the region up to the call of the rectifier, in order. -/
abbrev tailW1 : List (Ref sig .tc) := [
    main_v41, main_v42, main_v43, main_c_8, main_v44, main_v45, main_c_9, main_v46,
    main_v47, main_v48, main_v49, main_v50, main_cst_10, main_v51, main_v52, main_v53,
    main_v54, main_v55, main_v56, main_v57, main_v58, main_v59, main_v60, main_cst_11,
    main_v61, main_v62, main_cst_12, main_v63, main_v64, main_v65, main_v66, main_v67,
    main_cst_13, main_v68, main_v69, main_cst_14, main_v70, main_v71, main_v72, main_v73,
    main_cst_15, main_v74, main_v75, main_v76, main_v77, main_v78, main_v79, main_v80,
    main_v81, main_v82, main_v83, main_v84, main_v85, main_v86, main_v87, main_v88,
    main_c_16, main_v89, main_v90, main_c_17, main_v91, main_v92, main_v93, main_v94,
    main_v95, main_cst_18, main_v96, main_v97, main_v98, main_v99, main_v100, main_v101,
    main_v102, main_v103, main_v104, main_v105 ]

set_option maxHeartbeats 40000000 in
/-- Each of the lines of @main after the region up to the call of the rectifier writes its own result buffer only. -/
theorem hostOps1_writes : (hostOps1 : List (HloOp τ sig (Elt F))).Forall fun op =>
    op.writes ⊆ (tailW1.map (Proc.devRef (τ := τ) .tc)).toFinset :=
  ⟨writes_sub_of_mem main_v41 rfl (by decide), writes_sub_of_mem main_v42 rfl (by decide), writes_sub_of_mem main_v43 rfl (by decide),
   writes_sub_of_mem main_c_8 rfl (by decide), writes_sub_of_mem main_v44 rfl (by decide), writes_sub_of_mem main_v45 rfl (by decide),
   writes_sub_of_mem main_c_9 rfl (by decide), writes_sub_of_mem main_v46 rfl (by decide), writes_sub_of_mem main_v47 rfl (by decide),
   writes_sub_of_mem main_v48 rfl (by decide), writes_sub_of_mem main_v49 rfl (by decide), writes_sub_of_mem main_v50 rfl (by decide),
   writes_sub_of_mem main_cst_10 rfl (by decide), writes_sub_of_mem main_v51 rfl (by decide), writes_sub_of_mem main_v52 rfl (by decide),
   writes_sub_of_mem main_v53 rfl (by decide), writes_sub_of_mem main_v54 rfl (by decide), writes_sub_of_mem main_v55 rfl (by decide),
   writes_sub_of_mem main_v56 rfl (by decide), writes_sub_of_mem main_v57 rfl (by decide), writes_sub_of_mem main_v58 rfl (by decide),
   writes_sub_of_mem main_v59 rfl (by decide), writes_sub_of_mem main_v60 rfl (by decide), writes_sub_of_mem main_cst_11 rfl (by decide),
   writes_sub_of_mem main_v61 rfl (by decide), writes_sub_of_mem main_v62 rfl (by decide), writes_sub_of_mem main_cst_12 rfl (by decide),
   writes_sub_of_mem main_v63 rfl (by decide), writes_sub_of_mem main_v64 rfl (by decide), writes_sub_of_mem main_v65 rfl (by decide),
   writes_sub_of_mem main_v66 rfl (by decide), writes_sub_of_mem main_v67 rfl (by decide), writes_sub_of_mem main_cst_13 rfl (by decide),
   writes_sub_of_mem main_v68 rfl (by decide), writes_sub_of_mem main_v69 rfl (by decide), writes_sub_of_mem main_cst_14 rfl (by decide),
   writes_sub_of_mem main_v70 rfl (by decide), writes_sub_of_mem main_v71 rfl (by decide), writes_sub_of_mem main_v72 rfl (by decide),
   writes_sub_of_mem main_v73 rfl (by decide), writes_sub_of_mem main_cst_15 rfl (by decide), writes_sub_of_mem main_v74 rfl (by decide),
   writes_sub_of_mem main_v75 rfl (by decide), writes_sub_of_mem main_v76 rfl (by decide), writes_sub_of_mem main_v77 rfl (by decide),
   writes_sub_of_mem main_v78 rfl (by decide), writes_sub_of_mem main_v79 rfl (by decide), writes_sub_of_mem main_v80 rfl (by decide),
   writes_sub_of_mem main_v81 rfl (by decide), writes_sub_of_mem main_v82 rfl (by decide), writes_sub_of_mem main_v83 rfl (by decide),
   writes_sub_of_mem main_v84 rfl (by decide), writes_sub_of_mem main_v85 rfl (by decide), writes_sub_of_mem main_v86 rfl (by decide),
   writes_sub_of_mem main_v87 rfl (by decide), writes_sub_of_mem main_v88 rfl (by decide), writes_sub_of_mem main_c_16 rfl (by decide),
   writes_sub_of_mem main_v89 rfl (by decide), writes_sub_of_mem main_v90 rfl (by decide), writes_sub_of_mem main_c_17 rfl (by decide),
   writes_sub_of_mem main_v91 rfl (by decide), writes_sub_of_mem main_v92 rfl (by decide), writes_sub_of_mem main_v93 rfl (by decide),
   writes_sub_of_mem main_v94 rfl (by decide), writes_sub_of_mem main_v95 rfl (by decide), writes_sub_of_mem main_cst_18 rfl (by decide),
   writes_sub_of_mem main_v96 rfl (by decide), writes_sub_of_mem main_v97 rfl (by decide), writes_sub_of_mem main_v98 rfl (by decide),
   writes_sub_of_mem main_v99 rfl (by decide), writes_sub_of_mem main_v100 rfl (by decide), writes_sub_of_mem main_v101 rfl (by decide),
   writes_sub_of_mem main_v102 rfl (by decide), writes_sub_of_mem main_v103 rfl (by decide), writes_sub_of_mem main_v104 rfl (by decide),
   writes_sub_of_mem main_v105 rfl (by decide)⟩

set_option maxHeartbeats 40000000 in
/-- None of the lines of @main after the region up to the call of the rectifier allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- The result buffers of the rectifier's own lines, in order. -/
abbrev tailW1_1 : List (Ref sig .tc) := [
    main_call0_cst, main_call0_v0, main_v106 ]

set_option maxHeartbeats 40000000 in
/-- Each of the rectifier's own lines writes its own result buffer only. -/
theorem hostOps1_1_writes : (hostOps1_1 : List (HloOp τ sig (Elt F))).Forall fun op =>
    op.writes ⊆ (tailW1_1.map (Proc.devRef (τ := τ) .tc)).toFinset :=
  ⟨writes_sub_of_mem main_call0_cst rfl (by decide), writes_sub_of_mem main_call0_v0 rfl (by decide), writes_sub_of_mem main_v106 rfl (by decide)⟩

set_option maxHeartbeats 40000000 in
/-- None of the rectifier's own lines allocates a buffer. -/
theorem hostOps1_1_fresh : (hostOps1_1 : List (HloOp τ sig (Elt F))).Forall fun op => op.fresh = ∅ :=
  ⟨rfl, rfl, rfl⟩

/-- The result buffers of the lines of @main after the rectifier, in order. -/
abbrev tailW1_2 : List (Ref sig .tc) := [
    main_v107, main_v108, main_v109, main_v110, main_c_19, main_v111, main_v112, main_c_20,
    main_v113, main_v114, main_v115, main_v116, main_v117, main_cst_21, main_v118, main_v119,
    main_v120, main_v121, main_v122, main_v123, main_v124, main_v125, main_v126, main_cst_22,
    main_v127, main_v128, main_cst_23, main_v129, main_v130, main_v131, main_v132, main_v133,
    main_cst_24, main_v134, main_v135, main_cst_25, main_v136, main_v137, main_v138, main_v139,
    main_cst_26, main_v140, main_v141, main_v142, main_v143, main_v144, main_v145, main_v146,
    main_v147, main_v148, main_v149, main_v150 ]

set_option maxHeartbeats 40000000 in
/-- Each of the lines of @main after the rectifier writes its own result buffer only. -/
theorem hostOps1_2_writes : (hostOps1_2 : List (HloOp τ sig (Elt F))).Forall fun op =>
    op.writes ⊆ (tailW1_2.map (Proc.devRef (τ := τ) .tc)).toFinset :=
  ⟨writes_sub_of_mem main_v107 rfl (by decide), writes_sub_of_mem main_v108 rfl (by decide), writes_sub_of_mem main_v109 rfl (by decide),
   writes_sub_of_mem main_v110 rfl (by decide), writes_sub_of_mem main_c_19 rfl (by decide), writes_sub_of_mem main_v111 rfl (by decide),
   writes_sub_of_mem main_v112 rfl (by decide), writes_sub_of_mem main_c_20 rfl (by decide), writes_sub_of_mem main_v113 rfl (by decide),
   writes_sub_of_mem main_v114 rfl (by decide), writes_sub_of_mem main_v115 rfl (by decide), writes_sub_of_mem main_v116 rfl (by decide),
   writes_sub_of_mem main_v117 rfl (by decide), writes_sub_of_mem main_cst_21 rfl (by decide), writes_sub_of_mem main_v118 rfl (by decide),
   writes_sub_of_mem main_v119 rfl (by decide), writes_sub_of_mem main_v120 rfl (by decide), writes_sub_of_mem main_v121 rfl (by decide),
   writes_sub_of_mem main_v122 rfl (by decide), writes_sub_of_mem main_v123 rfl (by decide), writes_sub_of_mem main_v124 rfl (by decide),
   writes_sub_of_mem main_v125 rfl (by decide), writes_sub_of_mem main_v126 rfl (by decide), writes_sub_of_mem main_cst_22 rfl (by decide),
   writes_sub_of_mem main_v127 rfl (by decide), writes_sub_of_mem main_v128 rfl (by decide), writes_sub_of_mem main_cst_23 rfl (by decide),
   writes_sub_of_mem main_v129 rfl (by decide), writes_sub_of_mem main_v130 rfl (by decide), writes_sub_of_mem main_v131 rfl (by decide),
   writes_sub_of_mem main_v132 rfl (by decide), writes_sub_of_mem main_v133 rfl (by decide), writes_sub_of_mem main_cst_24 rfl (by decide),
   writes_sub_of_mem main_v134 rfl (by decide), writes_sub_of_mem main_v135 rfl (by decide), writes_sub_of_mem main_cst_25 rfl (by decide),
   writes_sub_of_mem main_v136 rfl (by decide), writes_sub_of_mem main_v137 rfl (by decide), writes_sub_of_mem main_v138 rfl (by decide),
   writes_sub_of_mem main_v139 rfl (by decide), writes_sub_of_mem main_cst_26 rfl (by decide), writes_sub_of_mem main_v140 rfl (by decide),
   writes_sub_of_mem main_v141 rfl (by decide), writes_sub_of_mem main_v142 rfl (by decide), writes_sub_of_mem main_v143 rfl (by decide),
   writes_sub_of_mem main_v144 rfl (by decide), writes_sub_of_mem main_v145 rfl (by decide), writes_sub_of_mem main_v146 rfl (by decide),
   writes_sub_of_mem main_v147 rfl (by decide), writes_sub_of_mem main_v148 rfl (by decide), writes_sub_of_mem main_v149 rfl (by decide),
   writes_sub_of_mem main_v150 rfl (by decide)⟩

set_option maxHeartbeats 40000000 in
/-- None of the lines of @main after the rectifier allocates a buffer. -/
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

/-! ## @main around the region -/

/-- @main is the lines before the region, the region, and the three stretches after it: it reduces
    to the region continued by the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The lines after the region -/

/-- A property of each of the three stretches after the region holds of every stretch of `tailOps`. -/
theorem tail_cases {p : List (HloOp τ sig (Elt F)) → Prop} (h1 : p hostOps1) (h2 : p hostOps1_1) (h3 : p hostOps1_2) :
    ∀ ops ∈ (tailOps : List (List (HloOp τ sig (Elt F)))), p ops := by
  intro ops hops
  rcases List.mem_cons.mp hops with rfl | hops
  · exact h1
  rcases List.mem_cons.mp hops with rfl | hops
  · exact h2
  rcases List.mem_cons.mp hops with rfl | hops
  · exact h3
  · cases hops

/-- A reference that is the result of no line after the region is written by none of them. -/
theorem tail_not_written (r : Ref sig .tc) (h1 : r ∉ tailW1) (h2 : r ∉ tailW1_1) (h3 : r ∉ tailW1_2) :
    ∀ ops ∈ (tailOps : List (List (HloOp τ sig (Elt F)))), ∀ op ∈ ops, Proc.devRef .tc r ∉ op.writes :=
  tail_cases (p := fun ops => ∀ op ∈ ops, Proc.devRef .tc r ∉ op.writes)
    (fun op hop => not_mem_writes_of_sub ((List.forall_iff_forall_mem.mp hostOps1_writes) op hop) h1)
    (fun op hop => not_mem_writes_of_sub ((List.forall_iff_forall_mem.mp hostOps1_1_writes) op hop) h2)
    (fun op hop => not_mem_writes_of_sub ((List.forall_iff_forall_mem.mp hostOps1_2_writes) op hop) h3)

/-- The lines after the region touch the pipeline's arrays and the bypassing buffers only: each
    line's buffers are unscoped TensorCore references, and with nothing prefetched every such
    reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))

/-- They allocate nothing. -/
theorem sfx_fresh : ∀ ops ∈ (tailOps : List (List (HloOp τ sig (Elt F)))), ∀ op ∈ ops, op.fresh = ∅ :=
  tail_cases (p := fun ops => ∀ op ∈ ops, op.fresh = ∅)
    (fun op hop => (List.forall_iff_forall_mem.mp hostOps1_fresh) op hop)
    (fun op hop => (List.forall_iff_forall_mem.mp hostOps1_1_fresh) op hop)
    (fun op hop => (List.forall_iff_forall_mem.mp hostOps1_2_fresh) op hop)

/-- And they write no array of the pipeline: no array is the result of a later line. -/
theorem sfx_keeps : ∀ ops ∈ (tailOps : List (List (HloOp τ sig (Elt F)))), ∀ op ∈ ops,
    ∀ w, Proc.devRef .tc (Pipeline.arrRef spec0 w) ∉ op.writes :=
  fun ops hops op hop w => tail_not_written (Pipeline.arrRef spec0 w)
    ((by decide : ∀ w, Pipeline.arrRef spec0 w ∉ tailW1) w) ((by decide : ∀ w, Pipeline.arrRef spec0 w ∉ tailW1_1) w)
    ((by decide : ∀ w, Pipeline.arrRef spec0 w ∉ tailW1_2) w) ops hops op hop

/-! ## Buffers no line writes -/

/-- A reference that is the result of no line before the region is found by the region as launched. -/
theorem V_of (c : Dev nD) (r : Ref sig .tc) (h0 : r ∉ headW) : V m c r = m ((c : Thread nD τ).loc r) :=
  StableHlo.after_of_forall_not_mem (b := Proc.devRef .tc r) _ _ fun op hop => by
    obtain ⟨ops, hops, hop'⟩ := List.mem_flatten.mp hop
    rcases List.mem_cons.mp hops with rfl | hops
    · exact not_mem_writes_of_sub ((List.forall_iff_forall_mem.mp hostOps0_writes) op hop') h0
    · cases hops

/-- A reference that is no window's array and the result of no line at all ends as launched: the
    later lines leave it as the region left it, the region as it found it, the earlier lines as launched. -/
theorem W_of (dats : (p : Fin _) → (c : Dev nD) → Dat τ (Elt F) Unit ℕ (UR sig nD τ) ℕ (cfgs p) c) (c : Dev nD)
    (r : Ref sig .tc) (h0 : r ∉ headW) (h1 : r ∉ tailW1) (h2 : r ∉ tailW1_1) (h3 : r ∉ tailW1_2)
    (harr : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_not_written r h1 h2 h3 ops hops op hop'),
    Pipeline.withArrays_of_ne _ c (V0 m c) _ r harr]
  exact V_of m c r h0

/-! ## The argument arrays -/

/-- No line before the region writes `main_arg0`: the region finds it as launched. -/
theorem V_main_arg0 (c : Dev nD) : V m c main_arg0 = m ((c : Thread nD τ).loc main_arg0) :=
  V_of m c main_arg0 (by decide)
/-- Nor does a line after it, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of m dats c main_arg0 (by decide) (by decide) (by decide) (by decide) (by decide)
/-- No line before the region writes `main_arg1`: the region finds it as launched. -/
theorem V_main_arg1 (c : Dev nD) : V m c main_arg1 = m ((c : Thread nD τ).loc main_arg1) :=
  V_of m c main_arg1 (by decide)
/-- Nor does a line after it, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of m dats c main_arg1 (by decide) (by decide) (by decide) (by decide) (by decide)
/-- No line before the region writes `main_arg2`: the region finds it as launched. -/
theorem V_main_arg2 (c : Dev nD) : V m c main_arg2 = m ((c : Thread nD τ).loc main_arg2) :=
  V_of m c main_arg2 (by decide)
/-- Nor does a line after it, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of m dats c main_arg2 (by decide) (by decide) (by decide) (by decide) (by decide)
/-- No line before the region writes `main_arg3`: the region finds it as launched. -/
theorem V_main_arg3 (c : Dev nD) : V m c main_arg3 = m ((c : Thread nD τ).loc main_arg3) :=
  V_of m c main_arg3 (by decide)
/-- Nor does a line after it, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of m dats c main_arg3 (by decide) (by decide) (by decide) (by decide) (by decide)
/-- No line before the region writes `main_arg4`: the region finds it as launched. -/
theorem V_main_arg4 (c : Dev nD) : V m c main_arg4 = m ((c : Thread nD τ).loc main_arg4) :=
  V_of m c main_arg4 (by decide)
/-- Nor does a line after it, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of m dats c main_arg4 (by decide) (by decide) (by decide) (by decide) (by decide)
/-- No line before the region writes `main_arg5`: the region finds it as launched. -/
theorem V_main_arg5 (c : Dev nD) : V m c main_arg5 = m ((c : Thread nD τ).loc main_arg5) :=
  V_of m c main_arg5 (by decide)
/-- Nor does a line after it, and it is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of m dats c main_arg5 (by decide) (by decide) (by decide) (by decide) (by decide)
/-- No line before the region writes `main_arg6`: the region finds it as launched. -/
theorem V_main_arg6 (c : Dev nD) : V m c main_arg6 = m ((c : Thread nD τ).loc main_arg6) :=
  V_of m c main_arg6 (by decide)
/-- Nor does a line after it, and it is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of m dats c main_arg6 (by decide) (by decide) (by decide) (by decide) (by decide)
/-- No line before the region writes `main_arg7`: the region finds it as launched. -/
theorem V_main_arg7 (c : Dev nD) : V m c main_arg7 = m ((c : Thread nD τ).loc main_arg7) :=
  V_of m c main_arg7 (by decide)
/-- Nor does a line after it, and it is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of m dats c main_arg7 (by decide) (by decide) (by decide) (by decide) (by decide)
/-- No line before the region writes `main_arg8`: the region finds it as launched. -/
theorem V_main_arg8 (c : Dev nD) : V m c main_arg8 = m ((c : Thread nD τ).loc main_arg8) :=
  V_of m c main_arg8 (by decide)
/-- Nor does a line after it, and it is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of m dats c main_arg8 (by decide) (by decide) (by decide) (by decide) (by decide)
/-- No line before the region writes `main_arg9`: the region finds it as launched. -/
theorem V_main_arg9 (c : Dev nD) : V m c main_arg9 = m ((c : Thread nD τ).loc main_arg9) :=
  V_of m c main_arg9 (by decide)
/-- Nor does a line after it, and it is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  W_of m dats c main_arg9 (by decide) (by decide) (by decide) (by decide) (by decide)
/-- No line before the region writes `main_arg10`: the region finds it as launched. -/
theorem V_main_arg10 (c : Dev nD) : V m c main_arg10 = m ((c : Thread nD τ).loc main_arg10) :=
  V_of m c main_arg10 (by decide)
/-- Nor does a line after it, and it is no window's array: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of m dats c main_arg10 (by decide) (by decide) (by decide) (by decide) (by decide)
/-- No line before the region writes `main_arg11`: the region finds it as launched. -/
theorem V_main_arg11 (c : Dev nD) : V m c main_arg11 = m ((c : Thread nD τ).loc main_arg11) :=
  V_of m c main_arg11 (by decide)
/-- Nor does a line after it, and it is no window's array: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  W_of m dats c main_arg11 (by decide) (by decide) (by decide) (by decide) (by decide)
/-- No line before the region writes `main_arg12`: the region finds it as launched. -/
theorem V_main_arg12 (c : Dev nD) : V m c main_arg12 = m ((c : Thread nD τ).loc main_arg12) :=
  V_of m c main_arg12 (by decide)
/-- Nor does a line after it, and it is no window's array: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of m dats c main_arg12 (by decide) (by decide) (by decide) (by decide) (by decide)
/-- No line before the region writes `main_arg13`: the region finds it as launched. -/
theorem V_main_arg13 (c : Dev nD) : V m c main_arg13 = m ((c : Thread nD τ).loc main_arg13) :=
  V_of m c main_arg13 (by decide)
/-- Nor does a line after it, and it is no window's array: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of m dats c main_arg13 (by decide) (by decide) (by decide) (by decide) (by decide)
/-- No line before the region writes `main_arg14`: the region finds it as launched. -/
theorem V_main_arg14 (c : Dev nD) : V m c main_arg14 = m ((c : Thread nD τ).loc main_arg14) :=
  V_of m c main_arg14 (by decide)
/-- Nor does a line after it, and it is no window's array: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of m dats c main_arg14 (by decide) (by decide) (by decide) (by decide) (by decide)
/-- No line before the region writes `main_arg15`: the region finds it as launched. -/
theorem V_main_arg15 (c : Dev nD) : V m c main_arg15 = m ((c : Thread nD τ).loc main_arg15) :=
  V_of m c main_arg15 (by decide)
/-- Nor does a line after it, and it is no window's array: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  W_of m dats c main_arg15 (by decide) (by decide) (by decide) (by decide) (by decide)
/-- No line before the region writes `main_arg16`: the region finds it as launched. -/
theorem V_main_arg16 (c : Dev nD) : V m c main_arg16 = m ((c : Thread nD τ).loc main_arg16) :=
  V_of m c main_arg16 (by decide)
/-- Nor does a line after it, and it is no window's array: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  W_of m dats c main_arg16 (by decide) (by decide) (by decide) (by decide) (by decide)

end Cert.KernelIdeal.Hand

end
-- ==== Proof.KernelIdealFrameBody.lean ====
/-
  The body of the attention region of `KernelIdeal` at a grid point. Each input window's staging buffer
  holds that window's block of its array whether or not the point fetched it: the query window
  is fetched at every point, the key and value windows once, and an unfetched window's block
  index has not moved. On those blocks the body stores, whole, the softmax block into the
  attention-weights buffer and its product with the values into the second output buffer, so each
  output buffer ends at the one covering store's payload whatever it held. Hence the body's
  triple, and the pipeline's body obligation at every point.
-/
import proofs.«122702_j23356032156211_2_alg».proof.Proof.KernelIdealRegion
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the input windows' buffers -/

/-- The query window's current staging buffer holds its block at every point, fetched there or not,
    for any proof data whose array is the region-entry contents (`hA`) and whose body leaves the
    block in place (`hafter`): the window is an input, uncut and never idle, so an unfetched point
    keeps the block of the point before, whose index is the same. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The key window's current staging buffer holds its block at every point, fetched there or not,
    for any proof data whose array is the region-entry contents (`hA`) and whose body leaves the
    block in place (`hafter`): the window is an input, uncut and never idle, so an unfetched point
    keeps the block of the point before, whose index is the same. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The value window's current staging buffer holds its block at every point, fetched there or not,
    for any proof data whose array is the region-entry contents (`hA`) and whose body leaves the
    block in place (`hafter`): the window is an input, uncut and never idle, so an unfetched point
    keeps the block of the point before, whose index is the same. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same of the region's own proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The stores cover the output buffers -/

/-- The one store into the attention-weights buffer is through the whole buffer, so it covers it. -/
theorem cover0_3 (p0 : Vec F S128x8192 .f32) (y : S128x8192.Idx) :
    ∃ pc ∈ ([⟨rP, p0⟩] : List (View.Piece (Elt F) S128x8192 .f32)), y ∈ pc.1.set :=
  View.cover_of_tiled [⟨rP, p0⟩] S128x8192.size (by rfl) y

/-- Likewise the one store into the second output buffer. -/
theorem cover0_4 (p0 : Vec F S128x256 .f32) (y : S128x256.Idx) :
    ∃ pc ∈ ([⟨rQ, p0⟩] : List (View.Piece (Elt F) S128x256 .f32)), y ∈ pc.1.set :=
  View.cover_of_tiled [⟨rQ, p0⟩] S128x256.size (by rfl) y

/-! ## The body's triple -/

set_option maxHeartbeats 1000000 in
/-- The body on whole staging memrefs, the inputs' at read contents `x0`, `x1`, `x2` and the outputs'
    at anything, runs to the continuation holding the inputs' as they were, the attention-weights
    buffer at `out0_3 x0 x1` and the second output buffer at `out0_4 x0 x1 x2`: the loads read the
    inputs whole, the two loads of the output buffers read values nothing uses, and each store
    overwrites its buffer whole. -/
theorem sound_kernel (c : Dev nD) (E : Set ℕ) (i : grid0.Coords)
    (arg1 : Memref sig .tc .vmem S128x256 .f32) (harg1 : arg1.IsWhole) (arg2 : Memref sig .tc .vmem S8192x256 .f32) (harg2 : arg2.IsWhole)
    (arg3 : Memref sig .tc .vmem S8192x256 .f32) (harg3 : arg3.IsWhole) (arg4 : Memref sig .tc .vmem S128x8192 .f32) (harg4 : arg4.IsWhole)
    (arg5 : Memref sig .tc .vmem S128x256 .f32) (harg5 : arg5.IsWhole)
    (x0 : Vec F S128x256 .f32) (x1 x2 : Vec F S8192x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point `t`: the region invariant, what the core owes, and each
    window's current staging buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealFrame.lean ====
/-
  The run of `KernelIdeal`'s @main and its frame. The lines before the region, the region and the
  lines after it run to the end: every array of the pipeline ends at what the proof data
  computes, every other unscoped buffer at what the later lines leave from the region's exit.
  Read at the seventeen argument arrays — none of them an array of the pipeline, none written by
  any line — this is the frame: each ends as launched.
-/
import proofs.«122702_j23356032156211_2_alg».proof.Proof.KernelIdealFrameTail
import proofs.«122702_j23356032156211_2_alg».proof.Proof.KernelIdealFrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The run -/

set_option backward.isDefEq.respectTransparency.types false in
/-- On the program's mesh, for any values, from any memory with zero counters: every weakly fair
    execution of @main on the TensorCores terminates, and every final state has every array of
    the pipeline at what the proof data computes and every other unscoped buffer as the lines
    after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-! ## The frame -/

/-- The frame of `KernelIdeal` at any `F`: @main runs to the end and every argument array ends as
    launched. Each is unscoped and no window's array, so the run's post gives it at what the later
    lines leave, and no line before or after the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩) (run_main m ρ)

end Cert.KernelIdeal.Hand

end
-- ==== Proof.AttnRow.lean ====
/-
  One row of scaled dot-product attention on the extended reals, with the exact operations.

  For a query row `q` and keys `K` the score of key `j` is `(∑ k, q k * K j k)` scaled by
  one sixteenth; the weights of the row are `exp (s j - M) / ∑ j', exp (s j' - M)` where `M` is
  the largest score. The scale is spelt in two ways — a product with the binary number 1/16, and
  a quotient by the square root of 256 — which agree on every extended real, because the square
  root of 256 is 16 and a quotient by a non-zero real is the product with its reciprocal.
-/
import Idealize.ShloMosaic.PureOps.Ideal
import Idealize.ShloMosaic.PureOps.Ideal.Laws
import Mathlib.Analysis.SpecialFunctions.Pow.Real

noncomputable section

namespace Cert.AttnRow

open Idealize.ShloMosaic
open scoped BigOperators

/-- The word of `0.0625` denotes the real `1/16`. -/
theorem ofBits_sixteenth : Ideal.ofBits .f32 0x3D800000#32 = ((1 / 16 : ℝ) : EReal) := by
  simp [Ideal.ofBits, Ideal.ieee, -EReal.coe_mul]; norm_num

/-- The word of `256.0` denotes the real `256`. -/
theorem ofBits_256 : Ideal.ofBits .f32 0x43800000#32 = ((256 : ℝ) : EReal) := by
  simp [Ideal.ofBits, Ideal.ieee, -EReal.coe_mul]; norm_num

/-- The square root of 256 is 16. -/
theorem sqrt_256 : Ideal.sqrt (Ideal.ofBits .f32 0x43800000#32) = ((16 : ℝ) : EReal) := by
  rw [ofBits_256, Ideal.sqrt_coe, if_neg (by norm_num)]
  congr 1
  rw [show (256 : ℝ) = 16 ^ 2 by norm_num, Real.sqrt_sq (by norm_num)]

/-- Scaling by the binary sixteenth is dividing by the square root of 256, on every extended real. -/
theorem scale_eq (x : EReal) :
    x * Ideal.ofBits .f32 0x3D800000#32 = Ideal.div x (Ideal.sqrt (Ideal.ofBits .f32 0x43800000#32)) := by
  rw [sqrt_256, Ideal.div_coe (by norm_num : (16 : ℝ) ≠ 0), ofBits_sixteenth]

/-- Minus infinity is the least extended real: a maximum met with its word is unchanged. -/
theorem max_negInf (y : EReal) : max (Ideal.ofBits .f32 0xFF800000#32) y = y := by
  simp [Ideal.ofBits, Ideal.ieee]

/-- The scaled score of a query row against key `j`. -/
def score {D N : ℕ} (q : Fin D → EReal) (K : Fin N → Fin D → EReal) (j : Fin N) : EReal :=
  (∑ k, q k * K j k) * Ideal.ofBits .f32 0x3D800000#32

/-- The largest of a row's numbers, starting from minus infinity. -/
def rowMax {N : ℕ} (s : Fin N → EReal) : EReal :=
  (Finset.univ : Finset (Fin N)).fold max (Ideal.ofBits .f32 0xFF800000#32) s

/-- The softmax weight of position `j` in a row of scores. -/
def weight {N : ℕ} (s : Fin N → EReal) (j : Fin N) : EReal :=
  Ideal.div (Ideal.exp (s j - rowMax s)) (∑ j', Ideal.exp (s j' - rowMax s))

/-- The attention weights of a query row against the keys. -/
def attn {D N : ℕ} (q : Fin D → EReal) (K : Fin N → Fin D → EReal) (j : Fin N) : EReal :=
  weight (score q K) j

end Cert.AttnRow

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«122702_j23356032156211_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.KernelPayload.lean ====
/-
  What the attention body stores, read at an index, on the extended reals.

  The body holds a block of 128 query rows `x0`, all 8192 key rows `x1` and all value rows
  `x2`. Entry (r, j) of its first store is the softmax weight of key `j` for query row `r`:
  the scores of the row are the products of the query row with every key row, scaled by one
  sixteenth; the row's maximum is taken from minus infinity; the exponentials of the
  differences are divided by their sum. Entry (r, c) of its second store is the sum over the
  keys of that weight times the value row's entry `c`.
-/
import proofs.«122702_j23356032156211_2_alg».proof.Proof.Gen.KernelIdeal.Skeleton
import proofs.«122702_j23356032156211_2_alg».proof.Proof.AttnRow
import proofs.«122702_j23356032156211_2_alg».proof.Proof.LibContractAt
import proofs.«122702_j23356032156211_2_alg».proof.Proof.LibLaneMax
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-- The product of a block of query rows with all key rows, contracted over the 256 features of
    both, into zero, at (r, j): the sum over the features of query entry times key entry. -/
theorem qk_apply (x0 : FVec Ideal S128x256 .f32) (x1 : FVec Ideal S8192x256 .f32) (r : Fin 128) (j : Fin 8192) :
    matmul dot_S128x256_S8192x256_S128x8192_1_1_0_0_n_n (some .fp32) x0 x1
        (constant (F := Ideal) S128x8192 .f32 0x00000000#32) (ix2 r j)
      = ∑ k : Fin 256, x0 (ix2 r k) * x1 (ix2 j k) := by
  refine (Ideal.matmul_constant_zero_apply dot_S128x256_S8192x256_S128x8192_1_1_0_0_n_n (some .fp32) x0 x1 (ix2 r j)).trans
    (Cert.LibContractAt.contraction_at dot_S128x256_S8192x256_S128x8192_1_1_0_0_n_n 256 rfl rfl x0 x1 (ix2 r j)
      (fun k => ix2 r k) (fun k => ix2 j k) ?_ ?_)
  · intro s
    funext a
    apply Fin.ext
    match a with
    | ⟨0, _⟩ =>
      show (dot_S128x256_S8192x256_S128x8192_1_1_0_0_n_n.lhsIdx (ix2 r j) s 0).val = r.val
      unfold DotDims.lhsIdx
      rw [dif_neg (show ¬(0 : Fin S128x256.rank) ∈ dot_S128x256_S8192x256_S128x8192_1_1_0_0_n_n.lhsBatch by decide),
        dif_pos (show (0 : Fin S128x256.rank) ∈ dot_S128x256_S8192x256_S128x8192_1_1_0_0_n_n.lhsNonContracting by decide)]
      rfl
    | ⟨1, _⟩ => exact dot_S128x256_S8192x256_S128x8192_1_1_0_0_n_n.lhsIdx_val_of_single rfl (ix2 r j) s
  · intro s
    funext a
    apply Fin.ext
    match a with
    | ⟨0, _⟩ =>
      show (dot_S128x256_S8192x256_S128x8192_1_1_0_0_n_n.rhsIdx (ix2 r j) s 0).val = j.val
      unfold DotDims.rhsIdx
      rw [dif_neg (show ¬(0 : Fin S8192x256.rank) ∈ dot_S128x256_S8192x256_S128x8192_1_1_0_0_n_n.rhsBatch by decide),
        dif_pos (show (0 : Fin S8192x256.rank) ∈ dot_S128x256_S8192x256_S128x8192_1_1_0_0_n_n.rhsNonContracting by decide)]
      rfl
    | ⟨1, _⟩ => exact dot_S128x256_S8192x256_S128x8192_1_1_0_0_n_n.rhsIdx_val_of_single rfl (ix2 r j) s

/-- The product of a block of weights with the value rows, into zero, at (r, c). -/
theorem pv_apply (p : FVec Ideal S128x8192 .f32) (x2 : FVec Ideal S8192x256 .f32) (r : Fin 128) (c : Fin 256) :
    matmul dot_S128x8192_S8192x256_S128x256_1_0_0_1_n_n (some .fp32) p x2
        (constant (F := Ideal) S128x256 .f32 0x00000000#32) (ix2 r c)
      = ∑ j : Fin 8192, p (ix2 r j) * x2 (ix2 j c) := by
  refine (Ideal.matmul_constant_zero_apply dot_S128x8192_S8192x256_S128x256_1_0_0_1_n_n (some .fp32) p x2 (ix2 r c)).trans
    (Cert.LibContractAt.contraction_at dot_S128x8192_S8192x256_S128x256_1_0_0_1_n_n 8192 rfl rfl p x2 (ix2 r c)
      (fun j => ix2 r j) (fun j => ix2 j c) ?_ ?_)
  · intro s
    funext a
    apply Fin.ext
    match a with
    | ⟨0, _⟩ =>
      show (dot_S128x8192_S8192x256_S128x256_1_0_0_1_n_n.lhsIdx (ix2 r c) s 0).val = r.val
      unfold DotDims.lhsIdx
      rw [dif_neg (show ¬(0 : Fin S128x8192.rank) ∈ dot_S128x8192_S8192x256_S128x256_1_0_0_1_n_n.lhsBatch by decide),
        dif_pos (show (0 : Fin S128x8192.rank) ∈ dot_S128x8192_S8192x256_S128x256_1_0_0_1_n_n.lhsNonContracting by decide)]
      rfl
    | ⟨1, _⟩ => exact dot_S128x8192_S8192x256_S128x256_1_0_0_1_n_n.lhsIdx_val_of_single rfl (ix2 r c) s
  · intro s
    funext a
    apply Fin.ext
    match a with
    | ⟨0, _⟩ => exact dot_S128x8192_S8192x256_S128x256_1_0_0_1_n_n.rhsIdx_val_of_single rfl (ix2 r c) s
    | ⟨1, _⟩ =>
      show (dot_S128x8192_S8192x256_S128x256_1_0_0_1_n_n.rhsIdx (ix2 r c) s 1).val = c.val
      unfold DotDims.rhsIdx
      rw [dif_neg (show ¬(1 : Fin S8192x256.rank) ∈ dot_S128x8192_S8192x256_S128x256_1_0_0_1_n_n.rhsBatch by decide),
        dif_pos (show (1 : Fin S8192x256.rank) ∈ dot_S128x8192_S8192x256_S128x256_1_0_0_1_n_n.rhsNonContracting by decide)]
      rfl

/-- The scaled scores of the block, at (r, j). -/
theorem scores_apply (x0 : FVec Ideal S128x256 .f32) (x1 : FVec Ideal S8192x256 .f32) (r : Fin 128) (j : Fin 8192) :
    mulf (matmul dot_S128x256_S8192x256_S128x8192_1_1_0_0_n_n (some .fp32) x0 x1 (constant (F := Ideal) S128x8192 .f32 0x00000000#32))
        (broadcast S128x8192 (Scalar.ofBits .f32 0x3D800000#32 : Ideal .f32)) (ix2 r j)
      = Cert.AttnRow.score (fun k => x0 (ix2 r k)) (fun j k => x1 (ix2 j k)) j := by
  show matmul dot_S128x256_S8192x256_S128x8192_1_1_0_0_n_n (some .fp32) x0 x1 (constant (F := Ideal) S128x8192 .f32 0x00000000#32) (ix2 r j)
      * Ideal.ofBits .f32 0x3D800000#32 = _
  rw [qk_apply]
  rfl

/-- The largest score of row `r` of a block of scores, laid along the lanes. -/
theorem rowmax_block (S : FVec Ideal S128x8192 .f32) (hφ : FKind.Formats .f32)
    (hmax : (0xFF800000#32 : BitVec 32) = FKind.maximumf.neutral .f32 hφ) (r : Fin 128) (j : Fin 8192) :
    broadcastTo S128x8192 (shapeCast S128x1 (multiReduction .maximumf [1] S128 S 0xFF800000#32 reduces_S128x8192_S128 hφ hmax)
        shapeCasts_S128_S128x1) broadcasts_S128x1_S128x8192 (ix2 r j)
      = Cert.AttnRow.rowMax (fun j => S (ix2 r j)) :=
  (Cert.LibLayout.broadcastTo_a1_ab_apply _ broadcasts_S128x1_S128x8192 r j).trans
    ((Cert.LibLayout.shapeCast_a_a1_apply _ shapeCasts_S128_S128x1 r 0).trans
      ((Cert.LibLaneMax.laneMax_apply S 0xFF800000#32 reduces_S128x8192_S128 hφ hmax r).trans rfl))

/-- The softmax of a block of scores at (r, j): the exponential of the score less the row's
    maximum, over the row's sum of such exponentials. -/
theorem softmax_block (S : FVec Ideal S128x8192 .f32) (hφ : FKind.Formats .f32)
    (hmax : (0xFF800000#32 : BitVec 32) = FKind.maximumf.neutral .f32 hφ)
    (hadd : (0x00000000#32 : BitVec 32) = FKind.add.neutral .f32 hφ) (r : Fin 128) (j : Fin 8192) :
    divf (exp (subf S (broadcastTo S128x8192 (shapeCast S128x1 (multiReduction .maximumf [1] S128 S 0xFF800000#32 reduces_S128x8192_S128 hφ hmax)
          shapeCasts_S128_S128x1) broadcasts_S128x1_S128x8192)))
        (broadcastTo S128x8192 (shapeCast S128x1 (multiReduction .add [1] S128
            (exp (subf S (broadcastTo S128x8192 (shapeCast S128x1 (multiReduction .maximumf [1] S128 S 0xFF800000#32 reduces_S128x8192_S128 hφ hmax)
              shapeCasts_S128_S128x1) broadcasts_S128x1_S128x8192)))
            0x00000000#32 reduces_S128x8192_S128 hφ hadd) shapeCasts_S128_S128x1) broadcasts_S128x1_S128x8192) (ix2 r j)
      = Cert.AttnRow.weight (fun j => S (ix2 r j)) j := by
  have hE : ∀ j', exp (subf S (broadcastTo S128x8192 (shapeCast S128x1 (multiReduction .maximumf [1] S128 S 0xFF800000#32 reduces_S128x8192_S128 hφ hmax)
          shapeCasts_S128_S128x1) broadcasts_S128x1_S128x8192)) (ix2 r j')
      = Ideal.exp (S (ix2 r j') - Cert.AttnRow.rowMax (fun j => S (ix2 r j))) := fun j' =>
    congrArg (fun z => Ideal.exp (S (ix2 r j') - z)) (rowmax_block S hφ hmax r j')
  have hD := (Cert.LibLayout.broadcastTo_a1_ab_apply _ broadcasts_S128x1_S128x8192 r j).trans
    ((Cert.LibLayout.shapeCast_a_a1_apply _ shapeCasts_S128_S128x1 r 0).trans
      (Cert.LibLayout.laneSum_apply (exp (subf S (broadcastTo S128x8192 (shapeCast S128x1 (multiReduction .maximumf [1] S128 S 0xFF800000#32 reduces_S128x8192_S128 hφ hmax)
          shapeCasts_S128_S128x1) broadcasts_S128x1_S128x8192))) reduces_S128x8192_S128 hφ hadd r))
  exact congrArg₂ Ideal.div (hE j) (hD.trans (Finset.sum_congr rfl fun j' _ => hE j'))

/-- THE FIRST STORE at (r, j): the attention weight of key `j` for query row `r` of the block. -/
theorem pay1_apply (x0 : Vec Ideal S128x256 .f32) (x1 : Vec Ideal S8192x256 .f32) (r : Fin 128) (j : Fin 8192) :
    k0_pay1 (F := Ideal) x0 x1 (ix2 r j)
      = Cert.AttnRow.attn (fun k => x0 (ix2 r k)) (fun j k => x1 (ix2 j k)) j := by
  unfold k0_pay1
  simp only [shapeCast_self]
  refine (softmax_block _ _ _ _ r j).trans ?_
  unfold Cert.AttnRow.attn
  congr 1
  funext j'
  exact scores_apply x0 x1 r j'

/-- THE SECOND STORE at (r, c): the weights of row `r` against the values' column `c`. -/
theorem pay2_apply (x0 : Vec Ideal S128x256 .f32) (x1 x2 : Vec Ideal S8192x256 .f32) (r : Fin 128) (c : Fin 256) :
    k0_pay2 (F := Ideal) x0 x1 x2 (ix2 r c)
      = ∑ j : Fin 8192, Cert.AttnRow.attn (fun k => x0 (ix2 r k)) (fun j k => x1 (ix2 j k)) j * x2 (ix2 j c) := by
  unfold k0_pay2
  simp only [shapeCast_self]
  rw [pv_apply]
  exact Finset.sum_congr rfl fun j _ => by rw [pay1_apply]

end Cert.KernelIdeal.Payload

end
-- ==== Proof.RefAttnDefs.lean ====
/-
  The reference's attention as host operations of the query matrix `Q`, the key matrix `K`
  and the value matrix `V`: the scores are `Q` times the transpose of `K` divided by the square
  root of 256; the row maximum is a reduction from minus infinity met once more with minus
  infinity; the weights are the exponentials of the differences divided by their row sums; the
  attended values are the weights times `V`.
-/
import proofs.«122702_j23356032156211_2_alg».proof.ReferenceIdeal
import proofs.«122702_j23356032156211_2_alg».proof.Proof.Gen.ReferenceIdeal
import Idealize.ShloMosaic.PureOps.Ideal

noncomputable section

namespace Cert.ReferenceIdeal.Attn

open Cert.ReferenceIdeal Cert.ReferenceIdeal.Gen Idealize.ShloMosaic

/-- A vector of one number per row laid along the 8192 lanes of every row. -/
def col (v : FVec Ideal S8192 .f32) : FVec Ideal S8192x8192 .f32 :=
  broadcastInDim S8192x8192 ![0, 1] bcast_S8192x1_S8192x8192_0_1 (broadcastInDim S8192x1 ![0] bcast_S8192_S8192x1_0 v)

/-- The scaled scores. -/
def scores (Q K : FVec Ideal S8192x256 .f32) : FVec Ideal S8192x8192 .f32 :=
  Host.divf (Host.dotGeneral dot_S8192x256_S256x8192_S8192x8192_1_0_0_1_n_n none Q
      (transpose S256x8192 [1, 0] K transposes_S8192x256_S256x8192_1_0))
    (broadcastInDim S8192x8192 ![] bcast_S_S8192x8192 (Host.sqrt (constant S_ .f32 0x43800000#32)))

/-- The reduction of each row by maximum, from minus infinity. -/
def rowred (S : FVec Ideal S8192x8192 .f32) : FVec Ideal S8192 .f32 :=
  Host.reduce (FloatOps.maximumf (F := Ideal) (φ := .f32)) S (constant (F := Ideal) S_ .f32 0xFF800000#32) reducesTo_S8192x8192_S8192_d1 h_S_

/-- Minus infinity, once per row. -/
def negInfVec : FVec Ideal S8192 .f32 :=
  broadcastInDim S8192 ![] bcast_S_S8192 (constant (F := Ideal) S_ .f32 0xFF800000#32)

/-- The row maxima. -/
def rowmax (S : FVec Ideal S8192x8192 .f32) : FVec Ideal S8192 .f32 :=
  maximumf negInfVec (rowred S)

/-- The exponentials of the scores less their row's maximum. -/
def expd (S : FVec Ideal S8192x8192 .f32) : FVec Ideal S8192x8192 .f32 :=
  Host.exp (subf S (col (rowmax S)))

/-- The weights. -/
def attn (Q K : FVec Ideal S8192x256 .f32) : FVec Ideal S8192x8192 .f32 :=
  Host.divf (expd (scores Q K))
    (col (Host.reduceAdd (expd (scores Q K)) (constant S_ .f32 0x00000000#32) reducesTo_S8192x8192_S8192_d1 h_S_))

/-- The weights times the values. -/
def attnV (Q K V : FVec Ideal S8192x256 .f32) : FVec Ideal S8192x256 .f32 :=
  Host.dotGeneral dot_S8192x8192_S8192x256_S8192x256_1_0_0_1_n_n none (attn Q K) V

end Cert.ReferenceIdeal.Attn

end
-- ==== Proof.LibHostSums.lean ====
/-
  GENERAL lemmas: host sums read at an index, on the extended reals, at any extents.

  * a host sum over the lane axis of a matrix, read at row `n`: the initial value plus the sum of the row's entries;
  * a sum over the index set of a column `[n, 1]` is the sum over its rows.
-/
import proofs.«122702_j23356032156211_2_alg».proof.Proof.LibLayout
import Idealize.ShloMosaic.Lib.ValueIdx
import Idealize.ShloMosaic.PureOps.Ideal.Laws

noncomputable section

open scoped BigOperators
open Idealize.ShloMosaic Idealize.ShloMosaic.ValueIdx

namespace Cert.LibHostSums

/-- A host sum over the lane axis, at row `n`. -/
theorem hostLaneSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduceAdd (F := Ideal) y init h' hu (ix1 n) = init (Shape.Idx.first hu) + ∑ k : Fin b, y (ix2 n k) := by
  simp only [Host.reduceAdd, Ideal.hostReduceAdd_def]
  rw [Ideal.hostReduceAdd_single h' h]
  exact congrArg (_ + ·) (Finset.sum_congr rfl fun k _ => congrArg y (Cert.LibLayout.lift_row h n k))

/-- A sum over the index set of a column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostSums

end
-- ==== Proof.RefAttn.lean ====
/-
  The reference's attention matrix as host operations of the query matrix `Q` and the key
  matrix `K`, and its product with the values, read at an index on the extended reals.

  The scores are `Q` times the transpose of `K`, divided by the square root of 256; the row
  maximum is a reduction from minus infinity met once more with minus infinity; the weights
  are the exponentials of the differences divided by their row sums. At (p, j) this is the
  softmax weight of key `j` for query row `p`, with the scale spelt as a product with 1/16.
-/
import proofs.«122702_j23356032156211_2_alg».proof.Proof.RefAttnDefs
import proofs.«122702_j23356032156211_2_alg».proof.Proof.Gen.ReferenceIdeal
import proofs.«122702_j23356032156211_2_alg».proof.Proof.AttnRow
import proofs.«122702_j23356032156211_2_alg».proof.Proof.LibContractAt
import proofs.«122702_j23356032156211_2_alg».proof.Proof.LibLayout
import proofs.«122702_j23356032156211_2_alg».proof.Proof.LibHostSums
import Idealize.ShloMosaic.Lib.ValueIdx
import Idealize.ShloMosaic.Lib.Pipeline.Value
import Idealize.ShloMosaic.PureOps.Ideal.Laws

noncomputable section

namespace Cert.ReferenceIdeal.Attn

open Cert.ReferenceIdeal Cert.ReferenceIdeal.Gen Idealize.ShloMosaic Idealize.ShloMosaic.ValueIdx
open scoped BigOperators

theorem col_apply (v : FVec Ideal S8192 .f32) (p j : Fin 8192) : col v (ix2 p j) = v (ix1 p) := by
  unfold col
  refine (broadcastInDim_apply _ bcast_S8192x1_S8192x8192_0_1 _ (ix2 p j) (ix2 p (0 : Fin 1)) fun a => ?_).trans
    (broadcastInDim_apply _ bcast_S8192_S8192x1_0 v (ix2 p (0 : Fin 1)) (ix1 p) fun a => ?_)
  · match a with
    | ⟨0, _⟩ => show p.val = if (8192 : ℕ) = 1 then 0 else p.val; rw [if_neg (by decide)]
    | ⟨1, _⟩ => show (0 : ℕ) = if (1 : ℕ) = 1 then 0 else j.val; rw [if_pos rfl]
  · match a with
    | ⟨0, _⟩ => show p.val = if (8192 : ℕ) = 1 then 0 else p.val; rw [if_neg (by decide)]

theorem scores_apply (Q K : FVec Ideal S8192x256 .f32) (p j : Fin 8192) :
    scores Q K (ix2 p j) = Cert.AttnRow.score (fun k => Q (ix2 p k)) (fun j k => K (ix2 j k)) j := by
  unfold scores Cert.AttnRow.score
  show Ideal.div (Host.dotGeneral dot_S8192x256_S256x8192_S8192x8192_1_0_0_1_n_n none Q
      (transpose S256x8192 [1, 0] K transposes_S8192x256_S256x8192_1_0) (ix2 p j))
    (broadcastInDim S8192x8192 ![] bcast_S_S8192x8192 (Host.sqrt (F := Ideal) (constant S_ .f32 0x43800000#32)) (ix2 p j)) = _
  rw [broadcastInDim_apply _ bcast_S_S8192x8192 _ (ix2 p j) (fun a => a.elim0) (fun a => a.elim0)]
  show Ideal.div _ (Ideal.sqrt (Ideal.ofBits .f32 0x43800000#32)) = _
  rw [← Cert.AttnRow.scale_eq]
  congr 1
  rw [Cert.LibContractAt.hostdot_at dot_S8192x256_S256x8192_S8192x8192_1_0_0_1_n_n 256 rfl rfl Q _ (ix2 p j)
    (fun k => ix2 p k) (fun k => ix2 k j)]
  · refine Finset.sum_congr rfl fun k _ => ?_
    congr 1
    exact transpose_apply [1, 0] K transposes_S8192x256_S256x8192_1_0 (ix2 k j) (ix2 j k) (fun b => match b with
      | ⟨0, _⟩ => rfl
      | ⟨1, _⟩ => rfl)
  · intro s
    funext a
    apply Fin.ext
    match a with
    | ⟨0, _⟩ =>
      show (dot_S8192x256_S256x8192_S8192x8192_1_0_0_1_n_n.lhsIdx (ix2 p j) s 0).val = p.val
      unfold DotDims.lhsIdx
      rw [dif_neg (show ¬(0 : Fin S8192x256.rank) ∈ dot_S8192x256_S256x8192_S8192x8192_1_0_0_1_n_n.lhsBatch by decide),
        dif_pos (show (0 : Fin S8192x256.rank) ∈ dot_S8192x256_S256x8192_S8192x8192_1_0_0_1_n_n.lhsNonContracting by decide)]
      rfl
    | ⟨1, _⟩ => exact dot_S8192x256_S256x8192_S8192x8192_1_0_0_1_n_n.lhsIdx_val_of_single rfl (ix2 p j) s
  · intro s
    funext a
    apply Fin.ext
    match a with
    | ⟨0, _⟩ => exact dot_S8192x256_S256x8192_S8192x8192_1_0_0_1_n_n.rhsIdx_val_of_single rfl (ix2 p j) s
    | ⟨1, _⟩ =>
      show (dot_S8192x256_S256x8192_S8192x8192_1_0_0_1_n_n.rhsIdx (ix2 p j) s 1).val = j.val
      unfold DotDims.rhsIdx
      rw [dif_neg (show ¬(1 : Fin S256x8192.rank) ∈ dot_S8192x256_S256x8192_S8192x8192_1_0_0_1_n_n.rhsBatch by decide),
        dif_pos (show (1 : Fin S256x8192.rank) ∈ dot_S8192x256_S256x8192_S8192x8192_1_0_0_1_n_n.rhsNonContracting by decide)]
      rfl

theorem hostLaneMax_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduce (FloatOps.maximumf (F := Ideal) (φ := .f32)) y init h' hu (ix1 n)
      = Finset.fold max (init (Shape.Idx.first hu)) (fun k : Fin b => y (ix2 n k)) Finset.univ := by
  refine (Host.reduce_eq_fold_single FloatOps.maximumf y init h' h hu (ix1 n)).trans ?_
  exact congrArg (fun f : Fin b → EReal => Finset.fold max (init (Shape.Idx.first hu)) f Finset.univ)
    (funext fun k => congrArg y (Cert.LibLayout.lift_row h n k))

theorem negInf_apply (p : Fin 8192) : negInfVec (ix1 p) = Ideal.ofBits .f32 0xFF800000#32 :=
  broadcastInDim_apply _ bcast_S_S8192 _ (ix1 p) (fun a => a.elim0) (fun a => a.elim0)

theorem rowred_apply (S : FVec Ideal S8192x8192 .f32) (p : Fin 8192) :
    rowred S (ix1 p) = Cert.AttnRow.rowMax (fun j => S (ix2 p j)) :=
  (hostLaneMax_apply S (constant (F := Ideal) S_ .f32 0xFF800000#32) reducesTo_S8192x8192_S8192_d1 (by decide) h_S_ p).trans rfl

theorem rowmax_apply (S : FVec Ideal S8192x8192 .f32) (p : Fin 8192) :
    rowmax S (ix1 p) = Cert.AttnRow.rowMax (fun j => S (ix2 p j)) :=
  (maximumf_apply negInfVec (rowred S) (ix1 p)).trans
    ((congrArg₂ (max : EReal → EReal → EReal) (negInf_apply p) (rowred_apply S p)).trans (Cert.AttnRow.max_negInf _))

/-- The host's pointwise exponential and quotient read at an index (any shape). -/
theorem hostExp_apply {s : Shape} (x : FVec Ideal s .f32) (i : s.Idx) : Host.exp x i = Ideal.exp (x i) := rfl
theorem hostDivf_apply {s : Shape} (x y : FVec Ideal s .f32) (i : s.Idx) : Host.divf x y i = Ideal.div (x i) (y i) := rfl

theorem expd_apply (S : FVec Ideal S8192x8192 .f32) (p j : Fin 8192) :
    expd S (ix2 p j) = Ideal.exp (S (ix2 p j) - Cert.AttnRow.rowMax (fun j => S (ix2 p j))) :=
  (hostExp_apply _ _).trans (congrArg Ideal.exp ((subf_apply S (col (rowmax S)) (ix2 p j)).trans
    (congrArg (fun z => S (ix2 p j) - z) ((col_apply _ p j).trans (rowmax_apply S p)))))

/-- THE REFERENCE'S WEIGHTS at (p, j). -/
theorem attn_apply (Q K : FVec Ideal S8192x256 .f32) (p j : Fin 8192) :
    attn Q K (ix2 p j) = Cert.AttnRow.attn (fun k => Q (ix2 p k)) (fun j k => K (ix2 j k)) j := by
  have hs : (fun j => scores Q K (ix2 p j)) = Cert.AttnRow.score (fun k => Q (ix2 p k)) (fun j k => K (ix2 j k)) :=
    funext fun j => scores_apply Q K p j
  have hE : ∀ j', expd (scores Q K) (ix2 p j')
      = Ideal.exp (Cert.AttnRow.score (fun k => Q (ix2 p k)) (fun j k => K (ix2 j k)) j'
          - Cert.AttnRow.rowMax (Cert.AttnRow.score (fun k => Q (ix2 p k)) (fun j k => K (ix2 j k)))) := fun j' => by
    rw [expd_apply, hs, scores_apply]
  have hD : col (Host.reduceAdd (expd (scores Q K)) (constant (F := Ideal) S_ .f32 0x00000000#32) reducesTo_S8192x8192_S8192_d1 h_S_) (ix2 p j)
      = ∑ j' : Fin 8192, expd (scores Q K) (ix2 p j') :=
    (col_apply _ p j).trans
      ((Cert.LibHostSums.hostLaneSum_apply (expd (scores Q K)) (constant (F := Ideal) S_ .f32 0x00000000#32)
          reducesTo_S8192x8192_S8192_d1 (by decide) h_S_ p).trans
        ((congrArg (fun z : EReal => z + ∑ j' : Fin 8192, expd (scores Q K) (ix2 p j')) Ideal.ofBits_zero_f32).trans (zero_add _)))
  exact (hostDivf_apply _ _ _).trans (congrArg₂ Ideal.div (hE j) (hD.trans (Finset.sum_congr rfl fun j' _ => hE j')))

/-- THE REFERENCE'S SECOND PRODUCT at (p, c). -/
theorem attnV_apply (Q K V : FVec Ideal S8192x256 .f32) (p : Fin 8192) (c : Fin 256) :
    attnV Q K V (ix2 p c)
      = ∑ j : Fin 8192, Cert.AttnRow.attn (fun k => Q (ix2 p k)) (fun j k => K (ix2 j k)) j * V (ix2 j c) := by
  unfold attnV
  rw [Cert.LibContractAt.hostdot_at dot_S8192x8192_S8192x256_S8192x256_1_0_0_1_n_n 8192 rfl rfl _ V (ix2 p c)
    (fun j => ix2 p j) (fun j => ix2 j c)]
  · exact Finset.sum_congr rfl fun j _ => by rw [attn_apply]
  · intro s
    funext a
    apply Fin.ext
    match a with
    | ⟨0, _⟩ =>
      show (dot_S8192x8192_S8192x256_S8192x256_1_0_0_1_n_n.lhsIdx (ix2 p c) s 0).val = p.val
      unfold DotDims.lhsIdx
      rw [dif_neg (show ¬(0 : Fin S8192x8192.rank) ∈ dot_S8192x8192_S8192x256_S8192x256_1_0_0_1_n_n.lhsBatch by decide),
        dif_pos (show (0 : Fin S8192x8192.rank) ∈ dot_S8192x8192_S8192x256_S8192x256_1_0_0_1_n_n.lhsNonContracting by decide)]
      rfl
    | ⟨1, _⟩ => exact dot_S8192x8192_S8192x256_S8192x256_1_0_0_1_n_n.lhsIdx_val_of_single rfl (ix2 p c) s
  · intro s
    funext a
    apply Fin.ext
    match a with
    | ⟨0, _⟩ => exact dot_S8192x8192_S8192x256_S8192x256_1_0_0_1_n_n.rhsIdx_val_of_single rfl (ix2 p c) s
    | ⟨1, _⟩ =>
      show (dot_S8192x8192_S8192x256_S8192x256_1_0_0_1_n_n.rhsIdx (ix2 p c) s 1).val = c.val
      unfold DotDims.rhsIdx
      rw [dif_neg (show ¬(1 : Fin S8192x256.rank) ∈ dot_S8192x8192_S8192x256_S8192x256_1_0_0_1_n_n.rhsBatch by decide),
        dif_pos (show (1 : Fin S8192x256.rank) ∈ dot_S8192x8192_S8192x256_S8192x256_1_0_0_1_n_n.rhsNonContracting by decide)]
      rfl

end Cert.ReferenceIdeal.Attn

end
-- ==== Proof.KernelArrays.lean ====
/-
  The two arrays the attention region writes, as whole-array functions of the arrays it reads.

  Point `t` of the grid reads rows 128·t … 128·t + 127 of the queries and all keys and values,
  and writes back rows 128·t … 128·t + 127 of both results. Entry (r, j) of what it writes to
  the weights is the attention weight of key `j` for query row 128·t + r, and entry (r, c) of
  what it writes to the second result is the sum over the keys of that weight times the value
  entry — exactly the rows 128·t + r of the host's attention matrix of the whole query and key
  matrices, and of its product with the values. The 64 blocks cover all 8192 rows.
-/
import proofs.«122702_j23356032156211_2_alg».proof.Proof.KernelIdealRegion
import proofs.«122702_j23356032156211_2_alg».proof.Proof.KernelPayload
import proofs.«122702_j23356032156211_2_alg».proof.Proof.RefAttn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

theorem hz2 : (![0, 0] : Fin 2 → Nat) = fun _ => 0 := funext fun a => by fin_cases a <;> rfl

/-- The printed index maps, decided over the grid: the query block and both result blocks sit
    at block row `t`, block column 0; the keys and values are always the whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## One block, over variables -/

/-- A block of weights: if `x0` holds rows 128·b … of `Q` and `x1` holds `K`, the body's first
    store at `j` is the attention matrix of `Q` and `K` at row 128·b + j₀, column j₁. -/
theorem blk_attn (Q K : FVec Ideal Cert.ReferenceIdeal.S8192x256 .f32) (x0 : Vec Ideal S128x256 .f32) (x1 : Vec Ideal S8192x256 .f32)
    (b : ℕ)
    (hx0 : ∀ (r : Fin 128) (k : Fin 256) (p : Fin 8192), p.val = b * 128 + r.val → x0 (ix2 r k) = Q (ix2 p k))
    (hx1 : ∀ (j : Fin 8192) (k : Fin 256), x1 (ix2 j k) = K (ix2 j k))
    (j : S128x8192.Idx) (i : Cert.ReferenceIdeal.S8192x8192.Idx)
    (hi0 : (i 0).val = b * 128 + (j 0).val) (hi1 : (i 1).val = (j 1).val) :
    k0_pay1 (F := Ideal) x0 x1 j = Cert.ReferenceIdeal.Attn.attn Q K i := by
  obtain ⟨r, q, rfl⟩ : ∃ (r : Fin 128) (q : Fin 8192), j = ix2 r q := ⟨j 0, j 1, eq_ix2 j⟩
  obtain ⟨p, q', rfl⟩ : ∃ (p : Fin 8192) (q' : Fin 8192), i = ix2 p q' := ⟨i 0, i 1, eq_ix2 i⟩
  obtain rfl : q' = q := Fin.ext hi1
  rw [Cert.KernelIdeal.Payload.pay1_apply, Cert.ReferenceIdeal.Attn.attn_apply]
  congr 1
  · funext k; exact hx0 r k p hi0
  · funext j k; exact hx1 j k

/-- A block of the second result, likewise. -/
theorem blk_attnV (Q K V : FVec Ideal Cert.ReferenceIdeal.S8192x256 .f32) (x0 : Vec Ideal S128x256 .f32)
    (x1 x2 : Vec Ideal S8192x256 .f32) (b : ℕ)
    (hx0 : ∀ (r : Fin 128) (k : Fin 256) (p : Fin 8192), p.val = b * 128 + r.val → x0 (ix2 r k) = Q (ix2 p k))
    (hx1 : ∀ (j : Fin 8192) (k : Fin 256), x1 (ix2 j k) = K (ix2 j k))
    (hx2 : ∀ (j : Fin 8192) (k : Fin 256), x2 (ix2 j k) = V (ix2 j k))
    (j : S128x256.Idx) (i : Cert.ReferenceIdeal.S8192x256.Idx)
    (hi0 : (i 0).val = b * 128 + (j 0).val) (hi1 : (i 1).val = (j 1).val) :
    k0_pay2 (F := Ideal) x0 x1 x2 j = Cert.ReferenceIdeal.Attn.attnV Q K V i := by
  obtain ⟨r, q, rfl⟩ : ∃ (r : Fin 128) (q : Fin 256), j = ix2 r q := ⟨j 0, j 1, eq_ix2 j⟩
  obtain ⟨p, q', rfl⟩ : ∃ (p : Fin 8192) (q' : Fin 256), i = ix2 p q' := ⟨i 0, i 1, eq_ix2 i⟩
  obtain rfl : q' = q := Fin.ext hi1
  rw [Cert.KernelIdeal.Payload.pay2_apply, Cert.ReferenceIdeal.Attn.attnV_apply]
  refine Finset.sum_congr rfl fun j _ => ?_
  rw [hx2 j]
  congr 2
  · funext k; exact hx0 r k p hi0
  · funext j k; exact hx1 j k

/-! ## The input blocks at a point -/

/-- The query block at point `t` holds rows 128·t … of the query array. -/
theorem iblk0_at (c : Dev nD) (t : Fin cfg0.N) (r : Fin 128) (k : Fin 256) (p : Fin 8192) (hp : p.val = t.val * 128 + r.val) :
    iblk m c 0 t (ix2 r k) = V m c main_v37 (ix2 p k) := by
  unfold iblk
  show V m c main_v37 (((cfg0.win 0).blk t).view.emb (ix2 r k)) = V m c main_v37 (ix2 p k)
  obtain ⟨e0, e1, -⟩ := idx_facts t
  refine congrArg _ (funext fun a => Fin.ext ?_)
  match a with
  | ⟨0, _⟩ => show win0_0.index t (0 : Fin 2) * 128 + 1 * r.val = p.val; omega
  | ⟨1, _⟩ => show win0_0.index t (1 : Fin 2) * 256 + 1 * k.val = k.val; omega

/-- The key block at any point is the key array. -/
theorem iblk1_at (c : Dev nD) (t : Fin cfg0.N) (j : Fin 8192) (k : Fin 256) :
    iblk m c 1 t (ix2 j k) = V m c main_v38 (ix2 j k) := by
  unfold iblk
  show V m c main_v38 (((cfg0.win 1).blk t).view.emb (ix2 j k)) = V m c main_v38 (ix2 j k)
  obtain ⟨-, -, e2, e3, -⟩ := idx_facts t
  refine congrArg _ (funext fun a => Fin.ext ?_)
  match a with
  | ⟨0, _⟩ => show win0_1.index t (0 : Fin 2) * 8192 + 1 * j.val = j.val; omega
  | ⟨1, _⟩ => show win0_1.index t (1 : Fin 2) * 256 + 1 * k.val = k.val; omega

/-- The value block at any point is the value array. -/
theorem iblk2_at (c : Dev nD) (t : Fin cfg0.N) (j : Fin 8192) (k : Fin 256) :
    iblk m c 2 t (ix2 j k) = V m c main_v39 (ix2 j k) := by
  unfold iblk
  show V m c main_v39 (((cfg0.win 2).blk t).view.emb (ix2 j k)) = V m c main_v39 (ix2 j k)
  obtain ⟨-, -, -, -, e4, e5, -⟩ := idx_facts t
  refine congrArg _ (funext fun a => Fin.ext ?_)
  match a with
  | ⟨0, _⟩ => show win0_2.index t (0 : Fin 2) * 8192 + 1 * j.val = j.val; omega
  | ⟨1, _⟩ => show win0_2.index t (1 : Fin 2) * 256 + 1 * k.val = k.val; omega

/-! ## The weights: output window 3 -/

/-- WHAT POINT `t` WRITES BACK to the weights is block `t` of the attention matrix of the
    query and key arrays as the region finds them. -/
theorem flushed3_eq (c : Dev nD) (t : Fin cfg0.N) :
    (dats m 0 c).flushed 3 t = ((cfg0.win 3).blk t).view.read (Elt Ideal)
      (Cert.ReferenceIdeal.Attn.attn (V m c main_v37) (V m c main_v38)) := by
  show (cfg0.win 3).cut (grid0.coords t) ((dats m 0 c).after 3 t) = _
  rw [after0_3]
  unfold out0_3
  rw [View.canon_unit_zero hz2]
  simp only [View.ld_unit_zero (S := S128x256) hz2, View.ld_unit_zero (S := S8192x256) hz2]
  obtain ⟨-, -, -, -, -, -, e6, e7, -⟩ := idx_facts t
  funext j
  show k0_pay1 (F := Ideal) (iblk m c 0 t) (iblk m c 1 t) j
    = Cert.ReferenceIdeal.Attn.attn (V m c main_v37) (V m c main_v38) (((cfg0.win 3).blk t).view.emb j)
  refine blk_attn (V m c main_v37) (V m c main_v38) (iblk m c 0 t) (iblk m c 1 t) t.val
    (fun r k p hp => iblk0_at m c t r k p hp) (fun j k => iblk1_at m c t j k) j _ ?_ ?_
  · show win0_3.index t (0 : Fin 2) * 128 + 1 * (j 0).val = t.val * 128 + (j 0).val; omega
  · show win0_3.index t (1 : Fin 2) * 8192 + 1 * (j 1).val = (j 1).val; omega

/-- An index of the weights is in point `t`'s block iff each coordinate is in the block's range. -/
theorem mem_blk3 (t : Fin cfg0.N) (i : S8192x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v40_0).slice (win0_3.rect t)).set ↔ _
  rw [View.set_slice_whole, Rect.mem_set_unit]
  exact Iff.rfl

/-- Every entry of the weights is in the block of the point its row falls in. -/
theorem cover3 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 64 := N_0
  refine ⟨⟨(i 0).val / 128, by omega⟩, flush0_3 _, ?_⟩
  rw [mem_blk3]
  obtain ⟨-, -, -, -, -, -, e6, e7, -⟩ := idx_facts ⟨(i 0).val / 128, by omega⟩
  intro a
  match a with
  | ⟨0, _⟩ =>
    show win0_3.index _ (0 : Fin 2) * 128 ≤ (i 0).val ∧ (i 0).val < win0_3.index _ (0 : Fin 2) * 128 + 128
    rw [e6]; show (i 0).val / 128 * 128 ≤ (i 0).val ∧ (i 0).val < (i 0).val / 128 * 128 + 128; omega
  | ⟨1, _⟩ =>
    show win0_3.index _ (1 : Fin 2) * 8192 ≤ (i 1).val ∧ (i 1).val < win0_3.index _ (1 : Fin 2) * 8192 + 8192
    rw [e7]; omega

/-- THE WEIGHTS after the region: the attention matrix of the query and key arrays. -/
theorem final3 (c : Dev nD) :
    (dats m 0 c).arrAt 3 cfg0.N = Cert.ReferenceIdeal.Attn.attn (V m c main_v37) (V m c main_v38) :=
  (dats m 0 c).arrAt_eq_of_cover 3 _ (fun t _ => flushed3_eq m c t) cover3

/-! ## The second result: output window 4 -/

theorem flushed4_eq (c : Dev nD) (t : Fin cfg0.N) :
    (dats m 0 c).flushed 4 t = ((cfg0.win 4).blk t).view.read (Elt Ideal)
      (Cert.ReferenceIdeal.Attn.attnV (V m c main_v37) (V m c main_v38) (V m c main_v39)) := by
  show (cfg0.win 4).cut (grid0.coords t) ((dats m 0 c).after 4 t) = _
  rw [after0_4]
  unfold out0_4
  rw [View.canon_unit_zero hz2]
  simp only [View.ld_unit_zero (S := S128x256) hz2, View.ld_unit_zero (S := S8192x256) hz2]
  obtain ⟨-, -, -, -, -, -, -, -, e8, e9⟩ := idx_facts t
  funext j
  show k0_pay2 (F := Ideal) (iblk m c 0 t) (iblk m c 1 t) (iblk m c 2 t) j
    = Cert.ReferenceIdeal.Attn.attnV (V m c main_v37) (V m c main_v38) (V m c main_v39) (((cfg0.win 4).blk t).view.emb j)
  refine blk_attnV (V m c main_v37) (V m c main_v38) (V m c main_v39) (iblk m c 0 t) (iblk m c 1 t) (iblk m c 2 t) t.val
    (fun r k p hp => iblk0_at m c t r k p hp) (fun j k => iblk1_at m c t j k) (fun j k => iblk2_at m c t j k) j _ ?_ ?_
  · show win0_4.index t (0 : Fin 2) * 128 + 1 * (j 0).val = t.val * 128 + (j 0).val; omega
  · show win0_4.index t (1 : Fin 2) * 256 + 1 * (j 1).val = (j 1).val; omega

theorem mem_blk4 (t : Fin cfg0.N) (i : S8192x256.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v40_1).slice (win0_4.rect t)).set ↔ _
  rw [View.set_slice_whole, Rect.mem_set_unit]
  exact Iff.rfl

theorem cover4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 64 := N_0
  refine ⟨⟨(i 0).val / 128, by omega⟩, flush0_4 _, ?_⟩
  rw [mem_blk4]
  obtain ⟨-, -, -, -, -, -, -, -, e8, e9⟩ := idx_facts ⟨(i 0).val / 128, by omega⟩
  intro a
  match a with
  | ⟨0, _⟩ =>
    show win0_4.index _ (0 : Fin 2) * 128 ≤ (i 0).val ∧ (i 0).val < win0_4.index _ (0 : Fin 2) * 128 + 128
    rw [e8]; show (i 0).val / 128 * 128 ≤ (i 0).val ∧ (i 0).val < (i 0).val / 128 * 128 + 128; omega
  | ⟨1, _⟩ =>
    show win0_4.index _ (1 : Fin 2) * 256 ≤ (i 1).val ∧ (i 1).val < win0_4.index _ (1 : Fin 2) * 256 + 256
    rw [e9]; omega

/-- THE SECOND RESULT after the region: the attention matrix times the value array. -/
theorem final4 (c : Dev nD) :
    (dats m 0 c).arrAt 4 cfg0.N
      = Cert.ReferenceIdeal.Attn.attnV (V m c main_v37) (V m c main_v38) (V m c main_v39) :=
  (dats m 0 c).arrAt_eq_of_cover 4 _ (fun t _ => flushed4_eq m c t) cover4

end Cert.KernelIdeal.Hand

end
-- ==== Proof.Layers.lean ====
/-
  The layer's building blocks as host operations on whole arrays of extended reals.

  * `deg idx`: one over the square root of the larger of 1 and the number of edges whose entry
    of `idx` is the node — the degree normalisation, from the sources or from the targets;
  * `agg256`, `agg1024`: scale the rows by the source normalisation, gather the source row of
    every edge, add the gathered rows into their target rows, scale by the target normalisation;
  * `lin256`, `lin1024`, `proj`: a matrix product, with or without a bias laid along the rows;
  * `layernorm`: centre each row, divide by the root of its mean square plus a small constant,
    scale and shift;
  * `relu`: the larger of an entry and zero.
-/
import proofs.«122702_j23356032156211_2_alg».proof.ReferenceIdeal
import proofs.«122702_j23356032156211_2_alg».proof.Proof.Gen.ReferenceIdeal
import proofs.«122702_j23356032156211_2_alg».proof.Proof.RefAttnDefs

noncomputable section

namespace Cert.ReferenceIdeal.Layers

open Cert.ReferenceIdeal Cert.ReferenceIdeal.Gen Idealize.ShloMosaic

abbrev M256 := FVec Ideal S8192x256 .f32
abbrev M1024 := FVec Ideal S8192x1024 .f32
abbrev Vn := FVec Ideal S8192 .f32
abbrev Edges := IVec S131072 32
abbrev W256 := FVec Ideal S256x256 .f32
abbrev B256 := FVec Ideal S256 .f32

/-- The degree normalisation of the nodes counted in `idx`. -/
def deg (idx : Edges) : Vn :=
  Host.powf (maximumf (Host.scatterAdd scatter_S8192_S131072x1_S131072_n_0_0_1
      (broadcastInDim S8192 ![] bcast_S_S8192 (constant S_ .f32 0x00000000#32))
      (broadcastInDim S131072x1 ![0] bcast_S131072_S131072x1_0 idx)
      (broadcastInDim S131072 ![] bcast_S_S131072 (constant S_ .f32 0x3F800000#32)))
    (broadcastInDim S8192 ![] bcast_S_S8192 (constant S_ .f32 0x3F800000#32)))
    (broadcastInDim S8192 ![] bcast_S_S8192 (constant S_ .f32 0xBF000000#32))

/-- One number per node laid along the 256 (or 1024) columns of its row. -/
def col256 (v : Vn) : M256 :=
  broadcastInDim S8192x256 ![0, 1] bcast_S8192x1_S8192x256_0_1 (broadcastInDim S8192x1 ![0] bcast_S8192_S8192x1_0 v)
def col1024 (v : Vn) : M1024 :=
  broadcastInDim S8192x1024 ![0, 1] bcast_S8192x1_S8192x1024_0_1 (broadcastInDim S8192x1 ![0] bcast_S8192_S8192x1_0 v)

/-- The table of source rows (a negative entry counted from the end) and of target rows. -/
def srcTab (src : Edges) : IVec S131072x1 32 :=
  broadcastInDim S131072x1 ![0] bcast_S131072_S131072x1_0
    (select (cmpi .slt src (broadcastInDim S131072 ![] bcast_S_S131072 (constantI S_ 32 0#32)))
      (addi src (broadcastInDim S131072 ![] bcast_S_S131072 (constantI S_ 32 8192#32))) src)
def dstTab (dst : Edges) : IVec S131072x1 32 :=
  broadcastInDim S131072x1 ![0] bcast_S131072_S131072x1_0 dst

/-- The normalised neighbourhood sum of 256-wide rows. -/
def agg256 (dout din : Vn) (src dst : Edges) (h : M256) : M256 :=
  mulf (Host.scatterAdd scatter_S8192x256_S131072x1_S131072x256_1_0_0_1
      (broadcastInDim S8192x256 ![] bcast_S_S8192x256 (constant S_ .f32 0x00000000#32)) (dstTab dst)
      (Host.gather gather_S8192x256_S131072x1_S131072x256_1_0_n_n_0_1_1256 (mulf h (col256 dout)) (srcTab src)))
    (col256 din)

/-- The normalised neighbourhood sum of 1024-wide rows. -/
def agg1024 (dout din : Vn) (src dst : Edges) (h : M1024) : M1024 :=
  mulf (Host.scatterAdd scatter_S8192x1024_S131072x1_S131072x1024_1_0_0_1
      (broadcastInDim S8192x1024 ![] bcast_S_S8192x1024 (constant S_ .f32 0x00000000#32)) (dstTab dst)
      (Host.gather gather_S8192x1024_S131072x1_S131072x1024_1_0_n_n_0_1_11024 (mulf h (col1024 dout)) (srcTab src)))
    (col1024 din)

/-- A bias vector laid along the rows. -/
def bias256 (b : B256) : M256 :=
  broadcastInDim S8192x256 ![0, 1] bcast_S1x256_S8192x256_0_1 (broadcastInDim S1x256 ![1] bcast_S256_S1x256_1 b)
def bias1024 (b : FVec Ideal S1024 .f32) : M1024 :=
  broadcastInDim S8192x1024 ![0, 1] bcast_S1x1024_S8192x1024_0_1 (broadcastInDim S1x1024 ![1] bcast_S1024_S1x1024_1 b)

/-- Affine layers and the bare projection from 1024 to 256 columns. -/
def lin256 (a : M256) (W : W256) (b : B256) : M256 :=
  addf (Host.dotGeneral dot_S8192x256_S256x256_S8192x256_1_0_0_1_n_n none a W) (bias256 b)
def lin1024 (a : M256) (W : FVec Ideal S256x1024 .f32)
    (b : FVec Ideal S1024 .f32) : M1024 :=
  addf (Host.dotGeneral dot_S8192x256_S256x1024_S8192x1024_1_0_0_1_n_n none a W) (bias1024 b)
def proj (a : M1024) (W : FVec Ideal S1024x256 .f32) : M256 :=
  Host.dotGeneral dot_S8192x1024_S1024x256_S8192x256_1_0_0_1_n_n none a W

/-- The mean of each row, as a column. -/
def mean256 (a : M256) : FVec Ideal S8192x1 .f32 :=
  Host.divf (broadcastInDim S8192x1 ![0] bcast_S8192_S8192x1_0
      (Host.reduceAdd a (constant S_ .f32 0x00000000#32) reducesTo_S8192x256_S8192_d1 h_S_))
    (broadcastInDim S8192x1 ![] bcast_S_S8192x1 (constant S_ .f32 0x43800000#32))
/-- A column laid along the 256 columns. -/
def spread (v : FVec Ideal S8192x1 .f32) : M256 :=
  broadcastInDim S8192x256 ![0, 1] bcast_S8192x1_S8192x256_0_1 v

/-- Layer normalisation of the rows. -/
def layernorm (a : M256) (g b : B256) : M256 :=
  addf (mulf (mulf (subf a (spread (mean256 a)))
      (spread (Host.rsqrt (addf (mean256 (mulf (subf a (spread (mean256 a))) (subf a (spread (mean256 a)))))
        (broadcastInDim S8192x1 ![] bcast_S_S8192x1 (constant S_ .f32 0x3727C5AC#32))))))
    (bias256 g)) (bias256 b)

/-- The rectifier. -/
def relu (a : M1024) : M1024 :=
  maximumf a (broadcastInDim S8192x1024 ![] bcast_S_S8192x1024 (constant S_ .f32 0x00000000#32))

section Whole

variable (x : M256) (Wq : W256) (bq : B256) (Wk : W256) (bk : B256) (Wv : W256) (bv : B256) (Wo : W256) (bo : B256)
  (W1 : FVec Ideal S256x1024 .f32) (b1 : FVec Ideal S1024 .f32)
  (W2 : FVec Ideal S1024x256 .f32) (b2 : B256) (g b : B256) (src dst : Edges)

/-- The aggregated input. -/
def aggX : M256 := agg256 (deg src) (deg dst) src dst x
/-- Queries, keys, values. -/
def Qm : M256 := lin256 (aggX x src dst) Wq bq
def Km : M256 := lin256 (aggX x src dst) Wk bk
def Vm : M256 := lin256 (aggX x src dst) Wv bv
/-- The attention weights (the second result). -/
def attnOut : FVec Ideal S8192x8192 .f32 :=
  Cert.ReferenceIdeal.Attn.attn (Qm x Wq bq src dst) (Km x Wk bk src dst)
/-- The attended values. -/
def attnVals : M256 :=
  Cert.ReferenceIdeal.Attn.attnV (Qm x Wq bq src dst) (Km x Wk bk src dst) (Vm x Wv bv src dst)
/-- The residual stream after the attention block, as a function of the two degree
    normalisations and of the attended values. -/
def resid (dout din : Vn) (av : M256) : M256 :=
  addf (layernorm (lin256 (agg256 dout din src dst av) Wo bo) g b) x
/-- The hidden activations of the feed-forward block. -/
def hidden (dout din : Vn) (av : M256) : M1024 :=
  relu (lin1024 (agg256 dout din src dst (resid x Wo bo g b src dst dout din av)) W1 b1)
/-- The reference's first result: aggregate the hidden rows, then project. -/
def outRef (dout din : Vn) (av : M256) : M256 :=
  layernorm (addf (proj (agg1024 dout din src dst (hidden x Wo bo W1 b1 g b src dst dout din av)) W2) (bias256 b2)) g b
/-- The kernel's first result: project the hidden rows, then aggregate. -/
def outKer (dout din : Vn) (av : M256) : M256 :=
  layernorm (addf (agg256 dout din src dst (proj (hidden x Wo bo W1 b1 g b src dst dout din av) W2)) (bias256 b2)) g b

end Whole

end Cert.ReferenceIdeal.Layers

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibConcatCols.lean ====
/-
  GENERAL lemmas on matrices joined along their columns, read at an index, and on a sum over such a joined axis. Nothing
  here mentions a program; the extents are arbitrary.

  * concat2_cols_apply: an [R, a] matrix followed along the columns by an [R, b] matrix, read at (p, k): the first at
    (p, k) when k < a, the second at (p, k - a) otherwise.
  * concat3_cols_apply: the same for three matrices [R, a], [R, b], [R, c].
  * concat3_cols_fst / _snd / _thd: the same three matrices read at a column inside the first, the second and the third piece,
    the column given with its offset into the piece (no case split).
  * sum_257: a sum over 257 indices as the first 128, the next 128 and the last.
  * sum_split3: a sum over a + b + 1 indices is the sum over the first a, plus the sum over the next b, plus the last term, in
    any additive commutative monoid (so no finiteness is needed on extended reals).
-/
import Idealize.ShloMosaic.Lib.Pipeline.Value
import Idealize.ShloMosaic.Lib.ValueIdx
import Mathlib.Algebra.BigOperators.Fin

noncomputable section

namespace Cert.LibConcatCols

open Idealize.ShloMosaic Idealize.ShloMosaic.ValueIdx
open scoped BigOperators

variable {α : Type}

/-- Two matrices joined along the columns, read at (p, k). -/
theorem concat2_cols_apply {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (hn : n = a + b) (p : Fin R) (k : Fin n) :
    concatenate ⟨2, ![R, n]⟩ 1 [⟨⟨2, ![R, a]⟩, x⟩, ⟨⟨2, ![R, b]⟩, y⟩] h (ix2 p k)
      = if hk : k.val < a then x (ix2 p ⟨k.val, hk⟩) else y (ix2 p ⟨k.val - a, by have := k.isLt; omega⟩) := by
  split
  · next hk =>
    exact concatenate_pair_apply_left 1 x y h (ix2 p k) rfl (ix2 p ⟨k.val, hk⟩) (fun b => by
      match b with
      | ⟨0, _⟩ => rfl
      | ⟨1, _⟩ => rfl)
  · next hk =>
    exact concatenate_pair_apply_right 1 x y h (ix2 p k) rfl rfl (ix2 p ⟨k.val - a, by have := k.isLt; omega⟩) (fun b hb => by
      match b with
      | ⟨0, _⟩ => rfl
      | ⟨1, _⟩ => exact absurd rfl hb) (by show k.val - a + a = k.val; omega)

/-- Three matrices joined along the columns, read at (p, k). -/
theorem concat3_cols_apply {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (hn : n = a + b + c) (p : Fin R) (k : Fin n) :
    concatenate ⟨2, ![R, n]⟩ 1 [⟨⟨2, ![R, a]⟩, x⟩, ⟨⟨2, ![R, b]⟩, y⟩, ⟨⟨2, ![R, c]⟩, z⟩] h (ix2 p k)
      = if h1 : k.val < a then x (ix2 p ⟨k.val, h1⟩)
        else if h2 : k.val < a + b then y (ix2 p ⟨k.val - a, by omega⟩)
        else z (ix2 p ⟨k.val - a - b, by have := k.isLt; omega⟩) := by
  split
  · next h1 =>
    exact concatenate_apply_piece (t := ⟨2, ![R, n]⟩) 1 [⟨⟨2, ![R, a]⟩, x⟩, ⟨⟨2, ![R, b]⟩, y⟩, ⟨⟨2, ![R, c]⟩, z⟩] h (ix2 p k) 0 (by simp) ⟨2, ![R, a]⟩ x rfl rfl 0 rfl (ix2 p ⟨k.val, h1⟩) (fun q hq => by
      match q with
      | ⟨0, _⟩ => rfl
      | ⟨1, _⟩ => exact absurd rfl hq) (by show 0 + k.val = k.val; omega)
  · next h1 =>
    split
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 1 (by simp) ⟨2, ![R, b]⟩ y rfl rfl a rfl (ix2 p ⟨k.val - a, by omega⟩) (fun q hq => by
        match q with
        | ⟨0, _⟩ => rfl
        | ⟨1, _⟩ => exact absurd rfl hq) (by show a + (k.val - a) = k.val; omega)
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 2 (by simp) ⟨2, ![R, c]⟩ z rfl rfl (a + b) rfl
        (ix2 p ⟨k.val - a - b, by have := k.isLt; omega⟩) (fun q hq => by
        match q with
        | ⟨0, _⟩ => rfl
        | ⟨1, _⟩ => exact absurd rfl hq) (by show a + b + (k.val - a - b) = k.val; omega)

/-- Three matrices joined along the columns, read at a column k inside the first: k = i. -/
theorem concat3_cols_fst {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩, ⟨⟨2, ![R, c]⟩, z⟩] h (ix2 p k) = x (ix2 p i) :=
  concatenate_apply_piece (t := ⟨2, ![R, n]⟩) 1 [⟨⟨2, ![R, a]⟩, x⟩, ⟨⟨2, ![R, b]⟩, y⟩, ⟨⟨2, ![R, c]⟩, z⟩] h _ 0 (by simp) ⟨2, ![R, a]⟩ x rfl rfl 0 rfl
    (ix2 p i) (fun q hq => by
      match q with
      | ⟨0, _⟩ => rfl
      | ⟨1, _⟩ => exact absurd rfl hq) (by show 0 + i.val = k.val; omega)

/-- Three matrices joined along the columns, read at a column k inside the second: k = a + i. -/
theorem concat3_cols_snd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩, ⟨⟨2, ![R, c]⟩, z⟩] h (ix2 p k) = y (ix2 p i) :=
  concatenate_apply_piece (t := ⟨2, ![R, n]⟩) 1 [⟨⟨2, ![R, a]⟩, x⟩, ⟨⟨2, ![R, b]⟩, y⟩, ⟨⟨2, ![R, c]⟩, z⟩] h _ 1 (by simp) ⟨2, ![R, b]⟩ y rfl rfl a rfl
    (ix2 p i) (fun q hq => by
      match q with
      | ⟨0, _⟩ => rfl
      | ⟨1, _⟩ => exact absurd rfl hq) (by show a + i.val = k.val; omega)

/-- Three matrices joined along the columns, read at a column k inside the third: k = a + b + i. -/
theorem concat3_cols_thd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin c)
    (hk : k.val = a + b + i.val) :
    concatenate ⟨2, ![R, n]⟩ 1 [⟨⟨2, ![R, a]⟩, x⟩, ⟨⟨2, ![R, b]⟩, y⟩, ⟨⟨2, ![R, c]⟩, z⟩] h (ix2 p k) = z (ix2 p i) :=
  concatenate_apply_piece (t := ⟨2, ![R, n]⟩) 1 [⟨⟨2, ![R, a]⟩, x⟩, ⟨⟨2, ![R, b]⟩, y⟩, ⟨⟨2, ![R, c]⟩, z⟩] h _ 2 (by simp) ⟨2, ![R, c]⟩ z rfl rfl (a + b) rfl
    (ix2 p i) (fun q hq => by
      match q with
      | ⟨0, _⟩ => rfl
      | ⟨1, _⟩ => exact absurd rfl hq) (by show a + b + i.val = k.val; omega)

/-- A sum over 257 = 128 + 128 + 1 indices: the first 128, the next 128, the last one. -/
theorem sum_257 {M : Type*} [AddCommMonoid M] (f : Fin 257 → M) :
    ∑ k, f k = (∑ k : Fin 128, f ⟨k.val, by omega⟩) + (∑ k : Fin 128, f ⟨128 + k.val, by omega⟩) + f ⟨256, by omega⟩ := by
  show ∑ k : Fin (128 + 128 + 1), f k = _
  rw [Fin.sum_univ_castSucc, Fin.sum_univ_add]
  rfl

/-- A sum over a + b + 1 indices: the first a, the next b, the last one. -/
theorem sum_split3 {M : Type*} [AddCommMonoid M] (a b : ℕ) (f : Fin (a + b + 1) → M) :
    ∑ k, f k = (∑ k : Fin a, f ⟨k.val, by omega⟩) + (∑ k : Fin b, f ⟨a + k.val, by omega⟩) + f ⟨a + b, by omega⟩ := by
  rw [Fin.sum_univ_castSucc, Fin.sum_univ_add]
  rfl

end Cert.LibConcatCols

end
-- ==== Proof.LibConcatVec.lean ====
/-
  GENERAL lemmas on three vectors joined end to end, read at an index. Nothing here mentions a program; the lengths are
  arbitrary.

  * concat3_vec_fst / _snd / _thd: vectors of lengths a, b, c joined into one of length n, read at a position inside the
    first, the second and the third piece, the position given with its offset into the piece (no case split): position
    i of the first is position i of the whole, position i of the second is a + i, of the third a + b + i.
  Entries of any type: no arithmetic is involved.
-/
import Idealize.ShloMosaic.Lib.Pipeline.Value
import Idealize.ShloMosaic.Lib.ValueIdx

noncomputable section

namespace Cert.LibConcatVec

open Idealize.ShloMosaic Idealize.ShloMosaic.ValueIdx

variable {α : Type}

/-- Three vectors joined end to end, read at a position k inside the first: k = i. -/
theorem concat3_vec_fst {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin a) (hk : k.val = i.val) :
    concatenate ⟨1, ![n]⟩ 0 [⟨⟨1, ![a]⟩, x⟩, ⟨⟨1, ![b]⟩, y⟩, ⟨⟨1, ![c]⟩, z⟩] h (ix1 k) = x (ix1 i) :=
  concatenate_apply_piece (t := ⟨1, ![n]⟩) 0 [⟨⟨1, ![a]⟩, x⟩, ⟨⟨1, ![b]⟩, y⟩, ⟨⟨1, ![c]⟩, z⟩] h _ 0 (by simp) ⟨1, ![a]⟩ x rfl rfl 0 rfl
    (ix1 i) (fun q hq => by
      match q with
      | ⟨0, _⟩ => exact absurd rfl hq) (by show 0 + i.val = k.val; omega)

/-- Three vectors joined end to end, read at a position k inside the second: k = a + i. -/
theorem concat3_vec_snd {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin b) (hk : k.val = a + i.val) :
    concatenate ⟨1, ![n]⟩ 0 [⟨⟨1, ![a]⟩, x⟩, ⟨⟨1, ![b]⟩, y⟩, ⟨⟨1, ![c]⟩, z⟩] h (ix1 k) = y (ix1 i) :=
  concatenate_apply_piece (t := ⟨1, ![n]⟩) 0 [⟨⟨1, ![a]⟩, x⟩, ⟨⟨1, ![b]⟩, y⟩, ⟨⟨1, ![c]⟩, z⟩] h _ 1 (by simp) ⟨1, ![b]⟩ y rfl rfl a rfl
    (ix1 i) (fun q hq => by
      match q with
      | ⟨0, _⟩ => exact absurd rfl hq) (by show a + i.val = k.val; omega)

/-- Three vectors joined end to end, read at a position k inside the third: k = a + b + i. -/
theorem concat3_vec_thd {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin c) (hk : k.val = a + b + i.val) :
    concatenate ⟨1, ![n]⟩ 0 [⟨⟨1, ![a]⟩, x⟩, ⟨⟨1, ![b]⟩, y⟩, ⟨⟨1, ![c]⟩, z⟩] h (ix1 k) = z (ix1 i) :=
  concatenate_apply_piece (t := ⟨1, ![n]⟩) 0 [⟨⟨1, ![a]⟩, x⟩, ⟨⟨1, ![b]⟩, y⟩, ⟨⟨1, ![c]⟩, z⟩] h _ 2 (by simp) ⟨1, ![c]⟩ z rfl rfl (a + b) rfl
    (ix1 i) (fun q hq => by
      match q with
      | ⟨0, _⟩ => exact absurd rfl hq) (by show a + b + i.val = k.val; omega)

end Cert.LibConcatVec

end
-- ==== Proof.LibColumnPieces.lean ====
/-
  GENERAL LEMMAS on matrices assembled from column blocks. Nothing here mentions a program.

  * concat_cols_slice: a matrix [R, Nout] is the concatenation, along the columns, of a list of pieces; piece n is
    a slice (any offsets) of width w of a matrix y [R', Nin], and the pieces before it have total width pre. Then the
    concatenation at (r, pre + c), c < w, is y at (off 0 + r, off 1 + c).
  * slice2_apply: a slice of a matrix read at an index is the matrix at the index shifted by the offsets.
-/
import Idealize.ShloMosaic.Lib.Pipeline.Value
import Idealize.ShloMosaic.Lib.ValueIdx

noncomputable section

namespace Cert.LibColumnPieces

open Idealize.ShloMosaic Idealize.ShloMosaic.ValueIdx

/-- The concatenation along the columns, read inside piece n, when that piece is a slice of y. -/
theorem concat_cols_slice {α : Type} {R R' Nin Nout w : ℕ}
    (xs : List ((s : Shape) × (s.Idx → α)))
    (h : Shape.Concatenates (xs.map (·.1)) ⟨2, ![R, Nout]⟩ 1)
    (y : (⟨2, ![R', Nin]⟩ : Shape).Idx → α) (n : ℕ) (hn : n < xs.length) (off : Fin 2 → ℕ)
    (hs : (⟨2, ![R', Nin]⟩ : Shape).Slices off ⟨2, ![R, w]⟩)
    (hx : xs[n] = ⟨⟨2, ![R, w]⟩, extractStridedSlice ⟨2, ![R, w]⟩ off y hs⟩)
    (pre : ℕ)
    (hpre : (((xs.take n).map (·.1)).map fun s =>
      if h : s.rank = (⟨2, ![R, Nout]⟩ : Shape).rank then s.size ((1 : Fin (⟨2, ![R, Nout]⟩ : Shape).rank).cast h.symm) else 0).sum = pre)
    (r : Fin R) (k : Fin Nout) (c : ℕ) (hc : c < w) (hk : k.val = pre + c)
    (i : (⟨2, ![R', Nin]⟩ : Shape).Idx) (hi0 : (i 0).val = off 0 + r.val) (hi1 : (i 1).val = off 1 + c) :
    concatenate ⟨2, ![R, Nout]⟩ 1 xs h (ix2 r k) = y i := by
  refine (concatenate_apply_piece (1 : Fin (⟨2, ![R, Nout]⟩ : Shape).rank) xs h (ix2 r k) n hn ⟨2, ![R, w]⟩ _ hx rfl pre hpre
    (ix2 r ⟨c, hc⟩) ?_ ?_).trans ?_
  · intro b hb
    match b with
    | ⟨0, _⟩ => rfl
    | ⟨1, _⟩ => exact absurd rfl hb
  · show pre + c = k.val
    omega
  · refine extractStridedSlice_apply off y hs (ix2 r ⟨c, hc⟩) i ?_
    intro a
    match a with
    | ⟨0, _⟩ => exact hi0
    | ⟨1, _⟩ => exact hi1

/-- A slice of a matrix, read at j: the matrix at any index k whose coordinates are j's shifted by the offsets. -/
theorem slice2_apply {α : Type} {R N R' N' : ℕ} (off : Fin 2 → ℕ) (x : (⟨2, ![R, N]⟩ : Shape).Idx → α)
    (h : (⟨2, ![R, N]⟩ : Shape).Slices off ⟨2, ![R', N']⟩) (j : (⟨2, ![R', N']⟩ : Shape).Idx)
    (k : (⟨2, ![R, N]⟩ : Shape).Idx) (h0 : (k 0).val = off 0 + (j 0).val) (h1 : (k 1).val = off 1 + (j 1).val) :
    extractStridedSlice ⟨2, ![R', N']⟩ off x h j = x k := by
  refine extractStridedSlice_apply off x h j k ?_
  intro a
  match a with
  | ⟨0, _⟩ => exact h0
  | ⟨1, _⟩ => exact h1

end Cert.LibColumnPieces

end
-- ==== Proof.FusedQKV.lean ====
/-
  One product for three projections.

  The aggregated input `A` is multiplied once by the three 256-column weight matrices joined
  along the columns, the three biases joined end to end are added along the rows, and the
  result is cut into three blocks of 256 columns. Entry (p, q) of block number `i` is entry
  (p, 256·i + q) of the joint product: the sum over `k` of `A (p, k)` times entry (k, q) of
  the `i`-th weight matrix, plus entry `q` of the `i`-th bias — the `i`-th affine layer by
  itself. No arithmetic law is used.
-/
import proofs.«122702_j23356032156211_2_alg».proof.KernelIdeal
import proofs.«122702_j23356032156211_2_alg».proof.Proof.Gen.KernelIdeal
import proofs.«122702_j23356032156211_2_alg».proof.Proof.Layers
import proofs.«122702_j23356032156211_2_alg».proof.Proof.LibMatmulRows
import proofs.«122702_j23356032156211_2_alg».proof.Proof.LibBiasRows
import proofs.«122702_j23356032156211_2_alg».proof.Proof.LibConcatCols
import proofs.«122702_j23356032156211_2_alg».proof.Proof.LibConcatVec
import proofs.«122702_j23356032156211_2_alg».proof.Proof.LibColumnPieces

noncomputable section

namespace Cert.KernelIdeal.Fused

open Cert.KernelIdeal Cert.KernelIdeal.Gen Idealize.ShloMosaic Idealize.ShloMosaic.ValueIdx
open scoped BigOperators

abbrev M256 := FVec Ideal S8192x256 .f32
abbrev W256 := FVec Ideal S256x256 .f32
abbrev B256 := FVec Ideal S256 .f32

/-- The joint product plus the joint bias. -/
def joint (A : M256) (Wq Wk Wv : W256) (bq bk bv : B256) : FVec Ideal S8192x768 .f32 :=
  addf (Host.dotGeneral dot_S8192x256_S256x768_S8192x768_1_0_0_1_n_n none A
      (concatenate S256x768 1 [⟨S256x256, Wq⟩, ⟨S256x256, Wk⟩, ⟨S256x256, Wv⟩] concatenates_S256x256_S256x256_S256x256_S256x768_d1))
    (broadcastInDim S8192x768 ![0, 1] bcast_S1x768_S8192x768_0_1 (broadcastInDim S1x768 ![1] bcast_S768_S1x768_1
      (concatenate S768 0 [⟨S256, bq⟩, ⟨S256, bk⟩, ⟨S256, bv⟩] concatenates_S256_S256_S256_S768_d0)))

theorem joint_apply (A : M256) (Wq Wk Wv : W256) (bq bk bv : B256) (p : Fin 8192) (k : Fin 768) :
    joint A Wq Wk Wv bq bk bv (ix2 p k)
      = (∑ j : Fin 256, A (ix2 p j) * concatenate S256x768 1 [⟨S256x256, Wq⟩, ⟨S256x256, Wk⟩, ⟨S256x256, Wv⟩]
            concatenates_S256x256_S256x256_S256x256_S256x768_d1 (ix2 j k))
        + concatenate S768 0 [⟨S256, bq⟩, ⟨S256, bk⟩, ⟨S256, bv⟩] concatenates_S256_S256_S256_S768_d0 (ix1 k) := by
  unfold joint
  show Host.dotGeneral dot_S8192x256_S256x768_S8192x768_1_0_0_1_n_n none A _ (ix2 p k) + _ = _
  rw [Cert.LibBiasRows.bias_host (by decide : (768 : ℕ) ≠ 1),
    Cert.LibMatmulRows.hostdot_rows dot_S8192x256_S256x768_S8192x768_1_0_0_1_n_n rfl rfl
      (fun i s => by
        unfold DotDims.lhsIdx
        rw [dif_neg (show ¬(0 : Fin S8192x256.rank) ∈ dot_S8192x256_S256x768_S8192x768_1_0_0_1_n_n.lhsBatch by decide),
          dif_pos (show (0 : Fin S8192x256.rank) ∈ dot_S8192x256_S256x768_S8192x768_1_0_0_1_n_n.lhsNonContracting by decide)]
        rfl)
      (fun i s => dot_S8192x256_S256x768_S8192x768_1_0_0_1_n_n.lhsIdx_val_of_single rfl i s)
      (fun i s => dot_S8192x256_S256x768_S8192x768_1_0_0_1_n_n.rhsIdx_val_of_single rfl i s)
      (fun i s => by
        unfold DotDims.rhsIdx
        rw [dif_neg (show ¬(1 : Fin S256x768.rank) ∈ dot_S8192x256_S256x768_S8192x768_1_0_0_1_n_n.rhsBatch by decide),
          dif_pos (show (1 : Fin S256x768.rank) ∈ dot_S8192x256_S256x768_S8192x768_1_0_0_1_n_n.rhsNonContracting by decide)]
        rfl)]

/-- An affine layer of 256 columns at (p, q). -/
theorem lin256_apply (A : M256) (W : W256) (b : B256) (p : Fin 8192) (q : Fin 256) :
    Cert.ReferenceIdeal.Layers.lin256 A W b (ix2 p q) = (∑ j : Fin 256, A (ix2 p j) * W (ix2 j q)) + b (ix1 q) := by
  unfold Cert.ReferenceIdeal.Layers.lin256 Cert.ReferenceIdeal.Layers.bias256
  show Host.dotGeneral Cert.ReferenceIdeal.dot_S8192x256_S256x256_S8192x256_1_0_0_1_n_n none A W (ix2 p q) + _ = _
  rw [Cert.LibBiasRows.bias_host (by decide : (256 : ℕ) ≠ 1),
    Cert.LibMatmulRows.hostdot_rows Cert.ReferenceIdeal.dot_S8192x256_S256x256_S8192x256_1_0_0_1_n_n rfl rfl
      (fun i s => by
        unfold DotDims.lhsIdx
        rw [dif_neg (show ¬(0 : Fin Cert.ReferenceIdeal.S8192x256.rank) ∈ Cert.ReferenceIdeal.dot_S8192x256_S256x256_S8192x256_1_0_0_1_n_n.lhsBatch by decide),
          dif_pos (show (0 : Fin Cert.ReferenceIdeal.S8192x256.rank) ∈ Cert.ReferenceIdeal.dot_S8192x256_S256x256_S8192x256_1_0_0_1_n_n.lhsNonContracting by decide)]
        rfl)
      (fun i s => Cert.ReferenceIdeal.dot_S8192x256_S256x256_S8192x256_1_0_0_1_n_n.lhsIdx_val_of_single rfl i s)
      (fun i s => Cert.ReferenceIdeal.dot_S8192x256_S256x256_S8192x256_1_0_0_1_n_n.rhsIdx_val_of_single rfl i s)
      (fun i s => by
        unfold DotDims.rhsIdx
        rw [dif_neg (show ¬(1 : Fin Cert.ReferenceIdeal.S256x256.rank) ∈ Cert.ReferenceIdeal.dot_S8192x256_S256x256_S8192x256_1_0_0_1_n_n.rhsBatch by decide),
          dif_pos (show (1 : Fin Cert.ReferenceIdeal.S256x256.rank) ∈ Cert.ReferenceIdeal.dot_S8192x256_S256x256_S8192x256_1_0_0_1_n_n.rhsNonContracting by decide)]
        rfl)]

/-- THE FIRST BLOCK is the first affine layer. -/
theorem slice_q (A : M256) (Wq Wk Wv : W256) (bq bk bv : B256) :
    extractStridedSlice S8192x256 ![0, 0] (joint A Wq Wk Wv bq bk bv) slices_S8192x768_S8192x256_0_0
      = Cert.ReferenceIdeal.Layers.lin256 A Wq bq := by
  funext i
  obtain ⟨p, q, rfl⟩ : ∃ (p : Fin 8192) (q : Fin 256), i = ix2 p q := ⟨i 0, i 1, eq_ix2 i⟩
  rw [Cert.LibColumnPieces.slice2_apply ![0, 0] (joint A Wq Wk Wv bq bk bv) slices_S8192x768_S8192x256_0_0 (ix2 p q)
      (ix2 p (⟨q.val, by omega⟩ : Fin 768)) (by show p.val = 0 + p.val; omega) (by show q.val = 0 + q.val; omega),
    joint_apply, lin256_apply]
  congr 1
  · refine Finset.sum_congr rfl fun j _ => ?_
    congr 1
    exact Cert.LibConcatCols.concat3_cols_fst Wq Wk Wv _ j _ q rfl
  · exact Cert.LibConcatVec.concat3_vec_fst bq bk bv _ _ q rfl

/-- THE SECOND BLOCK is the second affine layer. -/
theorem slice_k (A : M256) (Wq Wk Wv : W256) (bq bk bv : B256) :
    extractStridedSlice S8192x256 ![0, 256] (joint A Wq Wk Wv bq bk bv) slices_S8192x768_S8192x256_0_256
      = Cert.ReferenceIdeal.Layers.lin256 A Wk bk := by
  funext i
  obtain ⟨p, q, rfl⟩ : ∃ (p : Fin 8192) (q : Fin 256), i = ix2 p q := ⟨i 0, i 1, eq_ix2 i⟩
  rw [Cert.LibColumnPieces.slice2_apply ![0, 256] (joint A Wq Wk Wv bq bk bv) slices_S8192x768_S8192x256_0_256 (ix2 p q)
      (ix2 p (⟨256 + q.val, by omega⟩ : Fin 768)) (by show p.val = 0 + p.val; omega) (by show 256 + q.val = 256 + q.val; rfl),
    joint_apply, lin256_apply]
  congr 1
  · refine Finset.sum_congr rfl fun j _ => ?_
    congr 1
    exact Cert.LibConcatCols.concat3_cols_snd Wq Wk Wv _ j _ q rfl
  · exact Cert.LibConcatVec.concat3_vec_snd bq bk bv _ _ q rfl

/-- THE THIRD BLOCK is the third affine layer. -/
theorem slice_v (A : M256) (Wq Wk Wv : W256) (bq bk bv : B256) :
    extractStridedSlice S8192x256 ![0, 512] (joint A Wq Wk Wv bq bk bv) slices_S8192x768_S8192x256_0_512
      = Cert.ReferenceIdeal.Layers.lin256 A Wv bv := by
  funext i
  obtain ⟨p, q, rfl⟩ : ∃ (p : Fin 8192) (q : Fin 256), i = ix2 p q := ⟨i 0, i 1, eq_ix2 i⟩
  rw [Cert.LibColumnPieces.slice2_apply ![0, 512] (joint A Wq Wk Wv bq bk bv) slices_S8192x768_S8192x256_0_512 (ix2 p q)
      (ix2 p (⟨512 + q.val, by omega⟩ : Fin 768)) (by show p.val = 0 + p.val; omega) (by show 512 + q.val = 512 + q.val; rfl),
    joint_apply, lin256_apply]
  congr 1
  · refine Finset.sum_congr rfl fun j _ => ?_
    congr 1
    exact Cert.LibConcatCols.concat3_cols_thd Wq Wk Wv _ j _ q rfl
  · exact Cert.LibConcatVec.concat3_vec_thd bq bk bv _ _ q rfl

end Cert.KernelIdeal.Fused

end
-- ==== Proof.KernelOut.lean ====
/-
  What the idealized kernel program leaves in its two result buffers, written with the layer
  functions.

  Before the region the host lines compute the two degree normalisations, aggregate the
  input once and multiply it by the three joined weight matrices; the three column blocks are
  the queries, keys and values. The region turns them into the attention weights (the second
  result) and the attended values. After the region the host lines run the rest of the layer
  on the attended values, projecting the hidden rows BEFORE the last aggregation.
-/
import proofs.«122702_j23356032156211_2_alg».proof.Proof.KernelIdealFrame
import proofs.«122702_j23356032156211_2_alg».proof.Proof.KernelArrays
import proofs.«122702_j23356032156211_2_alg».proof.Proof.FusedQKV
import proofs.«122702_j23356032156211_2_alg».proof.Proof.Layers
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Layers (deg aggX Qm Km Vm attnVals attnOut outKer)

variable (m : (ℓ : Loc nD τ sig) → Buf (Elt Ideal) ℓ)

/-! ## The host lines before the region, at any contents -/

set_option maxHeartbeats 40000000 in
theorem head_v7 (W : Valuation τ sig (Elt Ideal)) :
    StableHlo.after (List.flatten [hostOps0 (F := Ideal)]) W (Proc.devRef .tc main_v7) = deg (W (Proc.devRef .tc main_arg15)) := by
  simp only [hostOps0, List.flatten_cons, List.flatten_nil, List.append_nil, List.cons_append, List.nil_append]
  after_results_simp
  rfl

set_option maxHeartbeats 40000000 in
theorem head_v14 (W : Valuation τ sig (Elt Ideal)) :
    StableHlo.after (List.flatten [hostOps0 (F := Ideal)]) W (Proc.devRef .tc main_v14) = deg (W (Proc.devRef .tc main_arg16)) := by
  simp only [hostOps0, List.flatten_cons, List.flatten_nil, List.append_nil, List.cons_append, List.nil_append]
  after_results_simp
  rfl

set_option maxHeartbeats 40000000 in
theorem head_v37 (W : Valuation τ sig (Elt Ideal)) :
    StableHlo.after (List.flatten [hostOps0 (F := Ideal)]) W (Proc.devRef .tc main_v37)
      = Qm (W (Proc.devRef .tc main_arg0)) (W (Proc.devRef .tc main_arg1)) (W (Proc.devRef .tc main_arg2))
          (W (Proc.devRef .tc main_arg15)) (W (Proc.devRef .tc main_arg16)) := by
  simp only [hostOps0, List.flatten_cons, List.flatten_nil, List.append_nil, List.cons_append, List.nil_append]
  after_results_simp
  exact Cert.KernelIdeal.Fused.slice_q _ (W (Proc.devRef .tc main_arg1)) (W (Proc.devRef .tc main_arg3)) (W (Proc.devRef .tc main_arg5))
    (W (Proc.devRef .tc main_arg2)) (W (Proc.devRef .tc main_arg4)) (W (Proc.devRef .tc main_arg6))

set_option maxHeartbeats 40000000 in
theorem head_v38 (W : Valuation τ sig (Elt Ideal)) :
    StableHlo.after (List.flatten [hostOps0 (F := Ideal)]) W (Proc.devRef .tc main_v38)
      = Km (W (Proc.devRef .tc main_arg0)) (W (Proc.devRef .tc main_arg3)) (W (Proc.devRef .tc main_arg4))
          (W (Proc.devRef .tc main_arg15)) (W (Proc.devRef .tc main_arg16)) := by
  simp only [hostOps0, List.flatten_cons, List.flatten_nil, List.append_nil, List.cons_append, List.nil_append]
  after_results_simp
  exact Cert.KernelIdeal.Fused.slice_k _ (W (Proc.devRef .tc main_arg1)) (W (Proc.devRef .tc main_arg3)) (W (Proc.devRef .tc main_arg5))
    (W (Proc.devRef .tc main_arg2)) (W (Proc.devRef .tc main_arg4)) (W (Proc.devRef .tc main_arg6))

set_option maxHeartbeats 40000000 in
theorem head_v39 (W : Valuation τ sig (Elt Ideal)) :
    StableHlo.after (List.flatten [hostOps0 (F := Ideal)]) W (Proc.devRef .tc main_v39)
      = Vm (W (Proc.devRef .tc main_arg0)) (W (Proc.devRef .tc main_arg5)) (W (Proc.devRef .tc main_arg6))
          (W (Proc.devRef .tc main_arg15)) (W (Proc.devRef .tc main_arg16)) := by
  simp only [hostOps0, List.flatten_cons, List.flatten_nil, List.append_nil, List.cons_append, List.nil_append]
  after_results_simp
  exact Cert.KernelIdeal.Fused.slice_v _ (W (Proc.devRef .tc main_arg1)) (W (Proc.devRef .tc main_arg3)) (W (Proc.devRef .tc main_arg5))
    (W (Proc.devRef .tc main_arg2)) (W (Proc.devRef .tc main_arg4)) (W (Proc.devRef .tc main_arg6))

/-! ## The host lines after the region, at any contents -/

set_option maxHeartbeats 200000000 in
theorem tail_v150 (W : Valuation τ sig (Elt Ideal)) :
    StableHlo.after (List.flatten (tailOps (F := Ideal))) W (Proc.devRef .tc main_v150)
      = outKer (W (Proc.devRef .tc main_arg0)) (W (Proc.devRef .tc main_arg7)) (W (Proc.devRef .tc main_arg8))
          (W (Proc.devRef .tc main_arg9)) (W (Proc.devRef .tc main_arg10)) (W (Proc.devRef .tc main_arg11))
          (W (Proc.devRef .tc main_arg12)) (W (Proc.devRef .tc main_arg13)) (W (Proc.devRef .tc main_arg14))
          (W (Proc.devRef .tc main_arg15)) (W (Proc.devRef .tc main_arg16))
          (W (Proc.devRef .tc main_v7)) (W (Proc.devRef .tc main_v14)) (W (Proc.devRef .tc main_v40_1)) := by
  simp only [tailOps, hostOps1, hostOps1_1, hostOps1_2, List.flatten_cons, List.flatten_nil, List.append_nil, List.cons_append, List.nil_append]
  after_results_simp
  rfl

end Cert.KernelIdeal.Hand

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.PreReal.lean ====
/-
  From the precondition to real entries. The precondition `finite_inputs` of the seventeen argument
  arrays says, of each of the fifteen float arrays, that every entry's absolute value is below
  +∞, and joins the fifteen tests by `and`. Read at the exact ("ideal") float operations, where a
  value is an extended real, |x| < +∞ excludes both infinities: every entry of every float
  argument is a real number.
-/
import proofs.«122702_j23356032156211_2_alg».proof.Defs
import proofs.«122702_j23356032156211_2_alg».proof.Proof.LibMoments
import Idealize.ShloMosaic.Lib.ReduceAll
import Idealize.ShloMosaic.Lib.ValueIdx

set_option maxRecDepth 16384

noncomputable section

namespace Cert.KernelIdeal.PreReal

open Idealize.ShloMosaic Idealize.ShloMosaic.TcCoe Idealize.SL.Sem
open Cert.LibMoments (IsR)

/-- A shape of rank 0 has one index. -/
instance : Subsingleton Cert.Pre_finite_inputs.S_.Idx := ⟨fun a b => funext fun d => d.elim0⟩

/-! ## One entry -/

/-- A one-bit word made from a Boolean is 1 exactly when the Boolean is true. -/
theorem ofBool_eq_one (b : Bool) : BitVec.ofBool b = 1#1 ↔ b = true := by cases b <;> decide

/-- The float word 0x7F800000 denotes +∞. -/
theorem ofBits_inf : Ideal.ofBits .f32 0x7F800000#32 = ⊤ := by simp [Ideal.ofBits, Ideal.ieee]

/-- An extended real whose absolute value max x (−x) is below +∞ is neither infinity: a real. -/
theorem isR_of_abs_lt_inf (x : EReal)
    (h : Ideal.cmp .olt (max x (-x)) (Ideal.ofBits .f32 0x7F800000#32) = 1#1) : IsR x := by
  rw [ofBits_inf] at h
  have h' : BitVec.ofBool (decide (max x (-x) < (⊤ : EReal))) = 1#1 := h
  have hlt : max x (-x) < ⊤ := of_decide_eq_true ((ofBool_eq_one _).mp h')
  obtain ⟨h1, h2⟩ := max_lt_iff.mp hlt
  clear h h' hlt
  induction x using EReal.rec
  · exact absurd h2 (by simp)
  · exact ⟨_, rfl⟩
  · exact absurd h1 (lt_irrefl _)

/-! ## One array -/

/-- `jnp.all(|x| < +∞) = 1`, as printed — the reduction by `and`, to a result of one index, of the
    entrywise test of |x| against an array that is +∞ everywhere — makes every entry of x a real. -/
theorem allR_of_all {s t u : Shape} {axes : List (Fin s.rank)} [Subsingleton t.Idx]
    (x inf : FVec Ideal s .f32) (hinf : ∀ i, inf i = Ideal.ofBits .f32 0x7F800000#32)
    (init : u.Idx → BitVec 1) (hred : s.ReducesTo axes t) (hu : 0 < u.numel) (j : t.Idx)
    (e : Host.reduce IntOp.andi (cmpf .olt (Host.absf x) inf) init hred hu j = 1#1) :
    ∀ i, IsR (x i) := fun i => by
  have hi : cmpf .olt (Host.absf x) inf i = 1#1 := Host.reduce_andi_all _ init hred hu j e i
  have hi' : Ideal.cmp .olt (max (x i) (-(x i))) (inf i) = 1#1 := hi
  rw [hinf i] at hi'
  exact isR_of_abs_lt_inf (x i) hi'

/-! ## The fifteen float arguments -/

variable [Cert.Pre_finite_inputs.Facts]

/-- Under the precondition, on every device, every entry of each of the fifteen float argument
    arrays is a real number: the printed predicate unfolds to a left-nested `and` of the fifteen
    tests, each of which is 1, and each test is `allR_of_all`'s. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR (m ((c.tc : Thread Cert.KernelIdeal.nD Cert.KernelIdeal.τ).loc Cert.KernelIdeal.main_arg0) i))
      ∧ (∀ i, IsR (m ((c.tc : Thread Cert.KernelIdeal.nD Cert.KernelIdeal.τ).loc Cert.KernelIdeal.main_arg1) i))
      ∧ (∀ i, IsR (m ((c.tc : Thread Cert.KernelIdeal.nD Cert.KernelIdeal.τ).loc Cert.KernelIdeal.main_arg2) i))
      ∧ (∀ i, IsR (m ((c.tc : Thread Cert.KernelIdeal.nD Cert.KernelIdeal.τ).loc Cert.KernelIdeal.main_arg3) i))
      ∧ (∀ i, IsR (m ((c.tc : Thread Cert.KernelIdeal.nD Cert.KernelIdeal.τ).loc Cert.KernelIdeal.main_arg4) i))
      ∧ (∀ i, IsR (m ((c.tc : Thread Cert.KernelIdeal.nD Cert.KernelIdeal.τ).loc Cert.KernelIdeal.main_arg5) i))
      ∧ (∀ i, IsR (m ((c.tc : Thread Cert.KernelIdeal.nD Cert.KernelIdeal.τ).loc Cert.KernelIdeal.main_arg6) i))
      ∧ (∀ i, IsR (m ((c.tc : Thread Cert.KernelIdeal.nD Cert.KernelIdeal.τ).loc Cert.KernelIdeal.main_arg7) i))
      ∧ (∀ i, IsR (m ((c.tc : Thread Cert.KernelIdeal.nD Cert.KernelIdeal.τ).loc Cert.KernelIdeal.main_arg8) i))
      ∧ (∀ i, IsR (m ((c.tc : Thread Cert.KernelIdeal.nD Cert.KernelIdeal.τ).loc Cert.KernelIdeal.main_arg9) i))
      ∧ (∀ i, IsR (m ((c.tc : Thread Cert.KernelIdeal.nD Cert.KernelIdeal.τ).loc Cert.KernelIdeal.main_arg10) i))
      ∧ (∀ i, IsR (m ((c.tc : Thread Cert.KernelIdeal.nD Cert.KernelIdeal.τ).loc Cert.KernelIdeal.main_arg11) i))
      ∧ (∀ i, IsR (m ((c.tc : Thread Cert.KernelIdeal.nD Cert.KernelIdeal.τ).loc Cert.KernelIdeal.main_arg12) i))
      ∧ (∀ i, IsR (m ((c.tc : Thread Cert.KernelIdeal.nD Cert.KernelIdeal.τ).loc Cert.KernelIdeal.main_arg13) i))
      ∧ (∀ i, IsR (m ((c.tc : Thread Cert.KernelIdeal.nD Cert.KernelIdeal.τ).loc Cert.KernelIdeal.main_arg14) i)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h14⟩ := IntOp.andi_eq_one.mp e
  obtain ⟨e, h13⟩ := IntOp.andi_eq_one.mp e
  obtain ⟨e, h12⟩ := IntOp.andi_eq_one.mp e
  obtain ⟨e, h11⟩ := IntOp.andi_eq_one.mp e
  obtain ⟨e, h10⟩ := IntOp.andi_eq_one.mp e
  obtain ⟨e, h9⟩ := IntOp.andi_eq_one.mp e
  obtain ⟨e, h8⟩ := IntOp.andi_eq_one.mp e
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨allR_of_all _ _ (fun _ => rfl) _ _ _ _ h0,
    allR_of_all _ _ (fun _ => rfl) _ _ _ _ h1,
    allR_of_all _ _ (fun _ => rfl) _ _ _ _ h2,
    allR_of_all _ _ (fun _ => rfl) _ _ _ _ h3,
    allR_of_all _ _ (fun _ => rfl) _ _ _ _ h4,
    allR_of_all _ _ (fun _ => rfl) _ _ _ _ h5,
    allR_of_all _ _ (fun _ => rfl) _ _ _ _ h6,
    allR_of_all _ _ (fun _ => rfl) _ _ _ _ h7,
    allR_of_all _ _ (fun _ => rfl) _ _ _ _ h8,
    allR_of_all _ _ (fun _ => rfl) _ _ _ _ h9,
    allR_of_all _ _ (fun _ => rfl) _ _ _ _ h10,
    allR_of_all _ _ (fun _ => rfl) _ _ _ _ h11,
    allR_of_all _ _ (fun _ => rfl) _ _ _ _ h12,
    allR_of_all _ _ (fun _ => rfl) _ _ _ _ h13,
    allR_of_all _ _ (fun _ => rfl) _ _ _ _ h14⟩

end Cert.KernelIdeal.PreReal

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«122702_j23356032156211_2_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.LibSoftmaxLaws.lean ====
/-
  GENERAL LEMMAS, no program mentioned: the arithmetic of a softmax-weighted average, on the reals and then on the extended reals with the exact operations.

  For scores g v and values c v the weighted average is  (∑ v, exp (g v) * c v) / (∑ v, exp (g v)).  Two ways of
  computing it are compared with this one form:

  * subtracting ANY real number μ from every score first changes neither numerator-over-denominator (the common factor
    exp (-μ) cancels), so the number subtracted — in practice a maximum of the scores — never has to be identified;
  * normalising each weight by the denominator first and summing afterwards is the quotient of the sums;
  * the scores may be visited block by block: when the subtracted number changes from μ' to μ, the sums gathered so far
    are multiplied by exp (μ' - μ), because exp (μ' - μ) * exp (g v - μ') = exp (g v - μ).

  The extended-real forms only say that these real computations, carried out with the exact operations on coerced
  reals, stay coerced reals; the one corner used is exp ⊥ = 0 for the very first block, whose predecessor is "-∞".
-/
import Idealize.ShloMosaic.PureOps.Ideal
import Mathlib.Analysis.SpecialFunctions.Exp
import proofs.«122702_j23356032156211_2_alg».proof.Proof.LibSmallWords

noncomputable section

namespace Cert.SoftmaxLaws

open Idealize.ShloMosaic
open scoped BigOperators

/-! ## Real laws -/

/-- Changing the subtracted number from μ' to μ multiplies every gathered term by exp (μ' - μ). -/
theorem rescale {ι : Type*} (S : Finset ι) (g c : ι → ℝ) (μ' μ : ℝ) :
    Real.exp (μ' - μ) * ∑ v ∈ S, Real.exp (g v - μ') * c v = ∑ v ∈ S, Real.exp (g v - μ) * c v := by
  rw [Finset.mul_sum]
  refine Finset.sum_congr rfl fun v _ => ?_
  rw [← mul_assoc, ← Real.exp_add]
  congr 2
  ring

/-- One more block of w scores after the first n: the rescaled sum so far plus the block's terms is the sum over the
    first n + w. -/
theorem block_step (g c : ℕ → ℝ) (μ' μ : ℝ) (n w : ℕ) :
    Real.exp (μ' - μ) * (∑ v ∈ Finset.range n, Real.exp (g v - μ') * c v) + ∑ j : Fin w, Real.exp (g (n + j.val) - μ) * c (n + j.val)
      = ∑ v ∈ Finset.range (n + w), Real.exp (g v - μ) * c v := by
  rw [rescale, Finset.sum_range_add]
  congr 1
  rw [Finset.sum_range]

/-- The first block: nothing gathered before it. -/
theorem block_first (g c : ℕ → ℝ) (μ : ℝ) (w : ℕ) :
    ∑ j : Fin w, Real.exp (g (0 + j.val) - μ) * c (0 + j.val) = ∑ v ∈ Finset.range (0 + w), Real.exp (g v - μ) * c v := by
  rw [Finset.sum_range_add, Finset.sum_range_zero, zero_add, Finset.sum_range]

/-- The same two laws for the denominators (every value 1). -/
theorem block_step_den (g : ℕ → ℝ) (μ' μ : ℝ) (n w : ℕ) :
    Real.exp (μ' - μ) * (∑ v ∈ Finset.range n, Real.exp (g v - μ')) + ∑ j : Fin w, Real.exp (g (n + j.val) - μ)
      = ∑ v ∈ Finset.range (n + w), Real.exp (g v - μ) := by
  have h := block_step g (fun _ => 1) μ' μ n w
  simpa only [mul_one] using h

theorem block_first_den (g : ℕ → ℝ) (μ : ℝ) (w : ℕ) :
    ∑ j : Fin w, Real.exp (g (0 + j.val) - μ) = ∑ v ∈ Finset.range (0 + w), Real.exp (g v - μ) := by
  have h := block_first g (fun _ => 1) μ w
  simpa only [mul_one] using h

/-- Subtracting a real number from every score does not change the weighted average. -/
theorem ratio_shift {ι : Type*} (S : Finset ι) (g c : ι → ℝ) (μ : ℝ) :
    (∑ v ∈ S, Real.exp (g v - μ) * c v) / (∑ v ∈ S, Real.exp (g v - μ))
      = (∑ v ∈ S, Real.exp (g v) * c v) / (∑ v ∈ S, Real.exp (g v)) := by
  have h1 : ∀ d : ι → ℝ, ∑ v ∈ S, Real.exp (g v - μ) * d v = Real.exp (-μ) * ∑ v ∈ S, Real.exp (g v) * d v := by
    intro d
    rw [Finset.mul_sum]
    refine Finset.sum_congr rfl fun v _ => ?_
    rw [sub_eq_add_neg, Real.exp_add]
    ring
  have h2 : ∑ v ∈ S, Real.exp (g v - μ) = Real.exp (-μ) * ∑ v ∈ S, Real.exp (g v) := by
    have := h1 (fun _ => 1)
    simpa using this
  rw [h1 c, h2, mul_div_mul_left _ _ (Real.exp_ne_zero _)]

/-- Normalising each weight first and summing afterwards is the quotient of the sums. -/
theorem normalized_sum {ι : Type*} (S : Finset ι) (e c : ι → ℝ) (L : ℝ) :
    ∑ v ∈ S, (e v / L) * c v = (∑ v ∈ S, e v * c v) / L := by
  rw [Finset.sum_div]
  exact Finset.sum_congr rfl fun v _ => by ring

/-- A sum of exponentials over a non-empty index set is positive. -/
theorem sum_exp_pos {ι : Type*} (S : Finset ι) (hS : S.Nonempty) (g : ι → ℝ) : 0 < ∑ v ∈ S, Real.exp (g v) :=
  Finset.sum_pos (fun v _ => Real.exp_pos _) hS

/-! ## A function on the first n naturals continued by zero -/

/-- A function on `Fin n` as a function on all naturals (zero from n on). -/
def ext {n : ℕ} (G : Fin n → ℝ) (v : ℕ) : ℝ := if h : v < n then G ⟨v, h⟩ else 0

theorem ext_lt {n : ℕ} (G : Fin n → ℝ) (v : ℕ) (h : v < n) : ext G v = G ⟨v, h⟩ := dif_pos h

theorem sum_range_ext {n : ℕ} (G : Fin n → ℝ) (f : ℝ → ℝ) :
    ∑ v ∈ Finset.range n, f (ext G v) = ∑ v : Fin n, f (G v) := by
  rw [Finset.sum_range]
  exact Finset.sum_congr rfl fun v _ => by rw [ext_lt G v.val v.isLt]

theorem sum_range_ext₂ {n : ℕ} (G C : Fin n → ℝ) (f : ℝ → ℝ → ℝ) :
    ∑ v ∈ Finset.range n, f (ext G v) (ext C v) = ∑ v : Fin n, f (G v) (C v) := by
  rw [Finset.sum_range]
  exact Finset.sum_congr rfl fun v _ => by rw [ext_lt G v.val v.isLt, ext_lt C v.val v.isLt]

/-! ## The same computations with the exact operations on coerced reals -/

/-- A finite sum of coerced reals is the coerced sum. -/
theorem coe_sum {ι : Type*} (s : Finset ι) (g : ι → ℝ) : (∑ k ∈ s, ((g k : ℝ) : EReal)) = ((∑ k ∈ s, g k : ℝ) : EReal) :=
  Cert.LibSmallWords.coe_sum s g

/-- The exact exponential of a difference of two reals. -/
theorem exp_sub_coe (x y : ℝ) : Ideal.exp ((x : EReal) - (y : EReal)) = ((Real.exp (x - y) : ℝ) : EReal) := by
  rw [← EReal.coe_sub, Ideal.exp_coe]

/-- "-∞" minus a real is "-∞", whose exponential is 0. -/
theorem exp_bot_sub_coe (y : ℝ) : Ideal.exp ((⊥ : EReal) - (y : EReal)) = 0 := by
  rw [EReal.bot_sub, Ideal.exp_bot]

/-- A maximum of finitely many coerced reals, started from "-∞", over a non-empty index set is a coerced real. -/
theorem fold_max_real {ι : Type*} [DecidableEq ι] (S : Finset ι) (g : ι → ℝ) :
    (S = ∅ ∧ S.fold max (⊥ : EReal) (fun k => ((g k : ℝ) : EReal)) = ⊥)
      ∨ ∃ μ : ℝ, S.fold max (⊥ : EReal) (fun k => ((g k : ℝ) : EReal)) = (μ : EReal) := by
  induction S using Finset.induction_on with
  | empty => exact Or.inl ⟨rfl, rfl⟩
  | insert a s ha ih =>
    right
    rw [Finset.fold_insert ha]
    rcases ih with ⟨_, h⟩ | ⟨μ, h⟩
    · exact ⟨g a, by rw [h, max_eq_left bot_le]⟩
    · exact ⟨max (g a) μ, by rw [h]; exact (EReal.coe_strictMono.monotone.map_max).symm⟩

theorem fold_max_univ_real {n : ℕ} (g : Fin (n + 1) → ℝ) :
    ∃ μ : ℝ, (Finset.univ : Finset (Fin (n + 1))).fold max (⊥ : EReal) (fun k => ((g k : ℝ) : EReal)) = (μ : EReal) := by
  rcases fold_max_real Finset.univ g with ⟨h, _⟩ | h
  · exact absurd h (Finset.univ_nonempty.ne_empty)
  · exact h

/-- The running denominator: rescaled old value plus the block's lane sum. -/
theorem denom_step {w : ℕ} (μ' μ lam : ℝ) (σ : Fin w → ℝ) :
    Ideal.exp ((μ' : EReal) - (μ : EReal)) * (lam : EReal) + ∑ j : Fin w, Ideal.exp ((σ j : EReal) - (μ : EReal))
      = ((Real.exp (μ' - μ) * lam + ∑ j : Fin w, Real.exp (σ j - μ) : ℝ) : EReal) := by
  simp only [exp_sub_coe, coe_sum, ← EReal.coe_mul, ← EReal.coe_add]

/-- The running numerator: rescaled old value plus the block's contraction with the values. -/
theorem numer_step {w : ℕ} (μ' μ al : ℝ) (σ π : Fin w → ℝ) :
    Ideal.exp ((μ' : EReal) - (μ : EReal)) * (al : EReal) + ∑ j : Fin w, Ideal.exp ((σ j : EReal) - (μ : EReal)) * (π j : EReal)
      = ((Real.exp (μ' - μ) * al + ∑ j : Fin w, Real.exp (σ j - μ) * π j : ℝ) : EReal) := by
  simp only [exp_sub_coe, coe_sum, ← EReal.coe_mul, ← EReal.coe_add]

/-- The first block's denominator: the old maximum is "-∞" and the old sum 0. -/
theorem denom_first {w : ℕ} (μ : ℝ) (σ : Fin w → ℝ) :
    Ideal.exp ((⊥ : EReal) - (μ : EReal)) * (0 : EReal) + ∑ j : Fin w, Ideal.exp ((σ j : EReal) - (μ : EReal))
      = ((∑ j : Fin w, Real.exp (σ j - μ) : ℝ) : EReal) := by
  simp only [exp_bot_sub_coe, exp_sub_coe, coe_sum, zero_add, mul_zero]

/-- The first block's numerator. -/
theorem numer_first {w : ℕ} (μ : ℝ) (σ π : Fin w → ℝ) :
    Ideal.exp ((⊥ : EReal) - (μ : EReal)) * (0 : EReal) + ∑ j : Fin w, Ideal.exp ((σ j : EReal) - (μ : EReal)) * (π j : EReal)
      = ((∑ j : Fin w, Real.exp (σ j - μ) * π j : ℝ) : EReal) := by
  simp only [exp_bot_sub_coe, exp_sub_coe, coe_sum, zero_add, mul_zero, ← EReal.coe_mul]

/-- The exact quotient of two coerced reals with a non-zero divisor. -/
theorem div_coe_coe (a b : ℝ) (hb : b ≠ 0) : Ideal.div (a : EReal) (b : EReal) = ((a / b : ℝ) : EReal) := by
  rw [Ideal.div_coe hb, ← EReal.coe_mul]
  congr 1
  ring

end Cert.SoftmaxLaws

end
-- ==== Proof.LibAllReal.lean ====
/-
  GENERAL lemmas, no program mentioned: "every entry a real number" for whole arrays of extended
  reals under the exact host operations, at any shapes.

  * AllR x says every entry of the array x is (the image of) a real number. It passes through the
    operations that only select entries (a broadcast, a transpose, a gather), the pointwise ring
    operations, a maximum, a power, a quotient by entries that are nonzero reals, and the
    operations that add finitely many entries or products of entries (a host sum, an accumulating
    scatter, a host product).
  * A reciprocal square root needs more: its argument must be a POSITIVE real. IsNN and IsPos say
    "a real that is ≥ 0" and "a real that is > 0"; a square is ≥ 0, finite sums and quotients by
    a positive real keep ≥ 0, and adding a positive real gives > 0.
  * A reduction by maximum from −∞, a host sum of positive reals: at a result index that at
    least one operand index reduces to, the first is a real when the operand's entries are, and
    the second is a positive real when the operand's entries are positive reals. An exponential
    of a difference of reals is a positive real.
  * One row of softmax weights: for real scores over a non-empty row, the maximum started from
    −∞ is a real, every exponential of a difference is a positive real, their sum is a positive
    real, and so every weight is a real.
-/
import proofs.«122702_j23356032156211_2_alg».proof.Proof.LibMoments
import proofs.«122702_j23356032156211_2_alg».proof.Proof.LibRealArrays
import proofs.«122702_j23356032156211_2_alg».proof.Proof.LibSoftmaxLaws
import proofs.«122702_j23356032156211_2_alg».proof.Proof.AttnRow
import Idealize.ShloMosaic.PureOps.Ideal
import Idealize.ShloMosaic.PureOps.Ideal.Laws
import Idealize.ShloMosaic.PureOps.Reduce

noncomputable section

namespace Cert.LibAllReal

open Idealize.ShloMosaic
open Cert.LibMoments (IsR)
open scoped BigOperators

/-! ## The predicates -/

/-- Every entry of the array is a real number. -/
def AllR {ι : Type} (x : ι → EReal) : Prop := ∀ i, IsR (x i)

/-- The extended real x is a real number that is ≥ 0. -/
def IsNN (x : EReal) : Prop := ∃ r : ℝ, 0 ≤ r ∧ x = (r : EReal)

/-- The extended real x is a real number that is > 0. -/
def IsPos (x : EReal) : Prop := ∃ r : ℝ, 0 < r ∧ x = (r : EReal)

/-- Every entry of the array is a real number ≥ 0. -/
def AllNN {ι : Type} (x : ι → EReal) : Prop := ∀ i, IsNN (x i)

theorem IsNN.isR {x : EReal} (h : IsNN x) : IsR x := by
  obtain ⟨r, -, rfl⟩ := h; exact ⟨r, rfl⟩

theorem IsPos.isR {x : EReal} (h : IsPos x) : IsR x := by
  obtain ⟨r, -, rfl⟩ := h; exact ⟨r, rfl⟩

theorem isNN_zero : IsNN 0 := ⟨0, le_rfl, EReal.coe_zero.symm⟩

/-- The square of a real is a real ≥ 0. -/
theorem isNN_mul_self {x : EReal} (hx : IsR x) : IsNN (x * x) := by
  obtain ⟨a, rfl⟩ := hx; exact ⟨a * a, mul_self_nonneg a, (EReal.coe_mul a a).symm⟩

theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

/-- A finite sum of reals ≥ 0 is a real ≥ 0. -/
theorem IsNN.finset_sum {ι : Type*} (s : Finset ι) (f : ι → EReal) (h : ∀ i ∈ s, IsNN (f i)) :
    IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- The quotient of a real ≥ 0 by a positive real is a real ≥ 0. -/
theorem IsNN.div_pos {x : EReal} (hx : IsNN x) (N : ℝ) (hN : 0 < N) (c : EReal) (hc : c = (N : EReal)) :
    IsNN (Ideal.div x c) := by
  obtain ⟨a, ha, rfl⟩ := hx
  subst hc
  exact ⟨a / N, div_nonneg ha hN.le, Cert.LibMoments.div_coe_coe a N hN.ne'⟩

/-- A real ≥ 0 plus a positive real is a positive real. -/
theorem IsNN.add_pos {x e : EReal} (hx : IsNN x) (he : IsPos e) : IsPos (x + e) := by
  obtain ⟨a, ha, rfl⟩ := hx; obtain ⟨b, hb, rfl⟩ := he
  exact ⟨a + b, add_pos_of_nonneg_of_pos ha hb, (EReal.coe_add a b).symm⟩

/-- The reciprocal square root of a positive real is a real. -/
theorem isR_rsqrt_of_pos {x : EReal} (hx : IsPos x) : IsR (Ideal.rsqrt x) := by
  obtain ⟨r, hr, rfl⟩ := hx
  rw [Cert.LibMoments.rsqrt_pos r hr]
  exact ⟨_, rfl⟩

/-! ## Float words -/

theorem isR_word_zero : IsR (Ideal.ofBits .f32 0x00000000#32) := by
  rw [Cert.LibMoments.ofBits_zero]; exact Cert.LibMoments.IsR_zero

theorem isNN_word_zero : IsNN (Ideal.ofBits .f32 0x00000000#32) := by
  rw [Cert.LibMoments.ofBits_zero]; exact isNN_zero

theorem isR_word_one : IsR (Ideal.ofBits .f32 0x3F800000#32) := by
  rw [Cert.LibMoments.ofBits_one]; exact Cert.LibMoments.IsR_one

/-- The word of `-0.5` denotes the real −(1/2). -/
theorem ofBits_neg_half : Ideal.ofBits .f32 0xBF000000#32 = ((-(1 / 2) : ℝ) : EReal) := by
  simp [Ideal.ofBits, Ideal.ieee, -EReal.coe_mul]; norm_num

theorem isR_word_neg_half : IsR (Ideal.ofBits .f32 0xBF000000#32) := ⟨_, ofBits_neg_half⟩

theorem isR_word_256 : IsR (Ideal.ofBits .f32 0x43800000#32) := ⟨_, Cert.AttnRow.ofBits_256⟩

theorem word_256_ne_zero : Ideal.ofBits .f32 0x43800000#32 ≠ 0 := by
  rw [Cert.AttnRow.ofBits_256]
  exact_mod_cast (by norm_num : (256 : ℝ) ≠ 0)

/-- The square root of the word of `256.0` is the real 16, which is not zero. -/
theorem isR_sqrt_256 : IsR (Ideal.sqrt (Ideal.ofBits .f32 0x43800000#32)) := ⟨_, Cert.AttnRow.sqrt_256⟩

theorem sqrt_256_ne_zero : Ideal.sqrt (Ideal.ofBits .f32 0x43800000#32) ≠ 0 := by
  rw [Cert.AttnRow.sqrt_256]
  exact_mod_cast (by norm_num : (16 : ℝ) ≠ 0)

/-- The word 0xFF800000 denotes −∞. -/
theorem ofBits_negInf : Ideal.ofBits .f32 0xFF800000#32 = ⊥ := by
  simp [Ideal.ofBits, Ideal.ieee]

/-- The small positive word added under the root. -/
theorem isPos_word_eps : IsPos (Ideal.ofBits .f32 0x3727C5AC#32) := by
  obtain ⟨e, he, h⟩ := Cert.LibMoments.ofBits_eps
  exact ⟨e, he, h⟩

/-! ## Operations that only select entries -/

variable {s t : Shape}

theorem allR_const (b : BitVec 32) (hb : IsR (Ideal.ofBits .f32 b)) : AllR (constant (F := Ideal) s .f32 b) :=
  fun _ => hb

theorem allR_bcast {dims : Fin s.rank → Fin t.rank} (h : s.BroadcastsInDim t dims) {x : s.Idx → EReal}
    (hx : AllR x) : AllR (broadcastInDim t dims h x) := fun j => hx _

theorem allNN_bcast {dims : Fin s.rank → Fin t.rank} (h : s.BroadcastsInDim t dims) {x : s.Idx → EReal}
    (hx : AllNN x) : AllNN (broadcastInDim t dims h x) := fun j => hx _

theorem allR_transpose {perm : List (Fin s.rank)} {x : s.Idx → EReal} (h : s.Transposes perm t) (hx : AllR x) :
    AllR (transpose t perm x h) := fun j => hx _

theorem allR_gather {si : Shape} {w : Nat} (d : GatherDims s si t) {x : s.Idx → EReal} (hx : AllR x) (idx : IVec si w) :
    AllR (Host.gather d x idx) := fun j => hx _

/-! ## Pointwise operations -/

theorem allR_addf {x y : FVec Ideal s .f32} (hx : AllR x) (hy : AllR y) : AllR (addf x y) :=
  fun i => (hx i).add (hy i)

theorem allR_subf {x y : FVec Ideal s .f32} (hx : AllR x) (hy : AllR y) : AllR (subf x y) :=
  fun i => (hx i).sub (hy i)

theorem allR_mulf {x y : FVec Ideal s .f32} (hx : AllR x) (hy : AllR y) : AllR (mulf x y) :=
  fun i => (hx i).mul (hy i)

theorem allNN_mulf_self {x : FVec Ideal s .f32} (hx : AllR x) : AllNN (mulf x x) :=
  fun i => isNN_mul_self (hx i)

theorem allR_maximumf {x y : FVec Ideal s .f32} (hx : AllR x) (hy : AllR y) : AllR (maximumf x y) :=
  fun i => (hx i).max (hy i)

/-- A power of two reals is a real (the real power function, whatever the base's sign). -/
theorem allR_powf {x y : FVec Ideal s .f32} (hx : AllR x) (hy : AllR y) : AllR (Host.powf x y) := fun i => by
  obtain ⟨a, ha⟩ := hx i
  obtain ⟨b, hb⟩ := hy i
  show IsR (Ideal.pow (x i) (y i))
  rw [ha, hb]
  exact ⟨Real.rpow a b, rfl⟩

/-- A quotient by entries that are nonzero reals. -/
theorem allR_divf {x y : FVec Ideal s .f32} (hx : AllR x) (hy : AllR y) (hy0 : ∀ i, y i ≠ 0) : AllR (Host.divf x y) :=
  fun i => (hx i).div_real (y i) (hy i) (hy0 i)

/-! ## Finite sums of entries and of products -/

theorem allR_scatterAdd {si su : Shape} {w : Nat} (d : ScatterDims s si su) {x : FVec Ideal s .f32} (hx : AllR x)
    (idx : IVec si w) {u : FVec Ideal su .f32} (hu : AllR u) : AllR (Host.scatterAdd (F := Ideal) d x idx u) :=
  fun i => Cert.LibMoments.isR_scatterAdd d x hx idx u hu i

theorem allR_reduceAdd {u : Shape} {axes : List (Fin s.rank)} {x : FVec Ideal s .f32} (hx : AllR x)
    (init : u.Idx → Ideal .f32) (hinit : ∀ k, IsR (init k)) (h : s.ReducesTo axes t) (hu : 0 < u.numel) :
    AllR (Host.reduceAdd (F := Ideal) x init h hu) :=
  fun j => Cert.LibMoments.isR_reduceAdd x hx init hinit h hu j

/-- A host sum of reals ≥ 0 from an initial value ≥ 0 is ≥ 0. -/
theorem allNN_reduceAdd {u : Shape} {axes : List (Fin s.rank)} {x : FVec Ideal s .f32} (hx : AllNN x)
    (init : u.Idx → Ideal .f32) (hinit : ∀ k, IsNN (init k)) (h : s.ReducesTo axes t) (hu : 0 < u.numel) :
    AllNN (Host.reduceAdd (F := Ideal) x init h hu) := fun j => by
  show IsNN (Ideal.hostReduceAdd h x (init (Shape.Idx.first hu)) j)
  unfold Ideal.hostReduceAdd
  exact (hinit _).add (IsNN.finset_sum _ _ fun i _ => hx i)

theorem allR_dotGeneral {sl sr so : Shape} (d : DotDims sl sr so) (prec : Option ContractPrecision)
    {lhs : FVec Ideal sl .f32} (hl : AllR lhs) {rhs : FVec Ideal sr .f32} (hr : AllR rhs) :
    AllR (Host.dotGeneral d prec lhs rhs) :=
  fun j => Cert.LibMoments.isR_dotGeneral d prec .single lhs hl rhs hr j

/-! ## Positive reals: exponentials, sums over a non-empty set, quotients -/

/-- Every entry of the array is a positive real. -/
def AllPos {ι : Type} (x : ι → EReal) : Prop := ∀ i, IsPos (x i)

theorem IsPos.isNN {x : EReal} (h : IsPos x) : IsNN x := by
  obtain ⟨r, hr, rfl⟩ := h; exact ⟨r, hr.le, rfl⟩

theorem IsPos.ne_zero {x : EReal} (h : IsPos x) : x ≠ 0 := by
  obtain ⟨r, hr, rfl⟩ := h
  exact_mod_cast hr.ne'

/-- A sum of positive reals over a non-empty finite set is a positive real. -/
theorem IsPos.finset_sum {ι : Type*} (s : Finset ι) (hs : s.Nonempty) (f : ι → EReal) (h : ∀ i ∈ s, IsPos (f i)) :
    IsPos (∑ i ∈ s, f i) := by
  classical
  obtain ⟨a, ha⟩ := hs
  have hrest : IsNN (∑ i ∈ s.erase a, f i) :=
    IsNN.finset_sum _ _ fun i hi => (h i (Finset.mem_of_mem_erase hi)).isNN
  rw [← Finset.add_sum_erase s f ha, add_comm]
  exact hrest.add_pos (h a ha)

/-- The exponential of a difference of two reals is a positive real. -/
theorem isPos_exp_sub {x y : EReal} (hx : IsR x) (hy : IsR y) : IsPos (Ideal.exp (x - y)) := by
  obtain ⟨a, rfl⟩ := hx; obtain ⟨b, rfl⟩ := hy
  exact ⟨Real.exp (a - b), Real.exp_pos _, Cert.SoftmaxLaws.exp_sub_coe a b⟩

theorem allPos_bcast {dims : Fin s.rank → Fin t.rank} (h : s.BroadcastsInDim t dims) {x : s.Idx → EReal}
    (hx : AllPos x) : AllPos (broadcastInDim t dims h x) := fun j => hx _

theorem allPos_exp_sub {x y : FVec Ideal s .f32} (hx : AllR x) (hy : AllR y) : AllPos (Host.exp (subf x y)) :=
  fun i => isPos_exp_sub (hx i) (hy i)

/-- A quotient of reals by positive reals. -/
theorem allR_divf_pos {x y : FVec Ideal s .f32} (hx : AllR x) (hy : AllPos y) : AllR (Host.divf x y) :=
  fun i => (hx i).div_real (y i) (hy i).isR (hy i).ne_zero

/-- A reduction by maximum started from −∞, at a result index that some operand index reduces to,
    of an operand of reals: the maximum of a non-empty finite set of reals, a real. -/
theorem isR_reduce_max {u : Shape} {axes : List (Fin s.rank)} {x : FVec Ideal s .f32} (hx : AllR x)
    (init : u.Idx → Ideal .f32) (hinit : ∀ k, init k = ⊥) (h : s.ReducesTo axes t) (hu : 0 < u.numel) (j : t.Idx)
    (hne : ∃ i, h.drop i = j) :
    IsR (Host.reduce (FloatOps.maximumf (F := Ideal) (φ := .f32)) x init h hu j) := by
  classical
  show IsR (Host.reduce (max : EReal → EReal → EReal) x init h hu j)
  rw [Host.reduce_eq_fold (max : EReal → EReal → EReal) x init h hu j, hinit]
  choose σ hσ using hx
  obtain rfl : x = fun i => ((σ i : ℝ) : EReal) := funext hσ
  obtain ⟨i, hi⟩ := hne
  rcases Cert.SoftmaxLaws.fold_max_real (Finset.univ.filter fun i => h.drop i = j) σ with ⟨h0, _⟩ | ⟨μ, hμ⟩
  · exact absurd h0 (Finset.Nonempty.ne_empty ⟨i, Finset.mem_filter.mpr ⟨Finset.mem_univ _, hi⟩⟩)
  · exact ⟨μ, hμ⟩

/-- A host sum of positive reals from an initial value ≥ 0, at a result index that some operand
    index reduces to, is a positive real. -/
theorem isPos_reduceAdd {u : Shape} {axes : List (Fin s.rank)} {x : FVec Ideal s .f32} (hx : AllPos x)
    (init : u.Idx → Ideal .f32) (hinit : ∀ k, IsNN (init k)) (h : s.ReducesTo axes t) (hu : 0 < u.numel) (j : t.Idx)
    (hne : ∃ i, h.drop i = j) : IsPos (Host.reduceAdd (F := Ideal) x init h hu j) := by
  show IsPos (Ideal.hostReduceAdd h x (init (Shape.Idx.first hu)) j)
  unfold Ideal.hostReduceAdd
  obtain ⟨i, hi⟩ := hne
  exact (hinit _).add_pos
    (IsPos.finset_sum _ ⟨i, Finset.mem_filter.mpr ⟨Finset.mem_univ _, hi⟩⟩ _ fun k _ => hx k)

/-! ## One row of softmax weights -/

/-- The softmax weights of a non-empty row of real scores are reals. -/
theorem isR_weight {N : ℕ} (hN : 0 < N) (σ : Fin N → ℝ) (j : Fin N) :
    IsR (Cert.AttnRow.weight (fun j => ((σ j : ℝ) : EReal)) j) := by
  haveI : Nonempty (Fin N) := ⟨⟨0, hN⟩⟩
  obtain ⟨μ, hμ⟩ : ∃ μ : ℝ, (Finset.univ : Finset (Fin N)).fold max (⊥ : EReal) (fun k => ((σ k : ℝ) : EReal)) = (μ : EReal) := by
    rcases Cert.SoftmaxLaws.fold_max_real Finset.univ σ with ⟨h, _⟩ | h
    · exact absurd h Finset.univ_nonempty.ne_empty
    · exact h
  simp only [Cert.AttnRow.weight, Cert.AttnRow.rowMax]
  rw [ofBits_negInf, hμ]
  simp only [Cert.SoftmaxLaws.exp_sub_coe, Cert.SoftmaxLaws.coe_sum]
  rw [Cert.SoftmaxLaws.div_coe_coe _ _ (Cert.SoftmaxLaws.sum_exp_pos Finset.univ Finset.univ_nonempty _).ne']
  exact ⟨_, rfl⟩

/-- The attention weights of a real query row against a non-empty family of real keys are reals. -/
theorem isR_attnRow {D N : ℕ} (hN : 0 < N) (q : Fin D → EReal) (K : Fin N → Fin D → EReal) (hq : ∀ k, IsR (q k))
    (hK : ∀ j k, IsR (K j k)) (j : Fin N) : IsR (Cert.AttnRow.attn q K j) := by
  have hs : ∀ j, IsR (Cert.AttnRow.score q K j) := fun j => by
    unfold Cert.AttnRow.score
    exact (Cert.LibMoments.IsR.sum _ fun k => (hq k).mul (hK j k)).mul ⟨_, Cert.AttnRow.ofBits_sixteenth⟩
  choose σ hσ using hs
  unfold Cert.AttnRow.attn
  rw [show Cert.AttnRow.score q K = fun j => ((σ j : ℝ) : EReal) from funext hσ]
  exact isR_weight hN σ j

end Cert.LibAllReal

end
-- ==== Proof.Finite.lean ====
/-
  Real entries in, real entries out, for the layer functions of the reference on the extended
  reals. Every building block is made of broadcasts (which only select entries), pointwise ring
  operations, maxima, finite sums (a host sum, an accumulating scatter, a host product) and
  quotients by the nonzero reals 256 and 16, all of which keep real entries real. Two places need
  more. The degree normalisation raises the larger of a count and 1 to the power −(1/2): a real
  power of reals is a real. Layer normalisation takes the reciprocal square root of a mean of
  squares plus a small positive constant: that argument is a positive real, so its reciprocal
  root is a real. The attention weights are exponentials of real differences divided by their row sums, positive
  reals because no row is empty.
-/
import proofs.«122702_j23356032156211_2_alg».proof.Proof.Layers
import proofs.«122702_j23356032156211_2_alg».proof.Proof.RefAttnDefs
import proofs.«122702_j23356032156211_2_alg».proof.Proof.LibAllReal
import Idealize.ShloMosaic.Lib.ValueIdx
import Idealize.ShloMosaic.PureOps.Reduce

noncomputable section

namespace Cert.ReferenceIdeal.Finite

open Cert.ReferenceIdeal Cert.ReferenceIdeal.Gen Idealize.ShloMosaic Idealize.ShloMosaic.ValueIdx
open Cert.ReferenceIdeal.Layers
open Cert.LibMoments (IsR)
open Cert.LibAllReal
export Cert.LibAllReal (AllR)

/-! ## The degree normalisation -/

/-- A count of ones is a real; so is its maximum with 1, and that real to the power −(1/2). -/
theorem allR_deg (idx : Edges) : AllR (deg idx) := by
  unfold deg
  exact allR_powf
    (allR_maximumf
      (allR_scatterAdd _ (allR_bcast _ (allR_const _ isR_word_zero)) _ (allR_bcast _ (allR_const _ isR_word_one)))
      (allR_bcast _ (allR_const _ isR_word_one)))
    (allR_bcast _ (allR_const _ isR_word_neg_half))

/-! ## Laying a vector along rows or columns -/

theorem allR_col256 {v : Vn} (hv : AllR v) : AllR (col256 v) := by
  unfold col256; exact allR_bcast _ (allR_bcast _ hv)

theorem allR_col1024 {v : Vn} (hv : AllR v) : AllR (col1024 v) := by
  unfold col1024; exact allR_bcast _ (allR_bcast _ hv)

theorem allR_bias256 {b : B256} (hb : AllR b) : AllR (bias256 b) := by
  unfold bias256; exact allR_bcast _ (allR_bcast _ hb)

theorem allR_bias1024 {b : FVec Ideal S1024 .f32} (hb : AllR b) : AllR (bias1024 b) := by
  unfold bias1024; exact allR_bcast _ (allR_bcast _ hb)

theorem allR_spread {v : FVec Ideal S8192x1 .f32} (hv : AllR v) : AllR (spread v) := by
  unfold spread; exact allR_bcast _ hv

/-! ## The neighbourhood sums -/

/-- Scale, gather, add into the target rows, scale: sums and products of reals. -/
theorem allR_agg256 {dout din : Vn} (src dst : Edges) {h : M256} (hdo : AllR dout) (hdi : AllR din) (hh : AllR h) :
    AllR (agg256 dout din src dst h) := by
  unfold agg256
  exact allR_mulf
    (allR_scatterAdd _ (allR_bcast _ (allR_const _ isR_word_zero)) _
      (allR_gather _ (allR_mulf hh (allR_col256 hdo)) _))
    (allR_col256 hdi)

theorem allR_agg1024 {dout din : Vn} (src dst : Edges) {h : M1024} (hdo : AllR dout) (hdi : AllR din) (hh : AllR h) :
    AllR (agg1024 dout din src dst h) := by
  unfold agg1024
  exact allR_mulf
    (allR_scatterAdd _ (allR_bcast _ (allR_const _ isR_word_zero)) _
      (allR_gather _ (allR_mulf hh (allR_col1024 hdo)) _))
    (allR_col1024 hdi)

/-! ## Affine layers -/

theorem allR_lin256 {a : M256} {W : W256} {b : B256} (ha : AllR a) (hW : AllR W) (hb : AllR b) : AllR (lin256 a W b) := by
  unfold lin256
  exact allR_addf (allR_dotGeneral _ _ ha hW) (allR_bias256 hb)

theorem allR_lin1024 {a : M256} {W : FVec Ideal S256x1024 .f32}
    {b : FVec Ideal S1024 .f32} (ha : AllR a) (hW : AllR W) (hb : AllR b) : AllR (lin1024 a W b) := by
  unfold lin1024
  exact allR_addf (allR_dotGeneral _ _ ha hW) (allR_bias1024 hb)

theorem allR_proj {a : M1024} {W : FVec Ideal S1024x256 .f32} (ha : AllR a) (hW : AllR W) :
    AllR (proj a W) := by
  unfold proj
  exact allR_dotGeneral _ _ ha hW

/-! ## Layer normalisation -/

/-- The mean of a row of reals is a real: a finite sum divided by the nonzero real 256. -/
theorem allR_mean256 {a : M256} (ha : AllR a) : AllR (mean256 a) := by
  unfold mean256
  exact allR_divf (allR_bcast _ (allR_reduceAdd ha _ (fun _ => isR_word_zero) _ _))
    (allR_bcast _ (allR_const _ isR_word_256)) (fun _ => word_256_ne_zero)

/-- The mean of the squares of a row of reals is a real ≥ 0; with the small positive constant
    added it is a positive real, whose reciprocal square root is a real. -/
theorem allR_rsqrt_var {d : M256} (hd : AllR d) :
    AllR (Host.rsqrt (F := Ideal) (addf (mean256 (mulf d d))
      (broadcastInDim S8192x1 ![] bcast_S_S8192x1 (constant S_ .f32 0x3727C5AC#32)))) := by
  intro i
  have hsum : AllNN (Host.reduceAdd (F := Ideal) (mulf d d) (constant S_ .f32 0x00000000#32) reducesTo_S8192x256_S8192_d1 h_S_) :=
    allNN_reduceAdd (allNN_mulf_self hd) _ (fun _ => isNN_word_zero) _ _
  have hmean : IsNN (mean256 (mulf d d) i) := by
    unfold mean256
    exact (allNN_bcast bcast_S8192_S8192x1_0 hsum i).div_pos 256 (by norm_num) _ Cert.AttnRow.ofBits_256
  exact isR_rsqrt_of_pos (hmean.add_pos isPos_word_eps)

theorem allR_layernorm {a : M256} {g b : B256} (ha : AllR a) (hg : AllR g) (hb : AllR b) : AllR (layernorm a g b) := by
  have hd : AllR (subf a (spread (mean256 a))) := allR_subf ha (allR_spread (allR_mean256 ha))
  unfold layernorm
  exact allR_addf (allR_mulf (allR_mulf hd (allR_spread (allR_rsqrt_var hd))) (allR_bias256 hg)) (allR_bias256 hb)

/-! ## The rectifier -/

theorem allR_relu {a : M1024} (ha : AllR a) : AllR (relu a) := by
  unfold relu
  exact allR_maximumf ha (allR_bcast _ (allR_const _ isR_word_zero))

/-! ## Attention -/

/-- Every row has an entry: the first of the row reduces to the row's index. -/
theorem row_fiber (j : S8192.Idx) : ∃ i : S8192x8192.Idx, reducesTo_S8192x8192_S8192_d1.drop i = j := by
  refine ⟨ix2 (j 0) (0 : Fin 8192), ?_⟩
  funext b
  apply Fin.ext
  match b with
  | ⟨0, _⟩ => exact reducesTo_S8192x8192_S8192_d1.drop_apply_val_of_eq (ix2 (j 0) (0 : Fin 8192)) 0 0

/-- One number per row laid along the row keeps real entries real, positive ones positive. -/
theorem allR_col {v : FVec Ideal S8192 .f32} (hv : AllR v) : AllR (Cert.ReferenceIdeal.Attn.col v) := by
  unfold Cert.ReferenceIdeal.Attn.col; exact allR_bcast _ (allR_bcast _ hv)

theorem allPos_col {v : FVec Ideal S8192 .f32} (hv : AllPos v) : AllPos (Cert.ReferenceIdeal.Attn.col v) := by
  unfold Cert.ReferenceIdeal.Attn.col; exact allPos_bcast _ (allPos_bcast _ hv)

/-- The scaled scores: finite sums of products of reals, divided by the nonzero real 16. -/
theorem allR_scores {Q K : FVec Ideal S8192x256 .f32} (hQ : AllR Q) (hK : AllR K) :
    AllR (Cert.ReferenceIdeal.Attn.scores Q K) := by
  unfold Cert.ReferenceIdeal.Attn.scores
  exact allR_divf (allR_dotGeneral _ _ hQ (allR_transpose _ hK)) (allR_bcast _ (fun _ => isR_sqrt_256))
    (fun _ => sqrt_256_ne_zero)

/-- The maximum of a row of reals, started from −∞ and met once more with −∞, is a real: the
    row is not empty. -/
theorem allR_rowmax {S : FVec Ideal S8192x8192 .f32} (hS : AllR S) : AllR (Cert.ReferenceIdeal.Attn.rowmax S) := by
  intro j
  have h : IsR (Cert.ReferenceIdeal.Attn.rowred S j) := by
    unfold Cert.ReferenceIdeal.Attn.rowred
    exact isR_reduce_max hS _ (fun _ => ofBits_negInf) _ _ j (row_fiber j)
  have e : Cert.ReferenceIdeal.Attn.rowmax S j = Cert.ReferenceIdeal.Attn.rowred S j :=
    (maximumf_apply Cert.ReferenceIdeal.Attn.negInfVec (Cert.ReferenceIdeal.Attn.rowred S) j).trans
      (Cert.AttnRow.max_negInf (Cert.ReferenceIdeal.Attn.rowred S j))
  rw [e]
  exact h

/-- The exponentials of real scores less their row's real maximum are positive reals. -/
theorem allPos_expd {S : FVec Ideal S8192x8192 .f32} (hS : AllR S) : AllPos (Cert.ReferenceIdeal.Attn.expd S) := by
  unfold Cert.ReferenceIdeal.Attn.expd
  exact allPos_exp_sub hS (allR_col (allR_rowmax hS))

/-- The weights: a positive real divided by its row's sum of positive reals, which is a positive
    real because the row is not empty. -/
theorem allR_attn {Q K : FVec Ideal S8192x256 .f32} (hQ : AllR Q) (hK : AllR K) : AllR (Cert.ReferenceIdeal.Attn.attn Q K) := by
  have hE := allPos_expd (allR_scores hQ hK)
  unfold Cert.ReferenceIdeal.Attn.attn
  exact allR_divf_pos (fun i => (hE i).isR)
    (allPos_col fun j => isPos_reduceAdd hE _ (fun _ => isNN_word_zero) _ _ j (row_fiber j))

/-- The weights times the values: finite sums of products of reals. -/
theorem allR_attnV {Q K V : FVec Ideal S8192x256 .f32} (hQ : AllR Q) (hK : AllR K) (hV : AllR V) :
    AllR (Cert.ReferenceIdeal.Attn.attnV Q K V) := by
  unfold Cert.ReferenceIdeal.Attn.attnV
  exact allR_dotGeneral _ _ (allR_attn hQ hK) hV

/-! ## The composites -/

section Whole

variable {x : M256} {Wq : W256} {bq : B256} {Wk : W256} {bk : B256} {Wv : W256} {bv : B256} {Wo : W256} {bo : B256}
  {W1 : FVec Ideal S256x1024 .f32} {b1 : FVec Ideal S1024 .f32}
  {g b : B256} (src dst : Edges)

theorem allR_aggX (hx : AllR x) : AllR (aggX x src dst) := by
  unfold aggX; exact allR_agg256 src dst (allR_deg src) (allR_deg dst) hx

theorem allR_Qm (hx : AllR x) (hW : AllR Wq) (hb : AllR bq) : AllR (Qm x Wq bq src dst) := by
  unfold Qm; exact allR_lin256 (allR_aggX src dst hx) hW hb

theorem allR_Km (hx : AllR x) (hW : AllR Wk) (hb : AllR bk) : AllR (Km x Wk bk src dst) := by
  unfold Km; exact allR_lin256 (allR_aggX src dst hx) hW hb

theorem allR_Vm (hx : AllR x) (hW : AllR Wv) (hb : AllR bv) : AllR (Vm x Wv bv src dst) := by
  unfold Vm; exact allR_lin256 (allR_aggX src dst hx) hW hb

theorem allR_attnVals (hx : AllR x) (hWq : AllR Wq) (hbq : AllR bq) (hWk : AllR Wk) (hbk : AllR bk)
    (hWv : AllR Wv) (hbv : AllR bv) : AllR (attnVals x Wq bq Wk bk Wv bv src dst) := by
  unfold attnVals
  exact allR_attnV (allR_Qm src dst hx hWq hbq) (allR_Km src dst hx hWk hbk) (allR_Vm src dst hx hWv hbv)

theorem allR_resid {dout din : Vn} {av : M256} (hx : AllR x) (hWo : AllR Wo) (hbo : AllR bo) (hg : AllR g) (hb : AllR b)
    (hdo : AllR dout) (hdi : AllR din) (hav : AllR av) : AllR (resid x Wo bo g b src dst dout din av) := by
  unfold resid
  exact allR_addf (allR_layernorm (allR_lin256 (allR_agg256 src dst hdo hdi hav) hWo hbo) hg hb) hx

/-- The hidden activations of the feed-forward block, for any real degree vectors and any real
    attended values, from real inputs. -/
theorem allR_hidden {dout din : Vn} {av : M256} (hx : AllR x) (hWo : AllR Wo) (hbo : AllR bo) (hW1 : AllR W1) (hb1 : AllR b1)
    (hg : AllR g) (hb : AllR b) (hdo : AllR dout) (hdi : AllR din) (hav : AllR av) :
    AllR (Cert.ReferenceIdeal.Layers.hidden x Wo bo W1 b1 g b src dst dout din av) := by
  unfold Cert.ReferenceIdeal.Layers.hidden
  exact allR_relu (allR_lin1024 (allR_agg256 src dst hdo hdi
    (allR_resid src dst hx hWo hbo hg hb hdo hdi hav)) hW1 hb1)

end Whole

end Cert.ReferenceIdeal.Finite

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.AggRows.lean ====
/-
  A neighbourhood sum of rows read at an entry, and its exchange with a projection.

  The aggregation of an `[N, C]` matrix `h` scales its rows, gathers the source row of every
  edge, adds the gathered rows into their target rows and scales the result. At entry (n, c) it
  is `(0 + ∑ h (s e, c) * a (s e, c)) * b (n, c)`, the sum over the edges `e` whose target is
  `n`, with `s e` the source row of `e`: the set of edges and the source rows do not depend on
  the column or on the width `C`. Hence, for real entries, projecting the rows by a matrix `W`
  before aggregating equals aggregating and then projecting: both are the double sum over the
  edges into `n` and the contracted coordinate, by distributivity on the reals.
-/
import proofs.«122702_j23356032156211_2_alg».proof.Proof.LibRowTable
import proofs.«122702_j23356032156211_2_alg».proof.Proof.LibLanding
import proofs.«122702_j23356032156211_2_alg».proof.Proof.LibMoments
import Idealize.ShloMosaic.Lib.ValueIdx
import Idealize.ShloMosaic.PureOps.Ideal
import Mathlib.Algebra.BigOperators.Ring.Finset
import Mathlib.Tactic.Ring

noncomputable section

namespace Cert.AggRows

open Idealize.ShloMosaic Idealize.ShloMosaic.ValueIdx Cert.LibRowTable Cert.LibLanding Cert.LibMoments
open scoped BigOperators

/-- The edges whose table entry, read signed, is the node `n`. -/
def into {N E w : ℕ} (tab : IVec ⟨2, ![E, 1]⟩ w) (n : Fin N) : Finset (Fin E) :=
  Finset.univ.filter fun e => (tab (ix2 e (0 : Fin 1))).toInt = (n.val : Int)

/-- The updates of a row scatter that land on (n, c) are the entries (e, c) of the edges into `n`. -/
theorem sum_landing_rows {N C E w : ℕ}
    (wf : ScatterDims.WF ⟨2, ![N, C]⟩ ⟨2, ![E, 1]⟩ ⟨2, ![E, C]⟩ [1] [0] [0] 1)
    (tab : IVec ⟨2, ![E, 1]⟩ w) (upd : (⟨2, ![E, C]⟩ : Shape).Idx → EReal) (n : Fin N) (c : Fin C) :
    ∑ j ∈ landing (scatterRows N C E wf) tab (ix2 n c), upd j = ∑ e ∈ into tab n, upd (ix2 e c) := by
  classical
  refine (Finset.sum_bij (fun (e : Fin E) _ => (ix2 e c : (⟨2, ![E, C]⟩ : Shape).Idx)) ?_ ?_ ?_ ?_).symm
  · intro e he
    rw [mem_landing, scatterRows_lands]
    exact ⟨(Finset.mem_filter.mp he).2, rfl⟩
  · intro e₁ _ e₂ _ h
    exact (congrFun h 0 : _)
  · intro j hj
    obtain ⟨e, k, rfl⟩ : ∃ (e : Fin E) (k : Fin C), j = ix2 e k := ⟨j 0, j 1, eq_ix2 j⟩
    rw [mem_landing, scatterRows_lands] at hj
    obtain ⟨h1, rfl⟩ := hj
    exact ⟨e, Finset.mem_filter.mpr ⟨Finset.mem_univ _, h1⟩, rfl⟩
  · intro e _; rfl

/-- THE AGGREGATION AT AN ENTRY, for any width. -/
theorem agg_apply {N C E w : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (zero h a b : FVec Ideal ⟨2, ![N, C]⟩ .f32) (stab dtab : IVec ⟨2, ![E, 1]⟩ w) (n : Fin N) (c : Fin C) :
    mulf (Host.scatterAdd (F := Ideal) (scatterRows N C E wfs) zero dtab
        (Host.gather (gatherRows N C E wfg) (mulf h a) stab)) b (ix2 n c)
      = (zero (ix2 n c) + ∑ e ∈ into dtab n,
          h (ix2 (srcRow N hN (stab (ix2 e (0 : Fin 1)))) c) * a (ix2 (srcRow N hN (stab (ix2 e (0 : Fin 1)))) c)) * b (ix2 n c) := by
  show Host.scatterAdd (F := Ideal) (scatterRows N C E wfs) zero dtab _ (ix2 n c) * b (ix2 n c) = _
  rw [scatterAdd_apply, sum_landing_rows]
  refine congrArg (fun s => (zero (ix2 n c) + s) * b (ix2 n c)) (Finset.sum_congr rfl fun e _ => ?_)
  rw [gatherRows_apply hN]
  rfl

/-- The exchange on real numbers. -/
theorem swap_real {E K : Type*} [Fintype K] (F : Finset E) (x : E → K → ℝ) (d : E → ℝ) (t : ℝ) (w : K → ℝ) :
    (0 + ∑ e ∈ F, (∑ k, x e k * w k) * d e) * t = ∑ k, ((0 + ∑ e ∈ F, x e k * d e) * t) * w k := by
  simp only [zero_add, Finset.sum_mul]
  rw [Finset.sum_comm]
  refine Finset.sum_congr rfl fun k _ => Finset.sum_congr rfl fun e _ => ?_
  ring

/-- The exchange inside the extended reals, every entry a coerced real. -/
theorem swap_coe {E K : Type*} [Fintype K] (F : Finset E) (x : E → K → ℝ) (d : E → ℝ) (t : ℝ) (w : K → ℝ)
    (z z' : EReal) (hz : z = 0) (hz' : z' = 0) :
    (z + ∑ e ∈ F, (∑ k, (x e k : EReal) * (w k : EReal)) * (d e : EReal)) * (t : EReal)
      = ∑ k, ((z' + ∑ e ∈ F, (x e k : EReal) * (d e : EReal)) * (t : EReal)) * (w k : EReal) := by
  subst hz hz'
  simp only [← EReal.coe_mul, coe_finset_sum, ← EReal.coe_add, ← EReal.coe_zero]
  exact congrArg _ (swap_real F x d t w)

end Cert.AggRows

end
-- ==== Proof.AggSwap.lean ====
/-
  Projecting before or after the neighbourhood sum.

  For real entries, aggregating the rows of `z · W` (256 columns) equals aggregating the rows
  of `z` (1024 columns) and multiplying by `W` afterwards: at (n, c) both are the sum, over the
  edges `e` into `n` and over the contracted coordinate `k`, of
  `z (s e, k) · W (k, c) · dout (s e) · din n`, with `s e` the source row of edge `e`. The two
  aggregations use the same edge set and the same source rows; the exchange is distributivity
  on the reals.
-/
import proofs.«122702_j23356032156211_2_alg».proof.Proof.Layers
import proofs.«122702_j23356032156211_2_alg».proof.Proof.AggRows
import proofs.«122702_j23356032156211_2_alg».proof.Proof.LibMatmulRows
import Idealize.ShloMosaic.Lib.Pipeline.Value

noncomputable section

namespace Cert.ReferenceIdeal.Swap

open Cert.ReferenceIdeal Cert.ReferenceIdeal.Gen Cert.ReferenceIdeal.Layers Idealize.ShloMosaic Idealize.ShloMosaic.ValueIdx
open Cert.LibMoments Cert.AggRows Cert.LibRowTable
open scoped BigOperators

theorem col256_apply (v : Vn) (r : Fin 8192) (c : Fin 256) : col256 v (ix2 r c) = v (ix1 r) := by
  unfold col256
  refine (broadcastInDim_apply _ bcast_S8192x1_S8192x256_0_1 _ (ix2 r c) (ix2 r (0 : Fin 1)) fun a => ?_).trans
    (broadcastInDim_apply _ bcast_S8192_S8192x1_0 v (ix2 r (0 : Fin 1)) (ix1 r) fun a => ?_)
  · match a with
    | ⟨0, _⟩ => show r.val = if (8192 : ℕ) = 1 then 0 else r.val; rw [if_neg (by decide)]
    | ⟨1, _⟩ => show (0 : ℕ) = if (1 : ℕ) = 1 then 0 else c.val; rw [if_pos rfl]
  · match a with
    | ⟨0, _⟩ => show r.val = if (8192 : ℕ) = 1 then 0 else r.val; rw [if_neg (by decide)]

theorem col1024_apply (v : Vn) (r : Fin 8192) (c : Fin 1024) : col1024 v (ix2 r c) = v (ix1 r) := by
  unfold col1024
  refine (broadcastInDim_apply _ bcast_S8192x1_S8192x1024_0_1 _ (ix2 r c) (ix2 r (0 : Fin 1)) fun a => ?_).trans
    (broadcastInDim_apply _ bcast_S8192_S8192x1_0 v (ix2 r (0 : Fin 1)) (ix1 r) fun a => ?_)
  · match a with
    | ⟨0, _⟩ => show r.val = if (8192 : ℕ) = 1 then 0 else r.val; rw [if_neg (by decide)]
    | ⟨1, _⟩ => show (0 : ℕ) = if (1 : ℕ) = 1 then 0 else c.val; rw [if_pos rfl]
  · match a with
    | ⟨0, _⟩ => show r.val = if (8192 : ℕ) = 1 then 0 else r.val; rw [if_neg (by decide)]

/-- The projection at (r, c). -/
theorem proj_apply (a : M1024) (W : FVec Ideal S1024x256 .f32) (r : Fin 8192) (c : Fin 256) :
    proj a W (ix2 r c) = ∑ k : Fin 1024, a (ix2 r k) * W (ix2 k c) := by
  unfold proj
  exact Cert.LibMatmulRows.hostdot_rows dot_S8192x1024_S1024x256_S8192x256_1_0_0_1_n_n rfl rfl
    (fun i s => by
      unfold DotDims.lhsIdx
      rw [dif_neg (show ¬(0 : Fin S8192x1024.rank) ∈ dot_S8192x1024_S1024x256_S8192x256_1_0_0_1_n_n.lhsBatch by decide),
        dif_pos (show (0 : Fin S8192x1024.rank) ∈ dot_S8192x1024_S1024x256_S8192x256_1_0_0_1_n_n.lhsNonContracting by decide)]
      rfl)
    (fun i s => dot_S8192x1024_S1024x256_S8192x256_1_0_0_1_n_n.lhsIdx_val_of_single rfl i s)
    (fun i s => dot_S8192x1024_S1024x256_S8192x256_1_0_0_1_n_n.rhsIdx_val_of_single rfl i s)
    (fun i s => by
      unfold DotDims.rhsIdx
      rw [dif_neg (show ¬(1 : Fin S1024x256.rank) ∈ dot_S8192x1024_S1024x256_S8192x256_1_0_0_1_n_n.rhsBatch by decide),
        dif_pos (show (1 : Fin S1024x256.rank) ∈ dot_S8192x1024_S1024x256_S8192x256_1_0_0_1_n_n.rhsNonContracting by decide)]
      rfl)
    a W r c

/-- The two scatters and the two gathers are the row scatter and the row gather of the table lemmas. -/
theorem sc256_eq : scatter_S8192x256_S131072x1_S131072x256_1_0_0_1
    = scatterRows 8192 256 131072 scatter_S8192x256_S131072x1_S131072x256_1_0_0_1.wf := rfl
theorem sc1024_eq : scatter_S8192x1024_S131072x1_S131072x1024_1_0_0_1
    = scatterRows 8192 1024 131072 scatter_S8192x1024_S131072x1_S131072x1024_1_0_0_1.wf := rfl
theorem ga256_eq : gather_S8192x256_S131072x1_S131072x256_1_0_n_n_0_1_1256
    = gatherRows 8192 256 131072 gather_S8192x256_S131072x1_S131072x256_1_0_n_n_0_1_1256.wf := rfl
theorem ga1024_eq : gather_S8192x1024_S131072x1_S131072x1024_1_0_n_n_0_1_11024
    = gatherRows 8192 1024 131072 gather_S8192x1024_S131072x1_S131072x1024_1_0_n_n_0_1_11024.wf := rfl

/-- The source row of edge `e`. -/
def srow (src : Edges) (e : Fin 131072) : Fin 8192 := srcRow 8192 (by decide) (srcTab src (ix2 e (0 : Fin 1)))

/-- The aggregation of 256-wide rows at (n, c). -/
theorem agg256_apply (dout din : Vn) (src dst : Edges) (h : M256) (n : Fin 8192) (c : Fin 256) :
    agg256 dout din src dst h (ix2 n c)
      = (Ideal.ofBits .f32 0x00000000#32 + ∑ e ∈ into (dstTab dst) n, h (ix2 (srow src e) c) * dout (ix1 (srow src e))) * din (ix1 n) := by
  unfold agg256
  rw [sc256_eq, ga256_eq]
  refine (agg_apply (by decide) _ _ _ h (col256 dout) (col256 din) (srcTab src) (dstTab dst) n c).trans ?_
  rw [col256_apply]
  refine congrArg₂ (fun z s => (z + s) * din (ix1 n)) ?_ (Finset.sum_congr rfl fun e _ => ?_)
  · exact broadcastInDim_apply _ bcast_S_S8192x256 _ (ix2 n c) (fun a => a.elim0) (fun a => a.elim0)
  · rw [col256_apply]; rfl

/-- The aggregation of 1024-wide rows at (n, k). -/
theorem agg1024_apply (dout din : Vn) (src dst : Edges) (h : M1024) (n : Fin 8192) (k : Fin 1024) :
    agg1024 dout din src dst h (ix2 n k)
      = (Ideal.ofBits .f32 0x00000000#32 + ∑ e ∈ into (dstTab dst) n, h (ix2 (srow src e) k) * dout (ix1 (srow src e))) * din (ix1 n) := by
  unfold agg1024
  rw [sc1024_eq, ga1024_eq]
  refine (agg_apply (by decide) _ _ _ h (col1024 dout) (col1024 din) (srcTab src) (dstTab dst) n k).trans ?_
  rw [col1024_apply]
  refine congrArg₂ (fun z s => (z + s) * din (ix1 n)) ?_ (Finset.sum_congr rfl fun e _ => ?_)
  · exact broadcastInDim_apply _ bcast_S_S8192x1024 _ (ix2 n k) (fun a => a.elim0) (fun a => a.elim0)
  · rw [col1024_apply]; rfl

/-- THE EXCHANGE: for real entries, aggregate-then-project equals project-then-aggregate. -/
theorem agg_proj_swap (dout din : Vn) (src dst : Edges) (z : M1024) (W : FVec Ideal S1024x256 .f32)
    (hz : ∀ i, IsR (z i)) (hW : ∀ i, IsR (W i)) (hdo : ∀ i, IsR (dout i)) (hdi : ∀ i, IsR (din i)) :
    agg256 dout din src dst (proj z W) = proj (agg1024 dout din src dst z) W := by
  choose zr hzr using hz
  choose Wr hWr using hW
  choose dor hdor using hdo
  choose dir hdir using hdi
  funext i
  obtain ⟨n, c, rfl⟩ : ∃ (n : Fin 8192) (c : Fin 256), i = ix2 n c := ⟨i 0, i 1, eq_ix2 i⟩
  rw [agg256_apply, proj_apply]
  simp only [agg1024_apply, proj_apply, hzr, hWr, hdor, hdir]
  exact swap_coe (into (dstTab dst) n) (fun e k => zr (ix2 (srow src e) k)) (fun e => dor (ix1 (srow src e))) (dir (ix1 n))
    (fun k => Wr (ix2 k c)) _ _ Ideal.ofBits_zero_f32 Ideal.ofBits_zero_f32

end Cert.ReferenceIdeal.Swap

end
-- ==== Proof.KerRefEq.lean ====
/-
  The kernel's first result is the reference's. The two differ in one place only: after the
  feed-forward block's hidden rows, the kernel projects them to 256 columns and then takes the
  normalised neighbourhood sum, while the reference takes the neighbourhood sum of the 1024-wide
  rows and then projects. For real entries the two orders agree (aggregation and projection
  are both finite sums of products, exchanged by distributivity), and under real inputs the
  hidden rows, the projection matrix and the two degree vectors all have real entries. What
  follows the exchange — adding the bias and normalising the rows — is the same on both sides.
-/
import proofs.«122702_j23356032156211_2_alg».proof.Proof.Layers
import proofs.«122702_j23356032156211_2_alg».proof.Proof.Finite
import proofs.«122702_j23356032156211_2_alg».proof.Proof.AggSwap

noncomputable section

namespace Cert.ReferenceIdeal.KerRefEq

open Cert.ReferenceIdeal Cert.ReferenceIdeal.Gen Cert.ReferenceIdeal.Layers Idealize.ShloMosaic
open Cert.ReferenceIdeal.Finite

/-- From real inputs, with the degree normalisations of the sources and of the targets and the
    attended values of the layer itself, project-then-aggregate equals aggregate-then-project. -/
theorem outKer_eq_outRef (x : M256) (Wq : W256) (bq : B256) (Wk : W256) (bk : B256) (Wv : W256) (bv : B256)
    (Wo : W256) (bo : B256) (W1 : FVec Ideal S256x1024 .f32) (b1 : FVec Ideal S1024 .f32)
    (W2 : FVec Ideal S1024x256 .f32) (b2 : B256) (g b : B256) (src dst : Edges)
    (hx : AllR x) (hWq : AllR Wq) (hbq : AllR bq) (hWk : AllR Wk) (hbk : AllR bk) (hWv : AllR Wv) (hbv : AllR bv) (hWo : AllR Wo)
    (hbo : AllR bo) (hW1 : AllR W1) (hb1 : AllR b1) (hW2 : AllR W2) (hb2 : AllR b2) (hg : AllR g) (hb : AllR b) :
    outKer x Wo bo W1 b1 W2 b2 g b src dst (deg src) (deg dst) (attnVals x Wq bq Wk bk Wv bv src dst)
      = outRef x Wo bo W1 b1 W2 b2 g b src dst (deg src) (deg dst) (attnVals x Wq bq Wk bk Wv bv src dst) := by
  unfold outKer outRef
  rw [Cert.ReferenceIdeal.Swap.agg_proj_swap (deg src) (deg dst) src dst
    (Cert.ReferenceIdeal.Layers.hidden x Wo bo W1 b1 g b src dst (deg src) (deg dst) (attnVals x Wq bq Wk bk Wv bv src dst)) W2
    (allR_hidden src dst hx hWo hbo hW1 hb1 hg hb (allR_deg src) (allR_deg dst)
      (allR_attnVals src dst hx hWq hbq hWk hbk hWv hbv))
    hW2 (allR_deg src) (allR_deg dst)]

end Cert.ReferenceIdeal.KerRefEq

end
-- ==== Proof.KernelValue.lean ====
/-
  The idealized kernel program's run, with its two results named.

  The attention weights end as the attention matrix of the projected, aggregated input — the
  reference's second result verbatim. The layer output ends as the normalised feed-forward
  output with the hidden rows projected before the last aggregation; for finite inputs every
  intermediate value is a real number, so that projection may be moved after the aggregation,
  which is the reference's first result.
-/
import proofs.«122702_j23356032156211_2_alg».proof.Proof.KernelOut
import proofs.«122702_j23356032156211_2_alg».proof.Proof.PreReal
import proofs.«122702_j23356032156211_2_alg».proof.Proof.KerRefEq

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Layers (deg aggX Qm Km Vm attnVals attnOut outKer outRef)

variable (m : (ℓ : Loc nD τ sig) → Buf (Elt Ideal) ℓ)

/-- An argument buffer's launch contents on core `c`. -/
abbrev arg (c : Dev nD) (b : Ref sig .tc) : Buf (Elt Ideal) ((c : Thread nD τ).loc b) := m ((c : Thread nD τ).loc b)

/-- The first result, in the reference's arrangement. -/
def kout0 (c : Dev nD) : Buf (Elt Ideal) ((c : Thread nD τ).loc main_v150) :=
  outRef (arg m c main_arg0) (arg m c main_arg7) (arg m c main_arg8) (arg m c main_arg9) (arg m c main_arg10) (arg m c main_arg11) (arg m c main_arg12) (arg m c main_arg13) (arg m c main_arg14) (arg m c main_arg15) (arg m c main_arg16)
    (deg (arg m c main_arg15)) (deg (arg m c main_arg16))
    (attnVals (arg m c main_arg0) (arg m c main_arg1) (arg m c main_arg2) (arg m c main_arg3) (arg m c main_arg4) (arg m c main_arg5) (arg m c main_arg6) (arg m c main_arg15) (arg m c main_arg16))

/-- The second result. -/
def kout1 (c : Dev nD) : Buf (Elt Ideal) ((c : Thread nD τ).loc main_v40_0) :=
  attnOut (arg m c main_arg0) (arg m c main_arg1) (arg m c main_arg2) (arg m c main_arg3) (arg m c main_arg4) (arg m c main_arg15) (arg m c main_arg16)

/-! ## What the region finds -/

theorem V_v7 (c : Dev nD) : V m c main_v7 = deg (arg m c main_arg15) := head_v7 (fun b => m (c, b))
theorem V_v14 (c : Dev nD) : V m c main_v14 = deg (arg m c main_arg16) := head_v14 (fun b => m (c, b))
theorem V_v37 (c : Dev nD) : V m c main_v37 = Qm (arg m c main_arg0) (arg m c main_arg1) (arg m c main_arg2) (arg m c main_arg15) (arg m c main_arg16) := head_v37 (fun b => m (c, b))
theorem V_v38 (c : Dev nD) : V m c main_v38 = Km (arg m c main_arg0) (arg m c main_arg3) (arg m c main_arg4) (arg m c main_arg15) (arg m c main_arg16) := head_v38 (fun b => m (c, b))
theorem V_v39 (c : Dev nD) : V m c main_v39 = Vm (arg m c main_arg0) (arg m c main_arg5) (arg m c main_arg6) (arg m c main_arg15) (arg m c main_arg16) := head_v39 (fun b => m (c, b))

/-! ## The two results after the run -/

/-- The attention weights after the region. -/
theorem attn_eq (c : Dev nD) : (dats m 0 c).arrAt 3 cfg0.N = kout1 m c := by
  rw [final3, V_v37, V_v38]
  rfl

/-- The attended values after the region. -/
theorem attnV_eq (c : Dev nD) :
    (dats m 0 c).arrAt 4 cfg0.N = attnVals (arg m c main_arg0) (arg m c main_arg1) (arg m c main_arg2) (arg m c main_arg3) (arg m c main_arg4) (arg m c main_arg5) (arg m c main_arg6) (arg m c main_arg15) (arg m c main_arg16) := by
  rw [final4, V_v37, V_v38, V_v39]
  rfl

/-- A buffer that is no array of the region is, after the region, as the region found it. -/
theorem wa_ne (c : Dev nD) (b : Ref sig .tc) (hb : ∀ w, Pipeline.arrRef spec0 w ≠ b) :
    Pipeline.withArrays spec0 c (V0 m c) (fun w => (dats m 0 c).arrAt w cfg0.N) (Proc.devRef .tc b) = V m c b :=
  Pipeline.withArrays_of_ne _ c (V0 m c) _ b hb

/-- The lines after the region, from named contents. -/
theorem tail_from (W : Valuation τ sig (Elt Ideal)) (c : Dev nD)
    (h0 : W (Proc.devRef .tc main_arg0) = (arg m c main_arg0))
    (h7 : W (Proc.devRef .tc main_arg7) = (arg m c main_arg7))
    (h8 : W (Proc.devRef .tc main_arg8) = (arg m c main_arg8))
    (h9 : W (Proc.devRef .tc main_arg9) = (arg m c main_arg9))
    (h10 : W (Proc.devRef .tc main_arg10) = (arg m c main_arg10))
    (h11 : W (Proc.devRef .tc main_arg11) = (arg m c main_arg11))
    (h12 : W (Proc.devRef .tc main_arg12) = (arg m c main_arg12))
    (h13 : W (Proc.devRef .tc main_arg13) = (arg m c main_arg13))
    (h14 : W (Proc.devRef .tc main_arg14) = (arg m c main_arg14))
    (h15 : W (Proc.devRef .tc main_arg15) = (arg m c main_arg15))
    (h16 : W (Proc.devRef .tc main_arg16) = (arg m c main_arg16))
    (hd : W (Proc.devRef .tc main_v7) = deg (arg m c main_arg15)) (he : W (Proc.devRef .tc main_v14) = deg (arg m c main_arg16))
    (hv : W (Proc.devRef .tc main_v40_1) = attnVals (arg m c main_arg0) (arg m c main_arg1) (arg m c main_arg2) (arg m c main_arg3) (arg m c main_arg4) (arg m c main_arg5) (arg m c main_arg6) (arg m c main_arg15) (arg m c main_arg16)) :
    StableHlo.after (List.flatten (tailOps (F := Ideal))) W (Proc.devRef .tc main_v150)
      = outKer (arg m c main_arg0) (arg m c main_arg7) (arg m c main_arg8) (arg m c main_arg9) (arg m c main_arg10) (arg m c main_arg11) (arg m c main_arg12) (arg m c main_arg13) (arg m c main_arg14) (arg m c main_arg15) (arg m c main_arg16)
          (deg (arg m c main_arg15)) (deg (arg m c main_arg16))
          (attnVals (arg m c main_arg0) (arg m c main_arg1) (arg m c main_arg2) (arg m c main_arg3) (arg m c main_arg4) (arg m c main_arg5) (arg m c main_arg6) (arg m c main_arg15) (arg m c main_arg16)) := by
  rw [tail_v150, h0, h7, h8, h9, h10, h11, h12, h13, h14, h15, h16, hd, he, hv]

/-- The layer output after the run, in the kernel's arrangement. -/
theorem out_ker (c : Dev nD) :
    Pipeline.afterTail₀ cfgs (dats m) 0 (V0 m) tailOps c main_v150
      = outKer (arg m c main_arg0) (arg m c main_arg7) (arg m c main_arg8) (arg m c main_arg9) (arg m c main_arg10) (arg m c main_arg11) (arg m c main_arg12) (arg m c main_arg13) (arg m c main_arg14) (arg m c main_arg15) (arg m c main_arg16)
          (deg (arg m c main_arg15)) (deg (arg m c main_arg16))
          (attnVals (arg m c main_arg0) (arg m c main_arg1) (arg m c main_arg2) (arg m c main_arg3) (arg m c main_arg4) (arg m c main_arg5) (arg m c main_arg6) (arg m c main_arg15) (arg m c main_arg16)) := by
  unfold Pipeline.afterTail₀
  exact tail_from m _ c
    ((wa_ne m c main_arg0 (by decide)).trans (V_main_arg0 m c))
    ((wa_ne m c main_arg7 (by decide)).trans (V_main_arg7 m c))
    ((wa_ne m c main_arg8 (by decide)).trans (V_main_arg8 m c))
    ((wa_ne m c main_arg9 (by decide)).trans (V_main_arg9 m c))
    ((wa_ne m c main_arg10 (by decide)).trans (V_main_arg10 m c))
    ((wa_ne m c main_arg11 (by decide)).trans (V_main_arg11 m c))
    ((wa_ne m c main_arg12 (by decide)).trans (V_main_arg12 m c))
    ((wa_ne m c main_arg13 (by decide)).trans (V_main_arg13 m c))
    ((wa_ne m c main_arg14 (by decide)).trans (V_main_arg14 m c))
    ((wa_ne m c main_arg15 (by decide)).trans (V_main_arg15 m c))
    ((wa_ne m c main_arg16 (by decide)).trans (V_main_arg16 m c))
    ((wa_ne m c main_v7 (by decide)).trans (V_v7 m c))
    ((wa_ne m c main_v14 (by decide)).trans (V_v14 m c))
    ((Pipeline.withArrays_arr spec0 launch0.win.arr_inj c (V0 m c) _ 4).trans (attnV_eq m c))

/-- For finite inputs the layer output is the reference's arrangement. -/
theorem out_ref [Cert.Pre_finite_inputs.Facts] (hpre : Cert.Pre_KernelIdeal m) (c : Dev nD) :
    Pipeline.afterTail₀ cfgs (dats m) 0 (V0 m) tailOps c main_v150 = kout0 m c := by
  obtain ⟨r0, r1, r2, r3, r4, r5, r6, r7, r8, r9, r10, r11, r12, r13, r14⟩ := Cert.KernelIdeal.PreReal.args_real m hpre c
  rw [out_ker]
  exact Cert.ReferenceIdeal.KerRefEq.outKer_eq_outRef _ _ _ _ _ _ _ _ _ _ _ _ _ _ _ _ _ r0 r1 r2 r3 r4 r5 r6 r7 r8 r9 r10 r11 r12 r13 r14

/-! ## The run -/

/-- Every weakly fair execution of the idealized kernel program from a memory with finite
    float inputs terminates with the two results at `kout0`, `kout1` and the arguments unchanged. -/
theorem kernel_run [Cert.Pre_finite_inputs.Facts] (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v150) = kout0 m c
      ∧ r.2.mem ((c.tc : Thread nD τ).loc main_v40_0) = kout1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨((h c).2 main_v150 (Pipeline.mem_restRefs_of main_v150 (by decide) (by decide))).trans (out_ref m hpre c),
     ((h c).1 3).trans (attn_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c),
     ((h c).2 main_arg14 (Pipeline.mem_restRefs_of main_arg14 (by decide) (by decide))).trans (W_main_arg14 m (dats m) c),
     ((h c).2 main_arg15 (Pipeline.mem_restRefs_of main_arg15 (by decide) (by decide))).trans (W_main_arg15 m (dats m) c),
     ((h c).2 main_arg16 (Pipeline.mem_restRefs_of main_arg16 (by decide) (by decide))).trans (W_main_arg16 m (dats m) c)⟩)
    (run_main m ρ)

end Cert.KernelIdeal.Hand

end
-- ==== Proof.RefOps.lean ====
/-
  The reference program as a list of host operations.

  The reference is a straight line: its @main is the sequence of the 243 operations listed
  here, in order (the rectifier's three lines stand where it is called); every operation
  touches TensorCore buffers only, and the program scopes no buffer and no semaphore.
-/
import proofs.«122702_j23356032156211_2_alg».proof.ReferenceIdeal
import proofs.«122702_j23356032156211_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 243 operations, in order (a called function's operations stand in its call's place, spelt `TRef.…`). -/
abbrev ops : List (HloOp τ sig (Elt F)) :=
  [ nullary main_cst (constant S_ .f32 0x3F800000#32),
    unary main_cst main_v0 (broadcastInDim S131072 ![] bcast_S_S131072 : (⟨S_, .f32⟩ : BufTy).Contents (Elt F) → (⟨S131072, .f32⟩ : BufTy).Contents (Elt F)),
    nullary main_cst_0 (constant S_ .f32 0x00000000#32),
    unary main_cst_0 main_v1 (broadcastInDim S8192 ![] bcast_S_S8192 : (⟨S_, .f32⟩ : BufTy).Contents (Elt F) → (⟨S8192, .f32⟩ : BufTy).Contents (Elt F)),
    unary main_arg15 main_v2 (broadcastInDim S131072x1 ![0] bcast_S131072_S131072x1_0 : (⟨S131072, .i32⟩ : BufTy).Contents (Elt F) → (⟨S131072x1, .i32⟩ : BufTy).Contents (Elt F)),
    ternary main_v1 main_v2 main_v0 main_v3 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    nullary main_cst_1 (constant S_ .f32 0x3F800000#32),
    unary main_cst_1 main_v4 (broadcastInDim S8192 ![] bcast_S_S8192 : (⟨S_, .f32⟩ : BufTy).Contents (Elt F) → (⟨S8192, .f32⟩ : BufTy).Contents (Elt F)),
    binary main_v3 main_v4 main_v5 (maximumf : (⟨S8192, .f32⟩ : BufTy).Contents (Elt F) → (⟨S8192, .f32⟩ : BufTy).Contents (Elt F) → (⟨S8192, .f32⟩ : BufTy).Contents (Elt F)),
    nullary main_cst_2 (constant S_ .f32 0xBF000000#32),
    unary main_cst_2 main_v6 (broadcastInDim S8192 ![] bcast_S_S8192 : (⟨S_, .f32⟩ : BufTy).Contents (Elt F) → (⟨S8192, .f32⟩ : BufTy).Contents (Elt F)),
    binary main_v5 main_v6 main_v7 (Host.powf : (⟨S8192, .f32⟩ : BufTy).Contents (Elt F) → (⟨S8192, .f32⟩ : BufTy).Contents (Elt F) → (⟨S8192, .f32⟩ : BufTy).Contents (Elt F)),
    nullary main_cst_3 (constant S_ .f32 0x00000000#32),
    unary main_cst_3 main_v8 (broadcastInDim S8192 ![] bcast_S_S8192 : (⟨S_, .f32⟩ : BufTy).Contents (Elt F) → (⟨S8192, .f32⟩ : BufTy).Contents (Elt F)),
    unary main_arg16 main_v9 (broadcastInDim S131072x1 ![0] bcast_S131072_S131072x1_0 : (⟨S131072, .i32⟩ : BufTy).Contents (Elt F) → (⟨S131072x1, .i32⟩ : BufTy).Contents (Elt F)),
    ternary main_v8 main_v9 main_v0 main_v10 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    nullary main_cst_4 (constant S_ .f32 0x3F800000#32),
    unary main_cst_4 main_v11 (broadcastInDim S8192 ![] bcast_S_S8192 : (⟨S_, .f32⟩ : BufTy).Contents (Elt F) → (⟨S8192, .f32⟩ : BufTy).Contents (Elt F)),
    binary main_v10 main_v11 main_v12 (maximumf : (⟨S8192, .f32⟩ : BufTy).Contents (Elt F) → (⟨S8192, .f32⟩ : BufTy).Contents (Elt F) → (⟨S8192, .f32⟩ : BufTy).Contents (Elt F)),
    nullary main_cst_5 (constant S_ .f32 0xBF000000#32),
    unary main_cst_5 main_v13 (broadcastInDim S8192 ![] bcast_S_S8192 : (⟨S_, .f32⟩ : BufTy).Contents (Elt F) → (⟨S8192, .f32⟩ : BufTy).Contents (Elt F)),
    binary main_v12 main_v13 main_v14 (Host.powf : (⟨S8192, .f32⟩ : BufTy).Contents (Elt F) → (⟨S8192, .f32⟩ : BufTy).Contents (Elt F) → (⟨S8192, .f32⟩ : BufTy).Contents (Elt F)),
    unary main_v7 main_v15 (broadcastInDim S8192x1 ![0] bcast_S8192_S8192x1_0 : (⟨S8192, .f32⟩ : BufTy).Contents (Elt F) → (⟨S8192x1, .f32⟩ : BufTy).Contents (Elt F)),
    unary main_v15 main_v16 (broadcastInDim S8192x256 ![0, 1] bcast_S8192x1_S8192x256_0_1 : (⟨S8192x1, .f32⟩ : BufTy).Contents (Elt F) → (⟨S8192x256, .f32⟩ : BufTy).Contents (Elt F)),
    binary main_arg0 main_v16 main_v17 (mulf : (⟨S8192x256, .f32⟩ : BufTy).Contents (Elt F) → (⟨S8192x256, .f32⟩ : BufTy).Contents (Elt F) → (⟨S8192x256, .f32⟩ : BufTy).Contents (Elt F)),
    nullary main_c (constantI S_ 32 0#32),
    unary main_c main_v18 (broadcastInDim S131072 ![] bcast_S_S131072 : (⟨S_, .i32⟩ : BufTy).Contents (Elt F) → (⟨S131072, .i32⟩ : BufTy).Contents (Elt F)),
    binary main_arg15 main_v18 main_v19 (cmpi .slt : (⟨S131072, .i32⟩ : BufTy).Contents (Elt F) → (⟨S131072, .i32⟩ : BufTy).Contents (Elt F) → (⟨S131072, .i1⟩ : BufTy).Contents (Elt F)),
    nullary main_c_6 (constantI S_ 32 8192#32),
    unary main_c_6 main_v20 (broadcastInDim S131072 ![] bcast_S_S131072 : (⟨S_, .i32⟩ : BufTy).Contents (Elt F) → (⟨S131072, .i32⟩ : BufTy).Contents (Elt F)),
    binary main_arg15 main_v20 main_v21 (addi : (⟨S131072, .i32⟩ : BufTy).Contents (Elt F) → (⟨S131072, .i32⟩ : BufTy).Contents (Elt F) → (⟨S131072, .i32⟩ : BufTy).Contents (Elt F)),
    ternary main_v19 main_v21 main_arg15 main_v22 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v22 main_v23 (broadcastInDim S131072x1 ![0] bcast_S131072_S131072x1_0 : (⟨S131072, .i32⟩ : BufTy).Contents (Elt F) → (⟨S131072x1, .i32⟩ : BufTy).Contents (Elt F)),
    binary main_v17 main_v23 main_v24 ((fun x i => Host.gather gather_S8192x256_S131072x1_S131072x256_1_0_n_n_0_1_1256 x i) : (⟨S8192x256, .f32⟩ : BufTy).Contents (Elt F) → (⟨S131072x1, .i32⟩ : BufTy).Contents (Elt F) → (⟨S131072x256, .f32⟩ : BufTy).Contents (Elt F)),
    nullary main_cst_7 (constant S_ .f32 0x00000000#32),
    unary main_cst_7 main_v25 (broadcastInDim S8192x256 ![] bcast_S_S8192x256 : (⟨S_, .f32⟩ : BufTy).Contents (Elt F) → (⟨S8192x256, .f32⟩ : BufTy).Contents (Elt F)),
    unary main_arg16 main_v26 (broadcastInDim S131072x1 ![0] bcast_S131072_S131072x1_0 : (⟨S131072, .i32⟩ : BufTy).Contents (Elt F) → (⟨S131072x1, .i32⟩ : BufTy).Contents (Elt F)),
    ternary main_v25 main_v26 main_v24 main_v27 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    unary main_v14 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x256 ![0, 1] bcast_S8192x1_S8192x256_0_1 : (⟨S8192x1, .f32⟩ : BufTy).Contents (Elt F) → (⟨S8192x256, .f32⟩ : BufTy).Contents (Elt F)),
    binary main_v27 main_v29 main_v30 (mulf : (⟨S8192x256, .f32⟩ : BufTy).Contents (Elt F) → (⟨S8192x256, .f32⟩ : BufTy).Contents (Elt F) → (⟨S8192x256, .f32⟩ : BufTy).Contents (Elt F)),
    binary main_v30 main_arg1 main_v31 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg2 main_v32 (broadcastInDim S1x256 ![1] bcast_S256_S1x256_1 : (⟨S256, .f32⟩ : BufTy).Contents (Elt F) → (⟨S1x256, .f32⟩ : BufTy).Contents (Elt F)),
    unary main_v32 main_v33 (broadcastInDim S8192x256 ![0, 1] bcast_S1x256_S8192x256_0_1 : (⟨S1x256, .f32⟩ : BufTy).Contents (Elt F) → (⟨S8192x256, .f32⟩ : BufTy).Contents (Elt F)),
    binary main_v31 main_v33 main_v34 (addf : (⟨S8192x256, .f32⟩ : BufTy).Contents (Elt F) → (⟨S8192x256, .f32⟩ : BufTy).Contents (Elt F) → (⟨S8192x256, .f32⟩ : BufTy).Contents (Elt F)),
    unary main_v7 main_v35 (broadcastInDim S8192x1 ![0] bcast_S8192_S8192x1_0 : (⟨S8192, .f32⟩ : BufTy).Contents (Elt F) → (⟨S8192x1, .f32⟩ : BufTy).Contents (Elt F)),
    unary main_v35 main_v36 (broadcastInDim S8192x256 ![0, 1] bcast_S8192x1_S8192x256_0_1 : (⟨S8192x1, .f32⟩ : BufTy).Contents (Elt F) → (⟨S8192x256, .f32⟩ : BufTy).Contents (Elt F)),
    binary main_arg0 main_v36 main_v37 (mulf : (⟨S8192x256, .f32⟩ : BufTy).Contents (Elt F) → (⟨S8192x256, .f32⟩ : BufTy).Contents (Elt F) → (⟨S8192x256, .f32⟩ : BufTy).Contents (Elt F)),
    nullary main_c_8 (constantI S_ 32 0#32),
    unary main_c_8 main_v38 (broadcastInDim S131072 ![] bcast_S_S131072 : (⟨S_, .i32⟩ : BufTy).Contents (Elt F) → (⟨S131072, .i32⟩ : BufTy).Contents (Elt F)),
    binary main_arg15 main_v38 main_v39 (cmpi .slt : (⟨S131072, .i32⟩ : BufTy).Contents (Elt F) → (⟨S131072, .i32⟩ : BufTy).Contents (Elt F) → (⟨S131072, .i1⟩ : BufTy).Contents (Elt F)),
    nullary main_c_9 (constantI S_ 32 8192#32),
    unary main_c_9 main_v40 (broadcastInDim S131072 ![] bcast_S_S131072 : (⟨S_, .i32⟩ : BufTy).Contents (Elt F) → (⟨S131072, .i32⟩ : BufTy).Contents (Elt F)),
    binary main_arg15 main_v40 main_v41 (addi : (⟨S131072, .i32⟩ : BufTy).Contents (Elt F) → (⟨S131072, .i32⟩ : BufTy).Contents (Elt F) → (⟨S131072, .i32⟩ : BufTy).Contents (Elt F)),
    ternary main_v39 main_v41 main_arg15 main_v42 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v42 main_v43 (broadcastInDim S131072x1 ![0] bcast_S131072_S131072x1_0 : (⟨S131072, .i32⟩ : BufTy).Contents (Elt F) → (⟨S131072x1, .i32⟩ : BufTy).Contents (Elt F)),
    binary main_v37 main_v43 main_v44 ((fun x i => Host.gather gather_S8192x256_S131072x1_S131072x256_1_0_n_n_0_1_1256 x i) : (⟨S8192x256, .f32⟩ : BufTy).Contents (Elt F) → (⟨S131072x1, .i32⟩ : BufTy).Contents (Elt F) → (⟨S131072x256, .f32⟩ : BufTy).Contents (Elt F)),
    nullary main_cst_10 (constant S_ .f32 0x00000000#32),
    unary main_cst_10 main_v45 (broadcastInDim S8192x256 ![] bcast_S_S8192x256 : (⟨S_, .f32⟩ : BufTy).Contents (Elt F) → (⟨S8192x256, .f32⟩ : BufTy).Contents (Elt F)),
    unary main_arg16 main_v46 (broadcastInDim S131072x1 ![0] bcast_S131072_S131072x1_0 : (⟨S131072, .i32⟩ : BufTy).Contents (Elt F) → (⟨S131072x1, .i32⟩ : BufTy).Contents (Elt F)),
    ternary main_v45 main_v46 main_v44 main_v47 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    unary main_v14 main_v48 (broadcastInDim S8192x1 ![0] bcast_S8192_S8192x1_0 : (⟨S8192, .f32⟩ : BufTy).Contents (Elt F) → (⟨S8192x1, .f32⟩ : BufTy).Contents (Elt F)),
    unary main_v48 main_v49 (broadcastInDim S8192x256 ![0, 1] bcast_S8192x1_S8192x256_0_1 : (⟨S8192x1, .f32⟩ : BufTy).Contents (Elt F) → (⟨S8192x256, .f32⟩ : BufTy).Contents (Elt F)),
    binary main_v47 main_v49 main_v50 (mulf : (⟨S8192x256, .f32⟩ : BufTy).Contents (Elt F) → (⟨S8192x256, .f32⟩ : BufTy).Contents (Elt F) → (⟨S8192x256, .f32⟩ : BufTy).Contents (Elt F)),
    binary main_v50 main_arg3 main_v51 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg4 main_v52 (broadcastInDim S1x256 ![1] bcast_S256_S1x256_1 : (⟨S256, .f32⟩ : BufTy).Contents (Elt F) → (⟨S1x256, .f32⟩ : BufTy).Contents (Elt F)),
    unary main_v52 main_v53 (broadcastInDim S8192x256 ![0, 1] bcast_S1x256_S8192x256_0_1 : (⟨S1x256, .f32⟩ : BufTy).Contents (Elt F) → (⟨S8192x256, .f32⟩ : BufTy).Contents (Elt F)),
    binary main_v51 main_v53 main_v54 (addf : (⟨S8192x256, .f32⟩ : BufTy).Contents (Elt F) → (⟨S8192x256, .f32⟩ : BufTy).Contents (Elt F) → (⟨S8192x256, .f32⟩ : BufTy).Contents (Elt F)),
    unary main_v7 main_v55 (broadcastInDim S8192x1 ![0] bcast_S8192_S8192x1_0 : (⟨S8192, .f32⟩ : BufTy).Contents (Elt F) → (⟨S8192x1, .f32⟩ : BufTy).Contents (Elt F)),
    unary main_v55 main_v56 (broadcastInDim S8192x256 ![0, 1] bcast_S8192x1_S8192x256_0_1 : (⟨S8192x1, .f32⟩ : BufTy).Contents (Elt F) → (⟨S8192x256, .f32⟩ : BufTy).Contents (Elt F)),
    binary main_arg0 main_v56 main_v57 (mulf : (⟨S8192x256, .f32⟩ : BufTy).Contents (Elt F) → (⟨S8192x256, .f32⟩ : BufTy).Contents (Elt F) → (⟨S8192x256, .f32⟩ : BufTy).Contents (Elt F)),
    nullary main_c_11 (constantI S_ 32 0#32),
    unary main_c_11 main_v58 (broadcastInDim S131072 ![] bcast_S_S131072 : (⟨S_, .i32⟩ : BufTy).Contents (Elt F) → (⟨S131072, .i32⟩ : BufTy).Contents (Elt F)),
    binary main_arg15 main_v58 main_v59 (cmpi .slt : (⟨S131072, .i32⟩ : BufTy).Contents (Elt F) → (⟨S131072, .i32⟩ : BufTy).Contents (Elt F) → (⟨S131072, .i1⟩ : BufTy).Contents (Elt F)),
    nullary main_c_12 (constantI S_ 32 8192#32),
    unary main_c_12 main_v60 (broadcastInDim S131072 ![] bcast_S_S131072 : (⟨S_, .i32⟩ : BufTy).Contents (Elt F) → (⟨S131072, .i32⟩ : BufTy).Contents (Elt F)),
    binary main_arg15 main_v60 main_v61 (addi : (⟨S131072, .i32⟩ : BufTy).Contents (Elt F) → (⟨S131072, .i32⟩ : BufTy).Contents (Elt F) → (⟨S131072, .i32⟩ : BufTy).Contents (Elt F)),
    ternary main_v59 main_v61 main_arg15 main_v62 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v62 main_v63 (broadcastInDim S131072x1 ![0] bcast_S131072_S131072x1_0 : (⟨S131072, .i32⟩ : BufTy).Contents (Elt F) → (⟨S131072x1, .i32⟩ : BufTy).Contents (Elt F)),
    binary main_v57 main_v63 main_v64 ((fun x i => Host.gather gather_S8192x256_S131072x1_S131072x256_1_0_n_n_0_1_1256 x i) : (⟨S8192x256, .f32⟩ : BufTy).Contents (Elt F) → (⟨S131072x1, .i32⟩ : BufTy).Contents (Elt F) → (⟨S131072x256, .f32⟩ : BufTy).Contents (Elt F)),
    nullary main_cst_13 (constant S_ .f32 0x00000000#32),
    unary main_cst_13 main_v65 (broadcastInDim S8192x256 ![] bcast_S_S8192x256 : (⟨S_, .f32⟩ : BufTy).Contents (Elt F) → (⟨S8192x256, .f32⟩ : BufTy).Contents (Elt F)),
    unary main_arg16 main_v66 (broadcastInDim S131072x1 ![0] bcast_S131072_S131072x1_0 : (⟨S131072, .i32⟩ : BufTy).Contents (Elt F) → (⟨S131072x1, .i32⟩ : BufTy).Contents (Elt F)),
    ternary main_v65 main_v66 main_v64 main_v67 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    unary main_v14 main_v68 (broadcastInDim S8192x1 ![0] bcast_S8192_S8192x1_0 : (⟨S8192, .f32⟩ : BufTy).Contents (Elt F) → (⟨S8192x1, .f32⟩ : BufTy).Contents (Elt F)),
    unary main_v68 main_v69 (broadcastInDim S8192x256 ![0, 1] bcast_S8192x1_S8192x256_0_1 : (⟨S8192x1, .f32⟩ : BufTy).Contents (Elt F) → (⟨S8192x256, .f32⟩ : BufTy).Contents (Elt F)),
    binary main_v67 main_v69 main_v70 (mulf : (⟨S8192x256, .f32⟩ : BufTy).Contents (Elt F) → (⟨S8192x256, .f32⟩ : BufTy).Contents (Elt F) → (⟨S8192x256, .f32⟩ : BufTy).Contents (Elt F)),
    binary main_v70 main_arg5 main_v71 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg6 main_v72 (broadcastInDim S1x256 ![1] bcast_S256_S1x256_1 : (⟨S256, .f32⟩ : BufTy).Contents (Elt F) → (⟨S1x256, .f32⟩ : BufTy).Contents (Elt F)),
    unary main_v72 main_v73 (broadcastInDim S8192x256 ![0, 1] bcast_S1x256_S8192x256_0_1 : (⟨S1x256, .f32⟩ : BufTy).Contents (Elt F) → (⟨S8192x256, .f32⟩ : BufTy).Contents (Elt F)),
    binary main_v71 main_v73 main_v74 (addf : (⟨S8192x256, .f32⟩ : BufTy).Contents (Elt F) → (⟨S8192x256, .f32⟩ : BufTy).Contents (Elt F) → (⟨S8192x256, .f32⟩ : BufTy).Contents (Elt F)),
    unary main_v54 main_v75 ((transpose S256x8192 [1, 0] · transposes_S8192x256_S256x8192_1_0) : (⟨S8192x256, .f32⟩ : BufTy).Contents (Elt F) → (⟨S256x8192, .f32⟩ : BufTy).Contents (Elt F)),
    binary main_v34 main_v75 main_v76 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_14 (constant S_ .f32 0x43800000#32),
    unary main_cst_14 main_v77 (Host.sqrt : (⟨S_, .f32⟩ : BufTy).Contents (Elt F) → (⟨S_, .f32⟩ : BufTy).Contents (Elt F)),
    unary main_v77 main_v78 (broadcastInDim S8192x8192 ![] bcast_S_S8192x8192 : (⟨S_, .f32⟩ : BufTy).Contents (Elt F) → (⟨S8192x8192, .f32⟩ : BufTy).Contents (Elt F)),
    binary main_v76 main_v78 main_v79 (Host.divf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0xFF800000#32),
    binary main_v79 main_cst_15 main_v80 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_16 (constant S_ .f32 0xFF800000#32),
    unary main_cst_16 main_v81 (broadcastInDim S8192 ![] bcast_S_S8192 : (⟨S_, .f32⟩ : BufTy).Contents (Elt F) → (⟨S8192, .f32⟩ : BufTy).Contents (Elt F)),
    binary main_v81 main_v80 main_v82 (maximumf : (⟨S8192, .f32⟩ : BufTy).Contents (Elt F) → (⟨S8192, .f32⟩ : BufTy).Contents (Elt F) → (⟨S8192, .f32⟩ : BufTy).Contents (Elt F)),
    unary main_v82 main_v83 (broadcastInDim S8192x1 ![0] bcast_S8192_S8192x1_0 : (⟨S8192, .f32⟩ : BufTy).Contents (Elt F) → (⟨S8192x1, .f32⟩ : BufTy).Contents (Elt F)),
    unary main_v83 main_v84 (broadcastInDim S8192x8192 ![0, 1] bcast_S8192x1_S8192x8192_0_1 : (⟨S8192x1, .f32⟩ : BufTy).Contents (Elt F) → (⟨S8192x8192, .f32⟩ : BufTy).Contents (Elt F)),
    binary main_v79 main_v84 main_v85 (subf : (⟨S8192x8192, .f32⟩ : BufTy).Contents (Elt F) → (⟨S8192x8192, .f32⟩ : BufTy).Contents (Elt F) → (⟨S8192x8192, .f32⟩ : BufTy).Contents (Elt F)),
    unary main_v85 main_v86 (Host.exp : (⟨S8192x8192, .f32⟩ : BufTy).Contents (Elt F) → (⟨S8192x8192, .f32⟩ : BufTy).Contents (Elt F)),
    nullary main_cst_17 (constant S_ .f32 0x00000000#32),
    binary main_v86 main_cst_17 main_v87 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v87 main_v88 (broadcastInDim S8192x1 ![0] bcast_S8192_S8192x1_0 : (⟨S8192, .f32⟩ : BufTy).Contents (Elt F) → (⟨S8192x1, .f32⟩ : BufTy).Contents (Elt F)),
    unary main_v88 main_v89 (broadcastInDim S8192x8192 ![0, 1] bcast_S8192x1_S8192x8192_0_1 : (⟨S8192x1, .f32⟩ : BufTy).Contents (Elt F) → (⟨S8192x8192, .f32⟩ : BufTy).Contents (Elt F)),
    binary main_v86 main_v89 main_v90 (Host.divf : (⟨S8192x8192, .f32⟩ : BufTy).Contents (Elt F) → (⟨S8192x8192, .f32⟩ : BufTy).Contents (Elt F) → (⟨S8192x8192, .f32⟩ : BufTy).Contents (Elt F)),
    binary main_v90 main_v74 main_v91 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_v7 main_v92 (broadcastInDim S8192x1 ![0] bcast_S8192_S8192x1_0 : (⟨S8192, .f32⟩ : BufTy).Contents (Elt F) → (⟨S8192x1, .f32⟩ : BufTy).Contents (Elt F)),
    unary main_v92 main_v93 (broadcastInDim S8192x256 ![0, 1] bcast_S8192x1_S8192x256_0_1 : (⟨S8192x1, .f32⟩ : BufTy).Contents (Elt F) → (⟨S8192x256, .f32⟩ : BufTy).Contents (Elt F)),
    binary main_v91 main_v93 main_v94 (mulf : (⟨S8192x256, .f32⟩ : BufTy).Contents (Elt F) → (⟨S8192x256, .f32⟩ : BufTy).Contents (Elt F) → (⟨S8192x256, .f32⟩ : BufTy).Contents (Elt F)),
    nullary main_c_18 (constantI S_ 32 0#32),
    unary main_c_18 main_v95 (broadcastInDim S131072 ![] bcast_S_S131072 : (⟨S_, .i32⟩ : BufTy).Contents (Elt F) → (⟨S131072, .i32⟩ : BufTy).Contents (Elt F)),
    binary main_arg15 main_v95 main_v96 (cmpi .slt : (⟨S131072, .i32⟩ : BufTy).Contents (Elt F) → (⟨S131072, .i32⟩ : BufTy).Contents (Elt F) → (⟨S131072, .i1⟩ : BufTy).Contents (Elt F)),
    nullary main_c_19 (constantI S_ 32 8192#32),
    unary main_c_19 main_v97 (broadcastInDim S131072 ![] bcast_S_S131072 : (⟨S_, .i32⟩ : BufTy).Contents (Elt F) → (⟨S131072, .i32⟩ : BufTy).Contents (Elt F)),
    binary main_arg15 main_v97 main_v98 (addi : (⟨S131072, .i32⟩ : BufTy).Contents (Elt F) → (⟨S131072, .i32⟩ : BufTy).Contents (Elt F) → (⟨S131072, .i32⟩ : BufTy).Contents (Elt F)),
    ternary main_v96 main_v98 main_arg15 main_v99 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v99 main_v100 (broadcastInDim S131072x1 ![0] bcast_S131072_S131072x1_0 : (⟨S131072, .i32⟩ : BufTy).Contents (Elt F) → (⟨S131072x1, .i32⟩ : BufTy).Contents (Elt F)),
    binary main_v94 main_v100 main_v101 ((fun x i => Host.gather gather_S8192x256_S131072x1_S131072x256_1_0_n_n_0_1_1256 x i) : (⟨S8192x256, .f32⟩ : BufTy).Contents (Elt F) → (⟨S131072x1, .i32⟩ : BufTy).Contents (Elt F) → (⟨S131072x256, .f32⟩ : BufTy).Contents (Elt F)),
    nullary main_cst_20 (constant S_ .f32 0x00000000#32),
    unary main_cst_20 main_v102 (broadcastInDim S8192x256 ![] bcast_S_S8192x256 : (⟨S_, .f32⟩ : BufTy).Contents (Elt F) → (⟨S8192x256, .f32⟩ : BufTy).Contents (Elt F)),
    unary main_arg16 main_v103 (broadcastInDim S131072x1 ![0] bcast_S131072_S131072x1_0 : (⟨S131072, .i32⟩ : BufTy).Contents (Elt F) → (⟨S131072x1, .i32⟩ : BufTy).Contents (Elt F)),
    ternary main_v102 main_v103 main_v101 main_v104 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    unary main_v14 main_v105 (broadcastInDim S8192x1 ![0] bcast_S8192_S8192x1_0 : (⟨S8192, .f32⟩ : BufTy).Contents (Elt F) → (⟨S8192x1, .f32⟩ : BufTy).Contents (Elt F)),
    unary main_v105 main_v106 (broadcastInDim S8192x256 ![0, 1] bcast_S8192x1_S8192x256_0_1 : (⟨S8192x1, .f32⟩ : BufTy).Contents (Elt F) → (⟨S8192x256, .f32⟩ : BufTy).Contents (Elt F)),
    binary main_v104 main_v106 main_v107 (mulf : (⟨S8192x256, .f32⟩ : BufTy).Contents (Elt F) → (⟨S8192x256, .f32⟩ : BufTy).Contents (Elt F) → (⟨S8192x256, .f32⟩ : BufTy).Contents (Elt F)),
    binary main_v107 main_arg7 main_v108 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg8 main_v109 (broadcastInDim S1x256 ![1] bcast_S256_S1x256_1 : (⟨S256, .f32⟩ : BufTy).Contents (Elt F) → (⟨S1x256, .f32⟩ : BufTy).Contents (Elt F)),
    unary main_v109 main_v110 (broadcastInDim S8192x256 ![0, 1] bcast_S1x256_S8192x256_0_1 : (⟨S1x256, .f32⟩ : BufTy).Contents (Elt F) → (⟨S8192x256, .f32⟩ : BufTy).Contents (Elt F)),
    binary main_v108 main_v110 main_v111 (addf : (⟨S8192x256, .f32⟩ : BufTy).Contents (Elt F) → (⟨S8192x256, .f32⟩ : BufTy).Contents (Elt F) → (⟨S8192x256, .f32⟩ : BufTy).Contents (Elt F)),
    nullary main_cst_21 (constant S_ .f32 0x00000000#32),
    binary main_v111 main_cst_21 main_v112 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v112 main_v113 (broadcastInDim S8192x1 ![0] bcast_S8192_S8192x1_0 : (⟨S8192, .f32⟩ : BufTy).Contents (Elt F) → (⟨S8192x1, .f32⟩ : BufTy).Contents (Elt F)),
    nullary main_cst_22 (constant S_ .f32 0x43800000#32),
    unary main_cst_22 main_v114 (broadcastInDim S8192x1 ![] bcast_S_S8192x1 : (⟨S_, .f32⟩ : BufTy).Contents (Elt F) → (⟨S8192x1, .f32⟩ : BufTy).Contents (Elt F)),
    binary main_v113 main_v114 main_v115 (Host.divf : (⟨S8192x1, .f32⟩ : BufTy).Contents (Elt F) → (⟨S8192x1, .f32⟩ : BufTy).Contents (Elt F) → (⟨S8192x1, .f32⟩ : BufTy).Contents (Elt F)),
    unary main_v115 main_v116 (broadcastInDim S8192x256 ![0, 1] bcast_S8192x1_S8192x256_0_1 : (⟨S8192x1, .f32⟩ : BufTy).Contents (Elt F) → (⟨S8192x256, .f32⟩ : BufTy).Contents (Elt F)),
    binary main_v111 main_v116 main_v117 (subf : (⟨S8192x256, .f32⟩ : BufTy).Contents (Elt F) → (⟨S8192x256, .f32⟩ : BufTy).Contents (Elt F) → (⟨S8192x256, .f32⟩ : BufTy).Contents (Elt F)),
    binary main_v117 main_v117 main_v118 (mulf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x00000000#32),
    binary main_v118 main_cst_23 main_v119 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v119 main_v120 (broadcastInDim S8192x1 ![0] bcast_S8192_S8192x1_0 : (⟨S8192, .f32⟩ : BufTy).Contents (Elt F) → (⟨S8192x1, .f32⟩ : BufTy).Contents (Elt F)),
    nullary main_cst_24 (constant S_ .f32 0x43800000#32),
    unary main_cst_24 main_v121 (broadcastInDim S8192x1 ![] bcast_S_S8192x1 : (⟨S_, .f32⟩ : BufTy).Contents (Elt F) → (⟨S8192x1, .f32⟩ : BufTy).Contents (Elt F)),
    binary main_v120 main_v121 main_v122 (Host.divf : (⟨S8192x1, .f32⟩ : BufTy).Contents (Elt F) → (⟨S8192x1, .f32⟩ : BufTy).Contents (Elt F) → (⟨S8192x1, .f32⟩ : BufTy).Contents (Elt F)),
    unary main_v115 main_v123 (broadcastInDim S8192x256 ![0, 1] bcast_S8192x1_S8192x256_0_1 : (⟨S8192x1, .f32⟩ : BufTy).Contents (Elt F) → (⟨S8192x256, .f32⟩ : BufTy).Contents (Elt F)),
    binary main_v111 main_v123 main_v124 (subf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x3727C5AC#32),
    unary main_cst_25 main_v125 (broadcastInDim S8192x1 ![] bcast_S_S8192x1 : (⟨S_, .f32⟩ : BufTy).Contents (Elt F) → (⟨S8192x1, .f32⟩ : BufTy).Contents (Elt F)),
    binary main_v122 main_v125 main_v126 (addf : (⟨S8192x1, .f32⟩ : BufTy).Contents (Elt F) → (⟨S8192x1, .f32⟩ : BufTy).Contents (Elt F) → (⟨S8192x1, .f32⟩ : BufTy).Contents (Elt F)),
    unary main_v126 main_v127 (Host.rsqrt : (⟨S8192x1, .f32⟩ : BufTy).Contents (Elt F) → (⟨S8192x1, .f32⟩ : BufTy).Contents (Elt F)),
    unary main_v127 main_v128 (broadcastInDim S8192x256 ![0, 1] bcast_S8192x1_S8192x256_0_1 : (⟨S8192x1, .f32⟩ : BufTy).Contents (Elt F) → (⟨S8192x256, .f32⟩ : BufTy).Contents (Elt F)),
    binary main_v124 main_v128 main_v129 (mulf : (⟨S8192x256, .f32⟩ : BufTy).Contents (Elt F) → (⟨S8192x256, .f32⟩ : BufTy).Contents (Elt F) → (⟨S8192x256, .f32⟩ : BufTy).Contents (Elt F)),
    unary main_arg13 main_v130 (broadcastInDim S1x256 ![1] bcast_S256_S1x256_1 : (⟨S256, .f32⟩ : BufTy).Contents (Elt F) → (⟨S1x256, .f32⟩ : BufTy).Contents (Elt F)),
    unary main_v130 main_v131 (broadcastInDim S8192x256 ![0, 1] bcast_S1x256_S8192x256_0_1 : (⟨S1x256, .f32⟩ : BufTy).Contents (Elt F) → (⟨S8192x256, .f32⟩ : BufTy).Contents (Elt F)),
    binary main_v129 main_v131 main_v132 (mulf : (⟨S8192x256, .f32⟩ : BufTy).Contents (Elt F) → (⟨S8192x256, .f32⟩ : BufTy).Contents (Elt F) → (⟨S8192x256, .f32⟩ : BufTy).Contents (Elt F)),
    unary main_arg14 main_v133 (broadcastInDim S1x256 ![1] bcast_S256_S1x256_1 : (⟨S256, .f32⟩ : BufTy).Contents (Elt F) → (⟨S1x256, .f32⟩ : BufTy).Contents (Elt F)),
    unary main_v133 main_v134 (broadcastInDim S8192x256 ![0, 1] bcast_S1x256_S8192x256_0_1 : (⟨S1x256, .f32⟩ : BufTy).Contents (Elt F) → (⟨S8192x256, .f32⟩ : BufTy).Contents (Elt F)),
    binary main_v132 main_v134 main_v135 (addf : (⟨S8192x256, .f32⟩ : BufTy).Contents (Elt F) → (⟨S8192x256, .f32⟩ : BufTy).Contents (Elt F) → (⟨S8192x256, .f32⟩ : BufTy).Contents (Elt F)),
    binary main_v135 main_arg0 main_v136 (addf : (⟨S8192x256, .f32⟩ : BufTy).Contents (Elt F) → (⟨S8192x256, .f32⟩ : BufTy).Contents (Elt F) → (⟨S8192x256, .f32⟩ : BufTy).Contents (Elt F)),
    unary main_v7 main_v137 (broadcastInDim S8192x1 ![0] bcast_S8192_S8192x1_0 : (⟨S8192, .f32⟩ : BufTy).Contents (Elt F) → (⟨S8192x1, .f32⟩ : BufTy).Contents (Elt F)),
    unary main_v137 main_v138 (broadcastInDim S8192x256 ![0, 1] bcast_S8192x1_S8192x256_0_1 : (⟨S8192x1, .f32⟩ : BufTy).Contents (Elt F) → (⟨S8192x256, .f32⟩ : BufTy).Contents (Elt F)),
    binary main_v136 main_v138 main_v139 (mulf : (⟨S8192x256, .f32⟩ : BufTy).Contents (Elt F) → (⟨S8192x256, .f32⟩ : BufTy).Contents (Elt F) → (⟨S8192x256, .f32⟩ : BufTy).Contents (Elt F)),
    nullary main_c_26 (constantI S_ 32 0#32),
    unary main_c_26 main_v140 (broadcastInDim S131072 ![] bcast_S_S131072 : (⟨S_, .i32⟩ : BufTy).Contents (Elt F) → (⟨S131072, .i32⟩ : BufTy).Contents (Elt F)),
    binary main_arg15 main_v140 main_v141 (cmpi .slt : (⟨S131072, .i32⟩ : BufTy).Contents (Elt F) → (⟨S131072, .i32⟩ : BufTy).Contents (Elt F) → (⟨S131072, .i1⟩ : BufTy).Contents (Elt F)),
    nullary main_c_27 (constantI S_ 32 8192#32),
    unary main_c_27 main_v142 (broadcastInDim S131072 ![] bcast_S_S131072 : (⟨S_, .i32⟩ : BufTy).Contents (Elt F) → (⟨S131072, .i32⟩ : BufTy).Contents (Elt F)),
    binary main_arg15 main_v142 main_v143 (addi : (⟨S131072, .i32⟩ : BufTy).Contents (Elt F) → (⟨S131072, .i32⟩ : BufTy).Contents (Elt F) → (⟨S131072, .i32⟩ : BufTy).Contents (Elt F)),
    ternary main_v141 main_v143 main_arg15 main_v144 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v144 main_v145 (broadcastInDim S131072x1 ![0] bcast_S131072_S131072x1_0 : (⟨S131072, .i32⟩ : BufTy).Contents (Elt F) → (⟨S131072x1, .i32⟩ : BufTy).Contents (Elt F)),
    binary main_v139 main_v145 main_v146 ((fun x i => Host.gather gather_S8192x256_S131072x1_S131072x256_1_0_n_n_0_1_1256 x i) : (⟨S8192x256, .f32⟩ : BufTy).Contents (Elt F) → (⟨S131072x1, .i32⟩ : BufTy).Contents (Elt F) → (⟨S131072x256, .f32⟩ : BufTy).Contents (Elt F)),
    nullary main_cst_28 (constant S_ .f32 0x00000000#32),
    unary main_cst_28 main_v147 (broadcastInDim S8192x256 ![] bcast_S_S8192x256 : (⟨S_, .f32⟩ : BufTy).Contents (Elt F) → (⟨S8192x256, .f32⟩ : BufTy).Contents (Elt F)),
    unary main_arg16 main_v148 (broadcastInDim S131072x1 ![0] bcast_S131072_S131072x1_0 : (⟨S131072, .i32⟩ : BufTy).Contents (Elt F) → (⟨S131072x1, .i32⟩ : BufTy).Contents (Elt F)),
    ternary main_v147 main_v148 main_v146 main_v149 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    unary main_v14 main_v150 (broadcastInDim S8192x1 ![0] bcast_S8192_S8192x1_0 : (⟨S8192, .f32⟩ : BufTy).Contents (Elt F) → (⟨S8192x1, .f32⟩ : BufTy).Contents (Elt F)),
    unary main_v150 main_v151 (broadcastInDim S8192x256 ![0, 1] bcast_S8192x1_S8192x256_0_1 : (⟨S8192x1, .f32⟩ : BufTy).Contents (Elt F) → (⟨S8192x256, .f32⟩ : BufTy).Contents (Elt F)),
    binary main_v149 main_v151 main_v152 (mulf : (⟨S8192x256, .f32⟩ : BufTy).Contents (Elt F) → (⟨S8192x256, .f32⟩ : BufTy).Contents (Elt F) → (⟨S8192x256, .f32⟩ : BufTy).Contents (Elt F)),
    binary main_v152 main_arg9 main_v153 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    unary main_arg10 main_v154 (broadcastInDim S1x1024 ![1] bcast_S1024_S1x1024_1 : (⟨S1024, .f32⟩ : BufTy).Contents (Elt F) → (⟨S1x1024, .f32⟩ : BufTy).Contents (Elt F)),
    unary main_v154 main_v155 (broadcastInDim S8192x1024 ![0, 1] bcast_S1x1024_S8192x1024_0_1 : (⟨S1x1024, .f32⟩ : BufTy).Contents (Elt F) → (⟨S8192x1024, .f32⟩ : BufTy).Contents (Elt F)),
    binary main_v153 main_v155 main_v156 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x1024, .f32⟩) main_call0_v0) (broadcastInDim S8192x1024 ![] bcast_S_S8192x1024),
    TRef.binary (TRef.of (T := ⟨S8192x1024, .f32⟩) main_v156) (TRef.of (T := ⟨S8192x1024, .f32⟩) main_call0_v0) (TRef.of (T := ⟨S8192x1024, .f32⟩) main_v157) maximumf,
    unary main_v7 main_v158 (broadcastInDim S8192x1 ![0] bcast_S8192_S8192x1_0 : (⟨S8192, .f32⟩ : BufTy).Contents (Elt F) → (⟨S8192x1, .f32⟩ : BufTy).Contents (Elt F)),
    unary main_v158 main_v159 (broadcastInDim S8192x1024 ![0, 1] bcast_S8192x1_S8192x1024_0_1 : (⟨S8192x1, .f32⟩ : BufTy).Contents (Elt F) → (⟨S8192x1024, .f32⟩ : BufTy).Contents (Elt F)),
    binary main_v157 main_v159 main_v160 (mulf : (⟨S8192x1024, .f32⟩ : BufTy).Contents (Elt F) → (⟨S8192x1024, .f32⟩ : BufTy).Contents (Elt F) → (⟨S8192x1024, .f32⟩ : BufTy).Contents (Elt F)),
    nullary main_c_29 (constantI S_ 32 0#32),
    unary main_c_29 main_v161 (broadcastInDim S131072 ![] bcast_S_S131072 : (⟨S_, .i32⟩ : BufTy).Contents (Elt F) → (⟨S131072, .i32⟩ : BufTy).Contents (Elt F)),
    binary main_arg15 main_v161 main_v162 (cmpi .slt : (⟨S131072, .i32⟩ : BufTy).Contents (Elt F) → (⟨S131072, .i32⟩ : BufTy).Contents (Elt F) → (⟨S131072, .i1⟩ : BufTy).Contents (Elt F)),
    nullary main_c_30 (constantI S_ 32 8192#32),
    unary main_c_30 main_v163 (broadcastInDim S131072 ![] bcast_S_S131072 : (⟨S_, .i32⟩ : BufTy).Contents (Elt F) → (⟨S131072, .i32⟩ : BufTy).Contents (Elt F)),
    binary main_arg15 main_v163 main_v164 (addi : (⟨S131072, .i32⟩ : BufTy).Contents (Elt F) → (⟨S131072, .i32⟩ : BufTy).Contents (Elt F) → (⟨S131072, .i32⟩ : BufTy).Contents (Elt F)),
    ternary main_v162 main_v164 main_arg15 main_v165 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v165 main_v166 (broadcastInDim S131072x1 ![0] bcast_S131072_S131072x1_0 : (⟨S131072, .i32⟩ : BufTy).Contents (Elt F) → (⟨S131072x1, .i32⟩ : BufTy).Contents (Elt F)),
    binary main_v160 main_v166 main_v167 ((fun x i => Host.gather gather_S8192x1024_S131072x1_S131072x1024_1_0_n_n_0_1_11024 x i) : (⟨S8192x1024, .f32⟩ : BufTy).Contents (Elt F) → (⟨S131072x1, .i32⟩ : BufTy).Contents (Elt F) → (⟨S131072x1024, .f32⟩ : BufTy).Contents (Elt F)),
    nullary main_cst_31 (constant S_ .f32 0x00000000#32),
    unary main_cst_31 main_v168 (broadcastInDim S8192x1024 ![] bcast_S_S8192x1024 : (⟨S_, .f32⟩ : BufTy).Contents (Elt F) → (⟨S8192x1024, .f32⟩ : BufTy).Contents (Elt F)),
    unary main_arg16 main_v169 (broadcastInDim S131072x1 ![0] bcast_S131072_S131072x1_0 : (⟨S131072, .i32⟩ : BufTy).Contents (Elt F) → (⟨S131072x1, .i32⟩ : BufTy).Contents (Elt F)),
    ternary main_v168 main_v169 main_v167 main_v170 ((fun x i u => Host.scatterAdd scatter_S8192x1024_S131072x1_S131072x1024_1_0_0_1 x i u) : (⟨S8192x1024, .f32⟩ : BufTy).Contents (Elt F) → (⟨S131072x1, .i32⟩ : BufTy).Contents (Elt F) → (⟨S131072x1024, .f32⟩ : BufTy).Contents (Elt F) → (⟨S8192x1024, .f32⟩ : BufTy).Contents (Elt F)),
    unary main_v14 main_v171 (broadcastInDim S8192x1 ![0] bcast_S8192_S8192x1_0 : (⟨S8192, .f32⟩ : BufTy).Contents (Elt F) → (⟨S8192x1, .f32⟩ : BufTy).Contents (Elt F)),
    unary main_v171 main_v172 (broadcastInDim S8192x1024 ![0, 1] bcast_S8192x1_S8192x1024_0_1 : (⟨S8192x1, .f32⟩ : BufTy).Contents (Elt F) → (⟨S8192x1024, .f32⟩ : BufTy).Contents (Elt F)),
    binary main_v170 main_v172 main_v173 (mulf : (⟨S8192x1024, .f32⟩ : BufTy).Contents (Elt F) → (⟨S8192x1024, .f32⟩ : BufTy).Contents (Elt F) → (⟨S8192x1024, .f32⟩ : BufTy).Contents (Elt F)),
    binary main_v173 main_arg11 main_v174 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    unary main_arg12 main_v175 (broadcastInDim S1x256 ![1] bcast_S256_S1x256_1 : (⟨S256, .f32⟩ : BufTy).Contents (Elt F) → (⟨S1x256, .f32⟩ : BufTy).Contents (Elt F)),
    unary main_v175 main_v176 (broadcastInDim S8192x256 ![0, 1] bcast_S1x256_S8192x256_0_1 : (⟨S1x256, .f32⟩ : BufTy).Contents (Elt F) → (⟨S8192x256, .f32⟩ : BufTy).Contents (Elt F)),
    binary main_v174 main_v176 main_v177 (addf : (⟨S8192x256, .f32⟩ : BufTy).Contents (Elt F) → (⟨S8192x256, .f32⟩ : BufTy).Contents (Elt F) → (⟨S8192x256, .f32⟩ : BufTy).Contents (Elt F)),
    nullary main_cst_32 (constant S_ .f32 0x00000000#32),
    binary main_v177 main_cst_32 main_v178 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v178 main_v179 (broadcastInDim S8192x1 ![0] bcast_S8192_S8192x1_0 : (⟨S8192, .f32⟩ : BufTy).Contents (Elt F) → (⟨S8192x1, .f32⟩ : BufTy).Contents (Elt F)),
    nullary main_cst_33 (constant S_ .f32 0x43800000#32),
    unary main_cst_33 main_v180 (broadcastInDim S8192x1 ![] bcast_S_S8192x1 : (⟨S_, .f32⟩ : BufTy).Contents (Elt F) → (⟨S8192x1, .f32⟩ : BufTy).Contents (Elt F)),
    binary main_v179 main_v180 main_v181 (Host.divf : (⟨S8192x1, .f32⟩ : BufTy).Contents (Elt F) → (⟨S8192x1, .f32⟩ : BufTy).Contents (Elt F) → (⟨S8192x1, .f32⟩ : BufTy).Contents (Elt F)),
    unary main_v181 main_v182 (broadcastInDim S8192x256 ![0, 1] bcast_S8192x1_S8192x256_0_1 : (⟨S8192x1, .f32⟩ : BufTy).Contents (Elt F) → (⟨S8192x256, .f32⟩ : BufTy).Contents (Elt F)),
    binary main_v177 main_v182 main_v183 (subf : (⟨S8192x256, .f32⟩ : BufTy).Contents (Elt F) → (⟨S8192x256, .f32⟩ : BufTy).Contents (Elt F) → (⟨S8192x256, .f32⟩ : BufTy).Contents (Elt F)),
    binary main_v183 main_v183 main_v184 (mulf : (⟨S8192x256, .f32⟩ : BufTy).Contents (Elt F) → (⟨S8192x256, .f32⟩ : BufTy).Contents (Elt F) → (⟨S8192x256, .f32⟩ : BufTy).Contents (Elt F)),
    nullary main_cst_34 (constant S_ .f32 0x00000000#32),
    binary main_v184 main_cst_34 main_v185 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v185 main_v186 (broadcastInDim S8192x1 ![0] bcast_S8192_S8192x1_0 : (⟨S8192, .f32⟩ : BufTy).Contents (Elt F) → (⟨S8192x1, .f32⟩ : BufTy).Contents (Elt F)),
    nullary main_cst_35 (constant S_ .f32 0x43800000#32),
    unary main_cst_35 main_v187 (broadcastInDim S8192x1 ![] bcast_S_S8192x1 : (⟨S_, .f32⟩ : BufTy).Contents (Elt F) → (⟨S8192x1, .f32⟩ : BufTy).Contents (Elt F)),
    binary main_v186 main_v187 main_v188 (Host.divf : (⟨S8192x1, .f32⟩ : BufTy).Contents (Elt F) → (⟨S8192x1, .f32⟩ : BufTy).Contents (Elt F) → (⟨S8192x1, .f32⟩ : BufTy).Contents (Elt F)),
    unary main_v181 main_v189 (broadcastInDim S8192x256 ![0, 1] bcast_S8192x1_S8192x256_0_1 : (⟨S8192x1, .f32⟩ : BufTy).Contents (Elt F) → (⟨S8192x256, .f32⟩ : BufTy).Contents (Elt F)),
    binary main_v177 main_v189 main_v190 (subf : (⟨S8192x256, .f32⟩ : BufTy).Contents (Elt F) → (⟨S8192x256, .f32⟩ : BufTy).Contents (Elt F) → (⟨S8192x256, .f32⟩ : BufTy).Contents (Elt F)),
    nullary main_cst_36 (constant S_ .f32 0x3727C5AC#32),
    unary main_cst_36 main_v191 (broadcastInDim S8192x1 ![] bcast_S_S8192x1 : (⟨S_, .f32⟩ : BufTy).Contents (Elt F) → (⟨S8192x1, .f32⟩ : BufTy).Contents (Elt F)),
    binary main_v188 main_v191 main_v192 (addf : (⟨S8192x1, .f32⟩ : BufTy).Contents (Elt F) → (⟨S8192x1, .f32⟩ : BufTy).Contents (Elt F) → (⟨S8192x1, .f32⟩ : BufTy).Contents (Elt F)),
    unary main_v192 main_v193 (Host.rsqrt : (⟨S8192x1, .f32⟩ : BufTy).Contents (Elt F) → (⟨S8192x1, .f32⟩ : BufTy).Contents (Elt F)),
    unary main_v193 main_v194 (broadcastInDim S8192x256 ![0, 1] bcast_S8192x1_S8192x256_0_1 : (⟨S8192x1, .f32⟩ : BufTy).Contents (Elt F) → (⟨S8192x256, .f32⟩ : BufTy).Contents (Elt F)),
    binary main_v190 main_v194 main_v195 (mulf : (⟨S8192x256, .f32⟩ : BufTy).Contents (Elt F) → (⟨S8192x256, .f32⟩ : BufTy).Contents (Elt F) → (⟨S8192x256, .f32⟩ : BufTy).Contents (Elt F)),
    unary main_arg13 main_v196 (broadcastInDim S1x256 ![1] bcast_S256_S1x256_1 : (⟨S256, .f32⟩ : BufTy).Contents (Elt F) → (⟨S1x256, .f32⟩ : BufTy).Contents (Elt F)),
    unary main_v196 main_v197 (broadcastInDim S8192x256 ![0, 1] bcast_S1x256_S8192x256_0_1 : (⟨S1x256, .f32⟩ : BufTy).Contents (Elt F) → (⟨S8192x256, .f32⟩ : BufTy).Contents (Elt F)),
    binary main_v195 main_v197 main_v198 (mulf : (⟨S8192x256, .f32⟩ : BufTy).Contents (Elt F) → (⟨S8192x256, .f32⟩ : BufTy).Contents (Elt F) → (⟨S8192x256, .f32⟩ : BufTy).Contents (Elt F)),
    unary main_arg14 main_v199 (broadcastInDim S1x256 ![1] bcast_S256_S1x256_1 : (⟨S256, .f32⟩ : BufTy).Contents (Elt F) → (⟨S1x256, .f32⟩ : BufTy).Contents (Elt F)),
    unary main_v199 main_v200 (broadcastInDim S8192x256 ![0, 1] bcast_S1x256_S8192x256_0_1 : (⟨S1x256, .f32⟩ : BufTy).Contents (Elt F) → (⟨S8192x256, .f32⟩ : BufTy).Contents (Elt F)),
    binary main_v198 main_v200 main_v201 (addf : (⟨S8192x256, .f32⟩ : BufTy).Contents (Elt F) → (⟨S8192x256, .f32⟩ : BufTy).Contents (Elt F) → (⟨S8192x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.HandRun

end
-- ==== Proof.RefRun.lean ====
/-
  The reference program's results.

  Read at the two result buffers, what the 243 operations compute from the launch memory is
  the layer written with the building blocks of the module on layers: the attention weights of
  the projected, aggregated input, and the normalised feed-forward output.
-/
import proofs.«122702_j23356032156211_2_alg».proof.Proof.RefOps
import proofs.«122702_j23356032156211_2_alg».proof.Proof.Layers

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The contents of a TensorCore buffer of core `c` in the launch memory. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

open Cert.ReferenceIdeal.Layers in
/-- The reference's first result as the layer of the launch arguments. -/
def out0 (m : (ℓ : Loc nD τ sig) → Buf (Elt Ideal) ℓ) (c : Dev nD) : Buf (Elt Ideal) ((c.tc : Thread nD τ).loc main_v201) :=
  outRef (at_ m c main_arg0) (at_ m c main_arg7) (at_ m c main_arg8) (at_ m c main_arg9) (at_ m c main_arg10)
    (at_ m c main_arg11) (at_ m c main_arg12) (at_ m c main_arg13) (at_ m c main_arg14) (at_ m c main_arg15) (at_ m c main_arg16)
    (deg (at_ m c main_arg15)) (deg (at_ m c main_arg16))
    (attnVals (at_ m c main_arg0) (at_ m c main_arg1) (at_ m c main_arg2) (at_ m c main_arg3) (at_ m c main_arg4)
      (at_ m c main_arg5) (at_ m c main_arg6) (at_ m c main_arg15) (at_ m c main_arg16))

open Cert.ReferenceIdeal.Layers in
/-- The reference's second result: the attention weights. -/
def out1 (m : (ℓ : Loc nD τ sig) → Buf (Elt Ideal) ℓ) (c : Dev nD) : Buf (Elt Ideal) ((c.tc : Thread nD τ).loc main_v90) :=
  attnOut (at_ m c main_arg0) (at_ m c main_arg1) (at_ m c main_arg2) (at_ m c main_arg3) (at_ m c main_arg4)
    (at_ m c main_arg15) (at_ m c main_arg16)

set_option maxHeartbeats 100000000 in
set_option maxRecDepth 16384 in
/-- The weights buffer after the operations. -/
theorem after_v90 (m : (ℓ : Loc nD τ sig) → Buf (Elt Ideal) ℓ) (c : Dev nD) :
    after (ops (F := Ideal)) (launchContents m c) (Proc.devRef .tc main_v90) = out1 m c := by
  after_results_simp
  rfl

set_option maxHeartbeats 100000000 in
set_option maxRecDepth 16384 in
/-- The output buffer after the operations. -/
theorem after_v201 (m : (ℓ : Loc nD τ sig) → Buf (Elt Ideal) ℓ) (c : Dev nD) :
    after (ops (F := Ideal)) (launchContents m c) (Proc.devRef .tc main_v201) = out0 m c := by
  after_results_simp
  rfl

end Cert.ReferenceIdeal.HandRun

end
-- ==== Proof.RefKept.lean ====
/-
  The reference's argument arrays are untouched. Each of the reference's 243 host operations
  writes exactly one buffer, its result; the results are listed once, in order, and the list
  is lined up with the operations entry by entry. A buffer whose reference is not in the list
  is written by no operation, so after the whole program it holds what it held at launch. None
  of the seventeen argument arrays is in the list.
-/
import proofs.«122702_j23356032156211_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Operations lined up with the references they write -/

/-- Operations lined up, entry by entry, with references such that each operation writes exactly
    the buffer of its reference: then every operation writes within the list of references. -/
theorem writes_sub_of_forall₂ {l : List (HloOp τ sig (Elt F))} {W : List (Ref sig .tc)}
    (h : List.Forall₂ (fun op y => op.writes = {Proc.devRef (τ := τ) .tc y}) l W) :
    ∀ op ∈ l, op.writes ⊆ (W.map (Proc.devRef (τ := τ) .tc)).toFinset := by
  induction h with
  | nil => intro op hop; cases hop
  | @cons a y l' W' hay _ ih =>
    intro op hop
    rcases List.mem_cons.mp hop with rfl | hop
    · rw [hay, Finset.singleton_subset_iff, List.mem_toFinset]
      exact List.mem_map.mpr ⟨y, List.mem_cons_self, rfl⟩
    · intro b hb
      obtain ⟨z, hz, he⟩ := List.mem_map.mp (List.mem_toFinset.mp (ih op hop hb))
      exact List.mem_toFinset.mpr (List.mem_map.mpr ⟨z, List.mem_cons_of_mem _ hz, he⟩)

/-- A reference outside a list that holds everything an operation writes is not written by it:
    distinct references are distinct device buffers. -/
theorem not_mem_writes_of_sub {W : List (Ref sig .tc)} {op : HloOp τ sig (Elt F)} {r : Ref sig .tc}
    (hW : op.writes ⊆ (W.map (Proc.devRef (τ := τ) .tc)).toFinset) (hr : r ∉ W) :
    Proc.devRef .tc r ∉ op.writes := fun hb => by
  obtain ⟨y, hy, he⟩ := List.mem_map.mp (List.mem_toFinset.mp (hW hb))
  exact hr (Proc.devRef_injective _ he ▸ hy)

/-! ## The reference's result buffers -/

/-- The result buffers of the reference's 243 operations, in order. -/
abbrev refW : List (Ref sig .tc) := [
    main_cst, main_v0, main_cst_0, main_v1, main_v2, main_v3, main_cst_1, main_v4, main_v5,
    main_cst_2, main_v6, main_v7, main_cst_3, main_v8, main_v9, main_v10, main_cst_4, main_v11,
    main_v12, main_cst_5, main_v13, main_v14, main_v15, main_v16, main_v17, main_c, main_v18,
    main_v19, main_c_6, main_v20, main_v21, main_v22, main_v23, main_v24, main_cst_7, main_v25,
    main_v26, main_v27, main_v28, main_v29, main_v30, main_v31, main_v32, main_v33, main_v34,
    main_v35, main_v36, main_v37, main_c_8, main_v38, main_v39, main_c_9, main_v40, main_v41,
    main_v42, main_v43, main_v44, main_cst_10, main_v45, main_v46, main_v47, main_v48, main_v49,
    main_v50, main_v51, main_v52, main_v53, main_v54, main_v55, main_v56, main_v57, main_c_11,
    main_v58, main_v59, main_c_12, main_v60, main_v61, main_v62, main_v63, main_v64, main_cst_13,
    main_v65, main_v66, main_v67, main_v68, main_v69, main_v70, main_v71, main_v72, main_v73,
    main_v74, main_v75, main_v76, main_cst_14, main_v77, main_v78, main_v79, main_cst_15, main_v80,
    main_cst_16, main_v81, main_v82, main_v83, main_v84, main_v85, main_v86, main_cst_17, main_v87,
    main_v88, main_v89, main_v90, main_v91, main_v92, main_v93, main_v94, main_c_18, main_v95,
    main_v96, main_c_19, main_v97, main_v98, main_v99, main_v100, main_v101, main_cst_20, main_v102,
    main_v103, main_v104, main_v105, main_v106, main_v107, main_v108, main_v109, main_v110, main_v111,
    main_cst_21, main_v112, main_v113, main_cst_22, main_v114, main_v115, main_v116, main_v117, main_v118,
    main_cst_23, main_v119, main_v120, main_cst_24, main_v121, main_v122, main_v123, main_v124, main_cst_25,
    main_v125, main_v126, main_v127, main_v128, main_v129, main_v130, main_v131, main_v132, main_v133,
    main_v134, main_v135, main_v136, main_v137, main_v138, main_v139, main_c_26, main_v140, main_v141,
    main_c_27, main_v142, main_v143, main_v144, main_v145, main_v146, main_cst_28, main_v147, main_v148,
    main_v149, main_v150, main_v151, main_v152, main_v153, main_v154, main_v155, main_v156, main_call0_cst,
    main_call0_v0, main_v157, main_v158, main_v159, main_v160, main_c_29, main_v161, main_v162, main_c_30,
    main_v163, main_v164, main_v165, main_v166, main_v167, main_cst_31, main_v168, main_v169, main_v170,
    main_v171, main_v172, main_v173, main_v174, main_v175, main_v176, main_v177, main_cst_32, main_v178,
    main_v179, main_cst_33, main_v180, main_v181, main_v182, main_v183, main_v184, main_cst_34, main_v185,
    main_v186, main_cst_35, main_v187, main_v188, main_v189, main_v190, main_cst_36, main_v191, main_v192,
    main_v193, main_v194, main_v195, main_v196, main_v197, main_v198, main_v199, main_v200, main_v201 ]

set_option maxRecDepth 16384 in
set_option maxHeartbeats 40000000 in
/-- Operation by operation, what is written is the one result buffer listed at its place. -/
theorem ops_lined_up : List.Forall₂ (fun op y => op.writes = {Proc.devRef (τ := τ) .tc y})
    (ops : List (HloOp τ sig (Elt F))) refW :=
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <| .cons rfl <| .cons rfl <| .cons rfl <| .cons rfl <| .cons rfl <| .cons rfl <| .cons rfl <| .cons rfl <| .cons rfl <|
    .cons rfl <| .cons rfl <| .cons rfl <|
    .nil

/-- Every operation of the reference writes within the listed result buffers. -/
theorem ops_writes : ∀ op ∈ (ops : List (HloOp τ sig (Elt F))),
    op.writes ⊆ (refW.map (Proc.devRef (τ := τ) .tc)).toFinset :=
  writes_sub_of_forall₂ ops_lined_up

/-! ## Buffers the reference never writes -/

/-- A buffer that is the result of no operation holds, after the whole program, what it held at launch. -/
theorem arg_kept (m : (ℓ : Loc nD τ sig) → Buf (Elt F) ℓ) (c : Dev nD) (r : Ref sig .tc) (hr : r ∉ refW) :
    StableHlo.after (ops (F := F)) (StableHlo.launchContents m c) (Proc.devRef .tc r) = m ((c.tc : Thread nD τ).loc r) :=
  StableHlo.after_of_forall_not_mem (b := Proc.devRef .tc r) _ _ fun op hop =>
    not_mem_writes_of_sub (ops_writes op hop) hr

/-- No operation of the reference writes `main_arg0`: it ends as launched. -/
theorem kept_arg0 (m : (ℓ : Loc nD τ sig) → Buf (Elt F) ℓ) (c : Dev nD) :
    StableHlo.after (ops (F := F)) (StableHlo.launchContents m c) (Proc.devRef .tc main_arg0) = m ((c.tc : Thread nD τ).loc main_arg0) :=
  arg_kept m c main_arg0 (by decide)
/-- No operation of the reference writes `main_arg1`: it ends as launched. -/
theorem kept_arg1 (m : (ℓ : Loc nD τ sig) → Buf (Elt F) ℓ) (c : Dev nD) :
    StableHlo.after (ops (F := F)) (StableHlo.launchContents m c) (Proc.devRef .tc main_arg1) = m ((c.tc : Thread nD τ).loc main_arg1) :=
  arg_kept m c main_arg1 (by decide)
/-- No operation of the reference writes `main_arg2`: it ends as launched. -/
theorem kept_arg2 (m : (ℓ : Loc nD τ sig) → Buf (Elt F) ℓ) (c : Dev nD) :
    StableHlo.after (ops (F := F)) (StableHlo.launchContents m c) (Proc.devRef .tc main_arg2) = m ((c.tc : Thread nD τ).loc main_arg2) :=
  arg_kept m c main_arg2 (by decide)
/-- No operation of the reference writes `main_arg3`: it ends as launched. -/
theorem kept_arg3 (m : (ℓ : Loc nD τ sig) → Buf (Elt F) ℓ) (c : Dev nD) :
    StableHlo.after (ops (F := F)) (StableHlo.launchContents m c) (Proc.devRef .tc main_arg3) = m ((c.tc : Thread nD τ).loc main_arg3) :=
  arg_kept m c main_arg3 (by decide)
/-- No operation of the reference writes `main_arg4`: it ends as launched. -/
theorem kept_arg4 (m : (ℓ : Loc nD τ sig) → Buf (Elt F) ℓ) (c : Dev nD) :
    StableHlo.after (ops (F := F)) (StableHlo.launchContents m c) (Proc.devRef .tc main_arg4) = m ((c.tc : Thread nD τ).loc main_arg4) :=
  arg_kept m c main_arg4 (by decide)
/-- No operation of the reference writes `main_arg5`: it ends as launched. -/
theorem kept_arg5 (m : (ℓ : Loc nD τ sig) → Buf (Elt F) ℓ) (c : Dev nD) :
    StableHlo.after (ops (F := F)) (StableHlo.launchContents m c) (Proc.devRef .tc main_arg5) = m ((c.tc : Thread nD τ).loc main_arg5) :=
  arg_kept m c main_arg5 (by decide)
/-- No operation of the reference writes `main_arg6`: it ends as launched. -/
theorem kept_arg6 (m : (ℓ : Loc nD τ sig) → Buf (Elt F) ℓ) (c : Dev nD) :
    StableHlo.after (ops (F := F)) (StableHlo.launchContents m c) (Proc.devRef .tc main_arg6) = m ((c.tc : Thread nD τ).loc main_arg6) :=
  arg_kept m c main_arg6 (by decide)
/-- No operation of the reference writes `main_arg7`: it ends as launched. -/
theorem kept_arg7 (m : (ℓ : Loc nD τ sig) → Buf (Elt F) ℓ) (c : Dev nD) :
    StableHlo.after (ops (F := F)) (StableHlo.launchContents m c) (Proc.devRef .tc main_arg7) = m ((c.tc : Thread nD τ).loc main_arg7) :=
  arg_kept m c main_arg7 (by decide)
/-- No operation of the reference writes `main_arg8`: it ends as launched. -/
theorem kept_arg8 (m : (ℓ : Loc nD τ sig) → Buf (Elt F) ℓ) (c : Dev nD) :
    StableHlo.after (ops (F := F)) (StableHlo.launchContents m c) (Proc.devRef .tc main_arg8) = m ((c.tc : Thread nD τ).loc main_arg8) :=
  arg_kept m c main_arg8 (by decide)
/-- No operation of the reference writes `main_arg9`: it ends as launched. -/
theorem kept_arg9 (m : (ℓ : Loc nD τ sig) → Buf (Elt F) ℓ) (c : Dev nD) :
    StableHlo.after (ops (F := F)) (StableHlo.launchContents m c) (Proc.devRef .tc main_arg9) = m ((c.tc : Thread nD τ).loc main_arg9) :=
  arg_kept m c main_arg9 (by decide)
/-- No operation of the reference writes `main_arg10`: it ends as launched. -/
theorem kept_arg10 (m : (ℓ : Loc nD τ sig) → Buf (Elt F) ℓ) (c : Dev nD) :
    StableHlo.after (ops (F := F)) (StableHlo.launchContents m c) (Proc.devRef .tc main_arg10) = m ((c.tc : Thread nD τ).loc main_arg10) :=
  arg_kept m c main_arg10 (by decide)
/-- No operation of the reference writes `main_arg11`: it ends as launched. -/
theorem kept_arg11 (m : (ℓ : Loc nD τ sig) → Buf (Elt F) ℓ) (c : Dev nD) :
    StableHlo.after (ops (F := F)) (StableHlo.launchContents m c) (Proc.devRef .tc main_arg11) = m ((c.tc : Thread nD τ).loc main_arg11) :=
  arg_kept m c main_arg11 (by decide)
/-- No operation of the reference writes `main_arg12`: it ends as launched. -/
theorem kept_arg12 (m : (ℓ : Loc nD τ sig) → Buf (Elt F) ℓ) (c : Dev nD) :
    StableHlo.after (ops (F := F)) (StableHlo.launchContents m c) (Proc.devRef .tc main_arg12) = m ((c.tc : Thread nD τ).loc main_arg12) :=
  arg_kept m c main_arg12 (by decide)
/-- No operation of the reference writes `main_arg13`: it ends as launched. -/
theorem kept_arg13 (m : (ℓ : Loc nD τ sig) → Buf (Elt F) ℓ) (c : Dev nD) :
    StableHlo.after (ops (F := F)) (StableHlo.launchContents m c) (Proc.devRef .tc main_arg13) = m ((c.tc : Thread nD τ).loc main_arg13) :=
  arg_kept m c main_arg13 (by decide)
/-- No operation of the reference writes `main_arg14`: it ends as launched. -/
theorem kept_arg14 (m : (ℓ : Loc nD τ sig) → Buf (Elt F) ℓ) (c : Dev nD) :
    StableHlo.after (ops (F := F)) (StableHlo.launchContents m c) (Proc.devRef .tc main_arg14) = m ((c.tc : Thread nD τ).loc main_arg14) :=
  arg_kept m c main_arg14 (by decide)
/-- No operation of the reference writes `main_arg15`: it ends as launched. -/
theorem kept_arg15 (m : (ℓ : Loc nD τ sig) → Buf (Elt F) ℓ) (c : Dev nD) :
    StableHlo.after (ops (F := F)) (StableHlo.launchContents m c) (Proc.devRef .tc main_arg15) = m ((c.tc : Thread nD τ).loc main_arg15) :=
  arg_kept m c main_arg15 (by decide)
/-- No operation of the reference writes `main_arg16`: it ends as launched. -/
theorem kept_arg16 (m : (ℓ : Loc nD τ sig) → Buf (Elt F) ℓ) (c : Dev nD) :
    StableHlo.after (ops (F := F)) (StableHlo.launchContents m c) (Proc.devRef .tc main_arg16) = m ((c.tc : Thread nD τ).loc main_arg16) :=
  arg_kept m c main_arg16 (by decide)

end Cert.ReferenceIdeal.HandRun

end
-- ==== Proof.RefFinal.lean ====
/-
  The reference program's run: every weakly fair execution terminates, faults nowhere, leaves
  the two results at the layer of the launch arguments and the arguments as launched (no
  operation writes an argument buffer).
-/
import proofs.«122702_j23356032156211_2_alg».proof.Proof.RefRun
import proofs.«122702_j23356032156211_2_alg».proof.Proof.RefKept

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

set_option maxHeartbeats 40000000 in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v201) = out0 m c
      ∧ r.2.mem ((c.tc : Thread nD τ).loc main_v90) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v201).trans (after_v201 m c), (h c main_v90).trans (after_v90 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c),
      (h c main_arg16).trans (kept_arg16 m c)⟩)
    (run_seq scopedRefs_eq scopedSems_eq defs main (fun _ => ops) main_eq (fun _ => ops_sub) m ρ)

end Cert.ReferenceIdeal.HandRun

end
-- ==== Proof.lean ====
/-
  A graph attention layer: the kernel program against its reference.

  Both programs normalise a graph's adjacency by the square roots of the node degrees,
  aggregate node features along the edges, form queries, keys and values, take the softmax
  attention of all nodes over all nodes, and run a residual, layer-normalised feed-forward
  block of aggregations. They return the layer's output and the attention weights.

  The kernel program differs from the reference in four ways, none of which changes a value
  on the extended reals with exact operations:
  * the three projections are one product with the three weight matrices joined, cut into
    three blocks of columns (the same sums, entry by entry);
  * the attention is computed by a grid of 64 blocks of 128 query rows against all keys and
    values, each block written back to its rows of the two result arrays (the blocks tile
    the arrays, and a row of weights depends on its own query row only);
  * the scores are scaled by the binary number 1/16 instead of being divided by the square
    root of 256 (equal for every extended real, as the root is 16);
  * the last projection is applied before the last aggregation instead of after it. This is
    distributivity, which fails at infinities, and is where the finiteness of the inputs is
    used: every intermediate value is then a real number.

  The three frames are the programs' runs: the reference is a straight line of host
  operations; the kernel programs are host lines, one pipelined region whose body loads its
  blocks and stores two whole blocks, and host lines again.
-/
import proofs.«122702_j23356032156211_2_alg».proof.Defs
import proofs.«122702_j23356032156211_2_alg».proof.Proof.Gen.Kernel
import proofs.«122702_j23356032156211_2_alg».proof.Proof.Gen.KernelIdeal
import proofs.«122702_j23356032156211_2_alg».proof.Proof.Gen.ReferenceIdeal
import proofs.«122702_j23356032156211_2_alg».proof.Proof.Gen.Pre_finite_inputs
import proofs.«122702_j23356032156211_2_alg».proof.Proof.KernelFrame
import proofs.«122702_j23356032156211_2_alg».proof.Proof.KernelIdealFrame
import proofs.«122702_j23356032156211_2_alg».proof.Proof.KernelValue
import proofs.«122702_j23356032156211_2_alg».proof.Proof.RefFinal
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the two results forgotten. -/
theorem frame_ri : Cert.frame_ReferenceIdeal := fun m ρ _ =>
  (θ_run Cert.ReferenceIdeal.defs _ _).mono (fun _ h c => (h c).2.2) (Cert.ReferenceIdeal.HandRun.run m ρ)

/-- From memories that agree on the arguments, finite on the kernel's side, both programs end
    with the same two results: the kernel's run names them in the reference's arrangement, and
    the reference's results are that arrangement of its own, equal, arguments. -/
theorem algebraic : Cert.algebraic_KernelIdeal_ReferenceIdeal := by
  intro m ρ m' ρ' hpre hagree
  refine ⟨fun c => Cert.KernelIdeal.Hand.kout0 m c, fun c => Cert.KernelIdeal.Hand.kout1 m c,
    Cert.KernelIdeal.Hand.kernel_run m ρ hpre, ?_⟩
  refine (θ_run Cert.ReferenceIdeal.defs _ _).mono (fun _ h c => ⟨(h c).1.trans ?_, (h c).2.1.trans ?_, (h c).2.2⟩)
    (Cert.ReferenceIdeal.HandRun.run m' ρ')
  · obtain ⟨e0, e1, e2, e3, e4, e5, e6, e7, e8, e9, e10, e11, e12, e13, e14, e15, e16⟩ := hagree c
    unfold Cert.ReferenceIdeal.HandRun.out0 Cert.KernelIdeal.Hand.kout0
    simp only [Cert.ReferenceIdeal.HandRun.at_, Cert.KernelIdeal.Hand.arg]
    rw [e0, e1, e2, e3, e4, e5, e6, e7, e8, e9, e10, e11, e12, e13, e14, e15, e16]
  · obtain ⟨e0, e1, e2, e3, e4, e5, e6, e7, e8, e9, e10, e11, e12, e13, e14, e15, e16⟩ := hagree c
    unfold Cert.ReferenceIdeal.HandRun.out1 Cert.KernelIdeal.Hand.kout1
    simp only [Cert.ReferenceIdeal.HandRun.at_, Cert.KernelIdeal.Hand.arg]
    rw [e0, e1, e2, e3, e4, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
